-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v261) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S3x256x256 : Shape := ⟨3, ![3, 256, 256]⟩
abbrev S3x256 : Shape := ⟨2, ![3, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg6 : FVec F S3x256 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  main_v23

def fn {F : FTy → Type} [FloatOps F] (main_arg0 : FVec F S50000x256 .f32) (main_arg1 : IVec S2x800000 32) (main_arg2 : IVec S50000 32) (main_arg3 : FVec F S3x256x256 .f32) (main_arg4 : FVec F S3x256 .f32) (main_arg5 : FVec F S3x256 .f32) (main_arg6 : FVec F S3x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S3x256x256 .f32 := Host.absf main_arg3
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg4
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256 .f32 := Host.absf main_arg5
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg6 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x256x256 : Shape := ⟨3, ![1, 256, 256]⟩
abbrev S256x256 : Shape := ⟨2, ![256, 256]⟩
abbrev S2000x256 : Shape := ⟨2, ![2000, 256]⟩
abbrev S800000x256 : Shape := ⟨2, ![800000, 256]⟩
abbrev S1x256 : Shape := ⟨2, ![1, 256]⟩
abbrev S256 : Shape := ⟨1, ![256]⟩
abbrev S2000 : Shape := ⟨1, ![2000]⟩
abbrev S2000x1 : Shape := ⟨2, ![2000, 1]⟩
abbrev S64x256 : Shape := ⟨2, ![64, 256]⟩
abbrev S64 : Shape := ⟨1, ![64]⟩
abbrev S64x1 : Shape := ⟨2, ![64, 1]⟩

abbrev nBuf : Space → Nat
  | .hbm => 159
  | .vmem => 36
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S3x256x256, .f32⟩
  | 4 => ⟨S3x256, .f32⟩
  | 5 => ⟨S3x256, .f32⟩
  | 6 => ⟨S3x256, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S800000x1, .f32⟩
  | 48 => ⟨S50000, .f32⟩
  | 49 => ⟨S50000x1, .f32⟩
  | 50 => ⟨S1x256x256, .f32⟩
  | 51 => ⟨S256x256, .f32⟩
  | 52 => ⟨S50000x256, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x256, .f32⟩
  | 62 => ⟨S800000x256, .f32⟩
  | 63 => ⟨S800000x256, .f32⟩
  | 64 => ⟨S_, .f32⟩
  | 65 => ⟨S50000x256, .f32⟩
  | 66 => ⟨S800000x1, .i32⟩
  | 67 => ⟨S50000x256, .f32⟩
  | 68 => ⟨S50000x256, .f32⟩
  | 69 => ⟨S50000x256, .f32⟩
  | 70 => ⟨S50000x256, .f32⟩
  | 71 => ⟨S1x256, .f32⟩
  | 72 => ⟨S256, .f32⟩
  | 73 => ⟨S1x256, .f32⟩
  | 74 => ⟨S256, .f32⟩
  | 75 => ⟨S1x256, .f32⟩
  | 76 => ⟨S256, .f32⟩
  | 77 => ⟨S1x256, .f32⟩
  | 78 => ⟨S1x256, .f32⟩
  | 79 => ⟨S1x256, .f32⟩
  | 80 => ⟨S50000x256, .f32⟩
  | 81 => ⟨S1x256x256, .f32⟩
  | 82 => ⟨S256x256, .f32⟩
  | 83 => ⟨S50000x256, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x256, .f32⟩
  | 93 => ⟨S800000x256, .f32⟩
  | 94 => ⟨S800000x256, .f32⟩
  | 95 => ⟨S_, .f32⟩
  | 96 => ⟨S50000x256, .f32⟩
  | 97 => ⟨S800000x1, .i32⟩
  | 98 => ⟨S50000x256, .f32⟩
  | 99 => ⟨S50000x256, .f32⟩
  | 100 => ⟨S50000x256, .f32⟩
  | 101 => ⟨S50000x256, .f32⟩
  | 102 => ⟨S1x256, .f32⟩
  | 103 => ⟨S256, .f32⟩
  | 104 => ⟨S1x256, .f32⟩
  | 105 => ⟨S256, .f32⟩
  | 106 => ⟨S1x256, .f32⟩
  | 107 => ⟨S256, .f32⟩
  | 108 => ⟨S1x256, .f32⟩
  | 109 => ⟨S1x256, .f32⟩
  | 110 => ⟨S1x256, .f32⟩
  | 111 => ⟨S50000x256, .f32⟩
  | 112 => ⟨S1x256x256, .f32⟩
  | 113 => ⟨S256x256, .f32⟩
  | 114 => ⟨S50000x256, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x256, .f32⟩
  | 124 => ⟨S800000x256, .f32⟩
  | 125 => ⟨S800000x256, .f32⟩
  | 126 => ⟨S_, .f32⟩
  | 127 => ⟨S50000x256, .f32⟩
  | _ => ⟨S50000x256, .f32⟩

abbrev hbmTy0_1 (i : Nat) : BufTy := match i % 128 with
  | 0 => ⟨S800000x1, .i32⟩
  | 1 => ⟨S50000x256, .f32⟩
  | 2 => ⟨S50000x256, .f32⟩
  | 3 => ⟨S50000x256, .f32⟩
  | 4 => ⟨S50000x256, .f32⟩
  | 5 => ⟨S1x256, .f32⟩
  | 6 => ⟨S256, .f32⟩
  | 7 => ⟨S1x256, .f32⟩
  | 8 => ⟨S256, .f32⟩
  | 9 => ⟨S1x256, .f32⟩
  | 10 => ⟨S256, .f32⟩
  | 11 => ⟨S1x256, .f32⟩
  | 12 => ⟨S1x256, .f32⟩
  | 13 => ⟨S1x256, .f32⟩
  | 14 => ⟨S50000x256, .f32⟩
  | 15 => ⟨S_, .f32⟩
  | 16 => ⟨S64x256, .f32⟩
  | 17 => ⟨S50000x1, .i32⟩
  | 18 => ⟨S64x256, .f32⟩
  | 19 => ⟨S_, .f32⟩
  | 20 => ⟨S50000, .f32⟩
  | 21 => ⟨S_, .f32⟩
  | 22 => ⟨S64, .f32⟩
  | 23 => ⟨S50000x1, .i32⟩
  | 24 => ⟨S64, .f32⟩
  | 25 => ⟨S_, .f32⟩
  | 26 => ⟨S64, .f32⟩
  | 27 => ⟨S64, .f32⟩
  | 28 => ⟨S64x1, .f32⟩
  | 29 => ⟨S64x256, .f32⟩
  | 30 => ⟨S64x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_10 : Ref sig .tc := ⟨.hbm, 84, rfl⟩
abbrev main_v65 : Ref sig .tc := ⟨.hbm, 85, rfl⟩
abbrev main_v66 : Ref sig .tc := ⟨.hbm, 86, rfl⟩
abbrev main_c_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_c_13 : Ref sig .tc := ⟨.hbm, 115, rfl⟩
abbrev main_v93 : Ref sig .tc := ⟨.hbm, 116, rfl⟩
abbrev main_v94 : Ref sig .tc := ⟨.hbm, 117, rfl⟩
abbrev main_c_14 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_15 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_16 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_17 : Ref sig .tc := ⟨.hbm, 147, rfl⟩
abbrev main_v121 : Ref sig .tc := ⟨.hbm, 148, rfl⟩
abbrev main_cst_18 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_19 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x256x256_S1x256x256_0_0_0 : S3x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S3x256_S1x256_0_0 : S3x256.Slices ![0, 0] S1x256
  shapeCasts_S1x256_S256 : S1x256.ShapeCasts S256
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S50000x256.size a
  hwx5_4 : ∀ i : grid5.Coords, EltTy.bits .f32 = 32 ∨ (Rect.block (s := S50000x256) S2000x256.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v61) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v89) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v107) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v114) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v115) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v116) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v117) S2000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S64x256 : Shape := ⟨2, ![64, 256]⟩
abbrev S64 : Shape := ⟨1, ![64]⟩
abbrev S64x1 : Shape := ⟨2, ![64, 1]⟩

abbrev nBuf : Space → Nat
  | .hbm => 330
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S3x256x256, .f32⟩
  | 4 => ⟨S3x256, .f32⟩
  | 5 => ⟨S3x256, .f32⟩
  | 6 => ⟨S3x256, .f32⟩
  | 7 => ⟨S1x800000, .i32⟩
  | 8 => ⟨S800000, .i32⟩
  | 9 => ⟨S1x800000, .i32⟩
  | 10 => ⟨S800000, .i32⟩
  | 11 => ⟨S1x256x256, .f32⟩
  | 12 => ⟨S256x256, .f32⟩
  | 13 => ⟨S1x256, .f32⟩
  | 14 => ⟨S256, .f32⟩
  | 15 => ⟨S50000x256, .f32⟩
  | 16 => ⟨S_, .f32⟩
  | 17 => ⟨S50000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S_, .f32⟩
  | 27 => ⟨S800000, .f32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S800000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x256, .f32⟩
  | 62 => ⟨S800000x256, .f32⟩
  | 63 => ⟨S800000x256, .f32⟩
  | 64 => ⟨S_, .f32⟩
  | 65 => ⟨S50000x256, .f32⟩
  | 66 => ⟨S800000x1, .i32⟩
  | 67 => ⟨S50000x256, .f32⟩
  | 68 => ⟨S50000, .f32⟩
  | 69 => ⟨S50000x1, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S1x256, .f32⟩
  | 77 => ⟨S256, .f32⟩
  | 78 => ⟨S1x256, .f32⟩
  | 79 => ⟨S256, .f32⟩
  | 80 => ⟨S_, .f32⟩
  | 81 => ⟨S50000, .f32⟩
  | 82 => ⟨S50000x1, .f32⟩
  | 83 => ⟨S_, .f32⟩
  | 84 => ⟨S50000x1, .f32⟩
  | 85 => ⟨S50000x1, .f32⟩
  | 86 => ⟨S50000x256, .f32⟩
  | 87 => ⟨S50000x256, .f32⟩
  | 88 => ⟨S50000x256, .f32⟩
  | 89 => ⟨S_, .f32⟩
  | 90 => ⟨S50000, .f32⟩
  | 91 => ⟨S50000x1, .f32⟩
  | 92 => ⟨S_, .f32⟩
  | 93 => ⟨S50000x1, .f32⟩
  | 94 => ⟨S50000x1, .f32⟩
  | 95 => ⟨S50000x256, .f32⟩
  | 96 => ⟨S50000x256, .f32⟩
  | 97 => ⟨S_, .f32⟩
  | 98 => ⟨S50000x1, .f32⟩
  | 99 => ⟨S50000x1, .f32⟩
  | 100 => ⟨S50000x1, .f32⟩
  | 101 => ⟨S50000x256, .f32⟩
  | 102 => ⟨S50000x256, .f32⟩
  | 103 => ⟨S1x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S50000x256, .f32⟩
  | 111 => ⟨S50000x256, .f32⟩
  | 112 => ⟨S1x256x256, .f32⟩
  | 113 => ⟨S256x256, .f32⟩
  | 114 => ⟨S1x256, .f32⟩
  | 115 => ⟨S256, .f32⟩
  | 116 => ⟨S50000x256, .f32⟩
  | 117 => ⟨S_, .f32⟩
  | 118 => ⟨S50000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S_, .f32⟩
  | _ => ⟨S50000x256, .f32⟩

abbrev hbmTy0_1 (i : Nat) : BufTy := match i % 128 with
  | 0 => ⟨S800000, .f32⟩
  | 1 => ⟨S50000, .f32⟩
  | 2 => ⟨S_, .f32⟩
  | 3 => ⟨S50000, .f32⟩
  | 4 => ⟨S50000, .f32⟩
  | 5 => ⟨S50000, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000, .f32⟩
  | 24 => ⟨S800000, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S800000x256, .f32⟩
  | 36 => ⟨S800000x256, .f32⟩
  | 37 => ⟨S_, .f32⟩
  | 38 => ⟨S50000x256, .f32⟩
  | 39 => ⟨S800000x1, .i32⟩
  | 40 => ⟨S50000x256, .f32⟩
  | 41 => ⟨S50000, .f32⟩
  | 42 => ⟨S50000x1, .f32⟩
  | 43 => ⟨S50000x256, .f32⟩
  | 44 => ⟨S50000x256, .f32⟩
  | 45 => ⟨S50000x256, .f32⟩
  | 46 => ⟨S1x256, .f32⟩
  | 47 => ⟨S50000x256, .f32⟩
  | 48 => ⟨S50000x256, .f32⟩
  | 49 => ⟨S1x256, .f32⟩
  | 50 => ⟨S256, .f32⟩
  | 51 => ⟨S1x256, .f32⟩
  | 52 => ⟨S256, .f32⟩
  | 53 => ⟨S_, .f32⟩
  | 54 => ⟨S50000, .f32⟩
  | 55 => ⟨S50000x1, .f32⟩
  | 56 => ⟨S_, .f32⟩
  | 57 => ⟨S50000x1, .f32⟩
  | 58 => ⟨S50000x1, .f32⟩
  | 59 => ⟨S50000x256, .f32⟩
  | 60 => ⟨S50000x256, .f32⟩
  | 61 => ⟨S50000x256, .f32⟩
  | 62 => ⟨S_, .f32⟩
  | 63 => ⟨S50000, .f32⟩
  | 64 => ⟨S50000x1, .f32⟩
  | 65 => ⟨S_, .f32⟩
  | 66 => ⟨S50000x1, .f32⟩
  | 67 => ⟨S50000x1, .f32⟩
  | 68 => ⟨S50000x256, .f32⟩
  | 69 => ⟨S50000x256, .f32⟩
  | 70 => ⟨S_, .f32⟩
  | 71 => ⟨S50000x1, .f32⟩
  | 72 => ⟨S50000x1, .f32⟩
  | 73 => ⟨S50000x1, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S1x256, .f32⟩
  | 80 => ⟨S50000x256, .f32⟩
  | 81 => ⟨S50000x256, .f32⟩
  | 82 => ⟨S_, .f32⟩
  | 83 => ⟨S50000x256, .f32⟩
  | 84 => ⟨S50000x256, .f32⟩
  | 85 => ⟨S1x256x256, .f32⟩
  | 86 => ⟨S256x256, .f32⟩
  | 87 => ⟨S1x256, .f32⟩
  | 88 => ⟨S256, .f32⟩
  | 89 => ⟨S50000x256, .f32⟩
  | 90 => ⟨S_, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S_, .f32⟩
  | 101 => ⟨S800000, .f32⟩
  | 102 => ⟨S50000, .f32⟩
  | 103 => ⟨S_, .f32⟩
  | 104 => ⟨S50000, .f32⟩
  | 105 => ⟨S50000, .f32⟩
  | 106 => ⟨S50000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S800000, .f32⟩
  | 126 => ⟨S800000x1, .f32⟩
  | 127 => ⟨S_, .i32⟩
  | _ => ⟨S50000x256, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x256, .f32⟩
  | 8 => ⟨S800000x256, .f32⟩
  | 9 => ⟨S800000x256, .f32⟩
  | 10 => ⟨S_, .f32⟩
  | 11 => ⟨S50000x256, .f32⟩
  | 12 => ⟨S800000x1, .i32⟩
  | 13 => ⟨S50000x256, .f32⟩
  | 14 => ⟨S50000, .f32⟩
  | 15 => ⟨S50000x1, .f32⟩
  | 16 => ⟨S50000x256, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S1x256, .f32⟩
  | 23 => ⟨S256, .f32⟩
  | 24 => ⟨S1x256, .f32⟩
  | 25 => ⟨S256, .f32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S50000x256, .f32⟩
  | 33 => ⟨S50000x256, .f32⟩
  | 34 => ⟨S50000x256, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x256, .f32⟩
  | 42 => ⟨S50000x256, .f32⟩
  | 43 => ⟨S_, .f32⟩
  | 44 => ⟨S50000x1, .f32⟩
  | 45 => ⟨S50000x1, .f32⟩
  | 46 => ⟨S50000x1, .f32⟩
  | 47 => ⟨S50000x256, .f32⟩
  | 48 => ⟨S50000x256, .f32⟩
  | 49 => ⟨S1x256, .f32⟩
  | 50 => ⟨S50000x256, .f32⟩
  | 51 => ⟨S50000x256, .f32⟩
  | 52 => ⟨S1x256, .f32⟩
  | 53 => ⟨S50000x256, .f32⟩
  | 54 => ⟨S50000x256, .f32⟩
  | 55 => ⟨S_, .f32⟩
  | 56 => ⟨S50000x256, .f32⟩
  | 57 => ⟨S50000x256, .f32⟩
  | 58 => ⟨S_, .f32⟩
  | 59 => ⟨S64x256, .f32⟩
  | 60 => ⟨S50000x1, .i32⟩
  | 61 => ⟨S64x256, .f32⟩
  | 62 => ⟨S_, .f32⟩
  | 63 => ⟨S50000, .f32⟩
  | 64 => ⟨S_, .f32⟩
  | 65 => ⟨S64, .f32⟩
  | 66 => ⟨S50000x1, .i32⟩
  | 67 => ⟨S64, .f32⟩
  | 68 => ⟨S_, .f32⟩
  | 69 => ⟨S64, .f32⟩
  | 70 => ⟨S64, .f32⟩
  | 71 => ⟨S64x1, .f32⟩
  | 72 => ⟨S64x256, .f32⟩
  | 73 => ⟨S64x256, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_call0_cst : Ref sig .tc := ⟨.hbm, 109, rfl⟩
abbrev main_call0_v0 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_c_16 : Ref sig .tc := ⟨.hbm, 119, rfl⟩
abbrev main_v92 : Ref sig .tc := ⟨.hbm, 120, rfl⟩
abbrev main_v93 : Ref sig .tc := ⟨.hbm, 121, rfl⟩
abbrev main_c_17 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_18 : Ref sig .tc := ⟨.hbm, 127, rfl⟩
abbrev main_v98 : Ref sig .tc := ⟨.hbm, 128, rfl⟩
abbrev main_v99 : Ref sig .tc := ⟨.hbm, 129, rfl⟩
abbrev main_cst_19 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_20 : Ref sig .tc := ⟨.hbm, 134, rfl⟩
abbrev main_v103 : Ref sig .tc := ⟨.hbm, 135, rfl⟩
abbrev main_v104 : Ref sig .tc := ⟨.hbm, 136, rfl⟩
abbrev main_c_21 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_22 : Ref sig .tc := ⟨.hbm, 143, rfl⟩
abbrev main_v110 : Ref sig .tc := ⟨.hbm, 144, rfl⟩
abbrev main_v111 : Ref sig .tc := ⟨.hbm, 145, rfl⟩
abbrev main_c_23 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_c_24 : Ref sig .tc := ⟨.hbm, 154, rfl⟩
abbrev main_v119 : Ref sig .tc := ⟨.hbm, 155, rfl⟩
abbrev main_v120 : Ref sig .tc := ⟨.hbm, 156, rfl⟩
abbrev main_c_25 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_26 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_27 : Ref sig .tc := ⟨.hbm, 181, rfl⟩
abbrev main_v143 : Ref sig .tc := ⟨.hbm, 182, rfl⟩
abbrev main_v144 : Ref sig .tc := ⟨.hbm, 183, rfl⟩
abbrev main_cst_28 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_29 : Ref sig .tc := ⟨.hbm, 190, rfl⟩
abbrev main_v150 : Ref sig .tc := ⟨.hbm, 191, rfl⟩
abbrev main_v151 : Ref sig .tc := ⟨.hbm, 192, rfl⟩
abbrev main_cst_30 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_31 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_call1_cst : Ref sig .tc := ⟨.hbm, 210, rfl⟩
abbrev main_call1_v0 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_cst_32 : Ref sig .tc := ⟨.hbm, 218, rfl⟩
abbrev main_v173 : Ref sig .tc := ⟨.hbm, 219, rfl⟩
abbrev main_c_33 : Ref sig .tc := ⟨.hbm, 220, rfl⟩
abbrev main_v174 : Ref sig .tc := ⟨.hbm, 221, rfl⟩
abbrev main_v175 : Ref sig .tc := ⟨.hbm, 222, rfl⟩
abbrev main_c_34 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_35 : Ref sig .tc := ⟨.hbm, 228, rfl⟩
abbrev main_v180 : Ref sig .tc := ⟨.hbm, 229, rfl⟩
abbrev main_v181 : Ref sig .tc := ⟨.hbm, 230, rfl⟩
abbrev main_cst_36 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_c_37 : Ref sig .tc := ⟨.hbm, 235, rfl⟩
abbrev main_v185 : Ref sig .tc := ⟨.hbm, 236, rfl⟩
abbrev main_v186 : Ref sig .tc := ⟨.hbm, 237, rfl⟩
abbrev main_c_38 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_c_39 : Ref sig .tc := ⟨.hbm, 244, rfl⟩
abbrev main_v192 : Ref sig .tc := ⟨.hbm, 245, rfl⟩
abbrev main_v193 : Ref sig .tc := ⟨.hbm, 246, rfl⟩
abbrev main_c_40 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_c_41 : Ref sig .tc := ⟨.hbm, 255, rfl⟩
abbrev main_v201 : Ref sig .tc := ⟨.hbm, 256, rfl⟩
abbrev main_v202 : Ref sig .tc := ⟨.hbm, 257, rfl⟩
abbrev main_c_42 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_cst_43 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_cst_44 : Ref sig .tc := ⟨.hbm, 282, rfl⟩
abbrev main_v225 : Ref sig .tc := ⟨.hbm, 283, rfl⟩
abbrev main_v226 : Ref sig .tc := ⟨.hbm, 284, rfl⟩
abbrev main_cst_45 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_cst_46 : Ref sig .tc := ⟨.hbm, 291, rfl⟩
abbrev main_v232 : Ref sig .tc := ⟨.hbm, 292, rfl⟩
abbrev main_v233 : Ref sig .tc := ⟨.hbm, 293, rfl⟩
abbrev main_cst_47 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_cst_48 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_call2_cst : Ref sig .tc := ⟨.hbm, 311, rfl⟩
abbrev main_call2_v0 : Ref sig .tc := ⟨.hbm, 312, rfl⟩
abbrev main_v249 : Ref sig .tc := ⟨.hbm, 313, rfl⟩
abbrev main_cst_49 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_cst_50 : Ref sig .tc := ⟨.hbm, 318, rfl⟩
abbrev main_v253 : Ref sig .tc := ⟨.hbm, 319, rfl⟩
abbrev main_cst_51 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_cst_52 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelRun.lean ====
/-
  THE IDEALIZED KERNEL PROGRAM'S RUN WITH ITS RESULT NAMED.

  The program is thirteen segments: seven stretches of host operations around six kernel regions. Every weakly fair
  execution terminates, nothing faults, the seven argument arrays end as launched, and the result buffer ends holding
  what the fold of the segments leaves there: the last stretch of host operations applied to the contents at the sixth
  region's exit (`Gen.W13`). The launch over the segments is the one the frame of this program uses; what is added is
  the reading of the result buffer in the final state.
-/
import proofs.«165873_j6476810682405_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the
    segments' fold leaves there, and the arguments end as launched. -/
theorem run_result : θ_run defs (onTc (τ := τ) (main (F := F))) ⟨m, fun _ => 0, ρ⟩ (fun r => ∀ c : Dev nD,
      r.2.mem ((c.tc : Thread nD τ).loc main_v129) = W13 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v129 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.Result

end
-- ==== Proof.Spec.lean ====
/-
  THE MATHEMATICS OF ONE GRAPH-CONVOLUTION LAYER'S DENSE PARTS, index by index on the extended reals.

  A layer multiplies the node features by a 256 × 256 weight matrix, mixes rows along the graph's edges (host
  operations both programs share and which are never opened here), then adds a bias to every row, normalises the row
  to mean zero and variance one (with the usual small constant under the reciprocal square root), scales and shifts
  it per column, and clips at zero. The two dense parts are stated here as plain functions of arrays:

  * `mm x w` — the matrix product: entry `(p, q)` is the sum over `k` of `x (p, k) * w (k, q)`;
  * `lnRelu y q g be` — entry `q` of the normalised, scaled, shifted and clipped row `y`: with
    `mu = (sum_k y k) / 256` and `var = (sum_k (y k - mu)^2) / 256`, it is
    `max ((y q - mu) * rsqrt (var + eps) * g + be) 0`;
  * `ln agg b g be` — the whole array: row `p` of `agg` plus the bias row, through `lnRelu`.

  The float constants stay as the words both programs print (256, the small constant, zero): the same word on both
  sides is never evaluated.
-/
import Idealize.ShloMosaic.PureOps.Ideal
import Idealize.ShloMosaic.Lib.ValueIdx

noncomputable section

namespace Cert.Gcn

open Idealize.ShloMosaic Idealize.ShloMosaic.ValueIdx

/-- Entry `(p, q)` of the product of a 50000 × 256 by a 256 × 256 matrix. -/
def mmAt (x : (⟨2, ![50000, 256]⟩ : Shape).Idx → EReal) (w : (⟨2, ![256, 256]⟩ : Shape).Idx → EReal)
    (p : Fin 50000) (q : Fin 256) : EReal :=
  ∑ k : Fin 256, x (ix2 p k) * w (ix2 k q)

/-- The product as an array. -/
def mm (x : (⟨2, ![50000, 256]⟩ : Shape).Idx → EReal) (w : (⟨2, ![256, 256]⟩ : Shape).Idx → EReal) :
    (⟨2, ![50000, 256]⟩ : Shape).Idx → EReal :=
  fun i => mmAt x w (i 0) (i 1)

theorem mm_apply (x : (⟨2, ![50000, 256]⟩ : Shape).Idx → EReal) (w : (⟨2, ![256, 256]⟩ : Shape).Idx → EReal)
    (p : Fin 50000) (q : Fin 256) : mm x w (ix2 p q) = ∑ k : Fin 256, x (ix2 p k) * w (ix2 k q) := rfl

/-- The mean of a row of 256 entries: its sum over the float 256. -/
def rowMean (y : Fin 256 → EReal) : EReal :=
  Ideal.div (∑ k : Fin 256, y k) (Ideal.ofBits .f32 0x43800000#32)

/-- The variance of a row: the mean of the squared deviations from the row's mean. -/
def rowVar (y : Fin 256 → EReal) : EReal :=
  Ideal.div (∑ k : Fin 256, (y k - rowMean y) * (y k - rowMean y)) (Ideal.ofBits .f32 0x43800000#32)

/-- Entry `q` of a row after normalisation, scale `g`, shift `be` and the clip at zero. -/
def lnRelu (y : Fin 256 → EReal) (q : Fin 256) (g be : EReal) : EReal :=
  max ((y q - rowMean y) * Ideal.rsqrt (rowVar y + Ideal.ofBits .f32 0x3727C5AC#32) * g + be)
    (Ideal.ofBits .f32 0x00000000#32)

/-- A vector of 256 entries laid out as a row `[1, 256]`. -/
def asRow (v : (⟨1, ![256]⟩ : Shape).Idx → EReal) : (⟨2, ![1, 256]⟩ : Shape).Idx → EReal :=
  fun j => v (ix1 (j 1))

theorem asRow_apply (v : (⟨1, ![256]⟩ : Shape).Idx → EReal) (k : Fin 256) : asRow v (ix2 0 k) = v (ix1 k) := rfl

/-- The layer's second dense part on whole arrays: the bias, scale and shift are rows `[1, 256]`. -/
def lnAt (agg : (⟨2, ![50000, 256]⟩ : Shape).Idx → EReal) (b g be : (⟨2, ![1, 256]⟩ : Shape).Idx → EReal)
    (p : Fin 50000) (q : Fin 256) : EReal :=
  lnRelu (fun k => agg (ix2 p k) + b (ix2 0 k)) q (g (ix2 0 q)) (be (ix2 0 q))

def ln (agg : (⟨2, ![50000, 256]⟩ : Shape).Idx → EReal) (b g be : (⟨2, ![1, 256]⟩ : Shape).Idx → EReal) :
    (⟨2, ![50000, 256]⟩ : Shape).Idx → EReal :=
  fun i => lnAt agg b g be (i 0) (i 1)

theorem ln_apply (agg : (⟨2, ![50000, 256]⟩ : Shape).Idx → EReal) (b g be : (⟨2, ![1, 256]⟩ : Shape).Idx → EReal)
    (p : Fin 50000) (q : Fin 256) :
    ln agg b g be (ix2 p q) = lnRelu (fun k => agg (ix2 p k) + b (ix2 0 k)) q (g (ix2 0 q)) (be (ix2 0 q)) := rfl

end Cert.Gcn

end
-- ==== Proof.LibPlainDot.lean ====
/-
  A PLAIN MATRIX PRODUCT READ AT AN INDEX.

  A product of an `M × K` by a `K × N` matrix with no batch axis (left operand contracted on its last axis, right
  operand on its first) has one contraction axis of extent `K`. At the exact instance both the matrix unit's product into
  a zero accumulator and the host's `dot_general` are, at the output index `(p, q)`, the plain sum over `k` of the left
  operand at `(p, k)` times the right operand at `(k, q)`.
-/
import Idealize.ShloMosaic.PureOps
import Idealize.ShloMosaic.PureOps.Ideal.Laws
import Idealize.ShloMosaic.Lib.ValueIdx

namespace Idealize.PlainDot

open Idealize.ShloMosaic Idealize.ShloMosaic.ValueIdx

/-- Dimension numbers with the plain fields are `DotDims.plain` (whatever proof of their conditions they carry). -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  obtain ⟨lc, rc, ln, rn, lb, rb, wf⟩ := d
  dsimp only at h1 h2 h3 h4 h5 h6
  subst h1 h2 h3 h4 h5 h6
  rfl

/-- THE CONTRACTION AS A PLAIN SUM: over the one contraction axis of a plain product, the sum of the products of the
    operands at the dot's operand indices for output `(p, q)` is the sum over `k : Fin K` of `l (p, k) * r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- THE MATRIX UNIT'S PRODUCT INTO A ZERO ACCUMULATOR, read at `(p, q)`. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant (⟨2, ![M, N]⟩ : Shape) .f32 0x00000000#32) (ix2 p q)
      = ∑ k : Fin K, l (ix2 p k) * r (ix2 k q) := by
  subst hd
  show FloatOps.matmul _ prec l r _ _ = _
  rw [Ideal.matmul_constant_zero_apply]
  exact plain_sum l r p q

/-- THE HOST'S `dot_general`, read at `(p, q)`. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Idealize.PlainDot
-- ==== Proof.MmRegions.lean ====
/-
  THE THREE MATRIX PRODUCTS OF THE LAYERS, from blocks to whole arrays, on the extended reals.

  Each of the three product regions walks 25 grid points. At point `t` it holds rows `2000 t … 2000 t + 1999` of the
  50000 × 256 feature array and the whole 256 × 256 weight matrix, and writes rows `2000 t … 2000 t + 1999` of the
  output. Its body rounds both operands to the narrow float format (the identity on the extended reals), casts the weight
  to its own shape (nothing), and multiplies into a zero accumulator: entry `(p, q)` of the block it writes is
  `∑ k, x (p, k) * w (k, q)`. Row `p` of block `t` is row `2000 t + p` of the array, so what point `t` writes is block
  `t` of the product `Cert.Gcn.mm` of the two arrays; the 25 row blocks fill the 50000 rows (row `r` lies in block
  `r / 2000`), so after the region the output array IS the product.
-/
import proofs.«165873_j6476810682405_1_alg».proof.Proof.Gen.KernelIdeal.Frame
import proofs.«165873_j6476810682405_1_alg».proof.Proof.Spec
import proofs.«165873_j6476810682405_1_alg».proof.Proof.LibPlainDot
import Idealize.ShloMosaic.Lib.ValueIdx
import Idealize.ShloMosaic.Lib.Pipeline.Value
import Idealize.ShloMosaic.PureOps.Ideal.Laws

noncomputable section

namespace Cert.Gcn.MmRegions

open Cert.KernelIdeal Cert.KernelIdeal.Gen Idealize.ShloMosaic Idealize.ShloMosaic.TcCoe Idealize.SL.Sem
open Idealize.ShloMosaic.ValueIdx
open Idealize.ShloMosaic.Pipeline (Dat)

/-! ## The body at an entry -/

/-- The first product's body at an entry: rounding to the narrow format is the identity on the extended reals, the
    cast to the same shape changes nothing, and the matrix unit's product into a zero accumulator is the plain sum. -/
theorem pay0_apply (x : Vec Ideal S2000x256 .f32) (w : Vec Ideal S256x256 .f32) (p : Fin 2000) (q : Fin 256) :
    k0_pay1 (F := Ideal) x w (ix2 p q) = ∑ k : Fin 256, x (ix2 p k) * w (ix2 k q) := by
  unfold k0_pay1
  rw [shapeCast_self]
  exact Idealize.PlainDot.matmul_zero_apply _ (Idealize.PlainDot.eq_plain _ rfl rfl rfl rfl rfl rfl) none x w p q

/-- The second product's body at an entry: one more cast to the same shape, otherwise as the first. -/
theorem pay2_apply (x : Vec Ideal S2000x256 .f32) (w : Vec Ideal S256x256 .f32) (p : Fin 2000) (q : Fin 256) :
    k2_pay1 (F := Ideal) x w (ix2 p q) = ∑ k : Fin 256, x (ix2 p k) * w (ix2 k q) := by
  unfold k2_pay1
  rw [shapeCast_self, shapeCast_self]
  exact Idealize.PlainDot.matmul_zero_apply _ (Idealize.PlainDot.eq_plain _ rfl rfl rfl rfl rfl rfl) none x w p q

/-- The third product's body at an entry: as the second. -/
theorem pay4_apply (x : Vec Ideal S2000x256 .f32) (w : Vec Ideal S256x256 .f32) (p : Fin 2000) (q : Fin 256) :
    k4_pay1 (F := Ideal) x w (ix2 p q) = ∑ k : Fin 256, x (ix2 p k) * w (ix2 k q) := by
  unfold k4_pay1
  rw [shapeCast_self, shapeCast_self]
  exact Idealize.PlainDot.matmul_zero_apply _ (Idealize.PlainDot.eq_plain _ rfl rfl rfl rfl rfl rfl) none x w p q

/-! ## One entry, from the block to the array -/

/-- The zero offsets, however spelt. -/
theorem hz : (![0, 0] : Fin 2 → Nat) = fun _ => 0 := funext fun a => by fin_cases a <;> rfl

/-- FROM A BLOCK TO THE ARRAY, one entry. A body `f` whose entry `(p, q)` is the sum over `k` of its first operand at
    `(p, k)` times its second at `(k, q)`, applied to a block `x` whose row `p` is row `2000 b + p` of an array `X`
    and to a block `w` that is a matrix `W`, has at the block's index `y` the entry of the product `X W` at the
    array's index `i` on row `2000 b + y 0`, column `y 1`. -/
theorem block_entry_of_pay (f : Vec Ideal S2000x256 .f32 → Vec Ideal S256x256 .f32 → FVec Ideal S2000x256 .f32)
    (hf : ∀ x w (p : Fin 2000) (q : Fin 256), f x w (ix2 p q) = ∑ k : Fin 256, x (ix2 p k) * w (ix2 k q))
    (x : Vec Ideal S2000x256 .f32) (w : Vec Ideal S256x256 .f32)
    (X : S50000x256.Idx → EReal) (W : S256x256.Idx → EReal) (b : Nat) (y : S2000x256.Idx) (i : S50000x256.Idx)
    (hx : ∀ (y' : S2000x256.Idx) (i' : S50000x256.Idx), (i' 0).val = b * 2000 + (y' 0).val → (i' 1).val = (y' 1).val →
      x y' = X i')
    (hw : ∀ y' : S256x256.Idx, w y' = W y')
    (h0 : (i 0).val = b * 2000 + (y 0).val) (h1 : (i 1).val = (y 1).val) :
    f x w y = Cert.Gcn.mm X W i := by
  obtain ⟨p, q, rfl⟩ : ∃ (p : Fin 2000) (q : Fin 256), y = ix2 p q := ⟨y 0, y 1, eq_ix2 y⟩
  obtain ⟨r, s, rfl⟩ : ∃ (r : Fin 50000) (s : Fin 256), i = ix2 r s := ⟨i 0, i 1, eq_ix2 i⟩
  obtain rfl : s = q := Fin.ext h1
  rw [hf, Cert.Gcn.mm_apply]
  exact Finset.sum_congr rfl fun k _ => by rw [hx (ix2 p k) (ix2 r k) h0 rfl, hw]

variable (V : (c : Dev nD) → (b : Ref sig .tc) → Buf (Elt Ideal) ((c : Thread nD τ).loc b))

/-! ## The product of region 0: main_arg0 times main_v35, written to main_v36 -/

/-- The block offsets of region 0, decided over its 25 grid points: the feature window and the output window
    are at block row `t`, column block 0; the weight window is the whole 256 × 256 matrix at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the feature block at point `t` is row `2000 t + p` of the feature array. -/
theorem feat0_apply (c : Dev nD) (t : Fin cfg0.N) (y : S2000x256.Idx) (i : S50000x256.Idx)
    (h0 : (i 0).val = t.val * 2000 + (y 0).val) (h1 : (i 1).val = (y 1).val) :
    (iblk0 V c 0 t : Vec Ideal S2000x256 .f32) y = (V c main_arg0 : S50000x256.Idx → EReal) i := by
  obtain ⟨e0, e1, -⟩ := idx_facts0 t
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 256 + 1 * (y 1).val = (i 1).val; omega

/-- The weight block at every point is the weight matrix. -/
theorem wt0_apply (c : Dev nD) (t : Fin cfg0.N) (y : S256x256.Idx) :
    (iblk0 V c 1 t : Vec Ideal S256x256 .f32) y = (V c main_v35 : S256x256.Idx → EReal) y := by
  obtain ⟨-, -, e2, e3, -⟩ := idx_facts0 t
  show V c main_v35 (((cfg0.win 1).blk t).view.emb y) = V c main_v35 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- What point `t` writes back is block `t` of the product of the two arrays: entry `(p, q)` of the body's result sums
    over `k` the feature block's `(p, k)` times the weight's `(k, q)`, and the block's row `p` is the array's row
    `2000 t + p`. -/
theorem flushed0_eq (c : Dev nD) (t : Fin cfg0.N) :
    (dat0 (F := Ideal) V c).flushed 2 t
      = ((cfg0.win 2).blk t).view.read (Elt Ideal) (Cert.Gcn.mm (V c main_arg0) (V c main_v35)) := by
  show (cfg0.win 2).cut (grid0.coords t) ((dat0 (F := Ideal) V c).after 2 t) = _
  rw [after0_2]
  unfold out0_2
  rw [View.canon_unit_zero hz]
  simp only [View.ld_unit_zero (S := S2000x256) hz, View.ld_unit_zero (S := S256x256) hz]
  obtain ⟨-, -, -, -, e4, e5⟩ := idx_facts0 t
  funext j
  show k0_pay1 (F := Ideal) (iblk0 V c 0 t) (iblk0 V c 1 t) ((cfg0.win 2).xinj (grid0.coords t) j)
    = Cert.Gcn.mm (V c main_arg0) (V c main_v35) (((cfg0.win 2).blk t).view.emb j)
  refine block_entry_of_pay (k0_pay1 (F := Ideal)) pay0_apply _ _ _ _ t.val _ _ (fun y i => feat0_apply V c t y i) (fun y => wt0_apply V c t y) ?_ ?_
  · show win0_2.index t (0 : Fin 2) * 2000 + 1 * (j 0).val = t.val * 2000 + (j 0).val; omega
  · show win0_2.index t (1 : Fin 2) * 256 + 1 * (j 1).val = (j 1).val; omega

/-- An index of the output array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v36).slice (win0_2.rect t)).set ↔ _
  rw [View.set_slice_whole, Rect.mem_set_unit]
  exact Iff.rfl

/-- Row `r` of the output is written by point `r / 2000`: the 25 row blocks fill the 50000 rows. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  have ht : t.val = (i 0).val / 2000 := rfl
  obtain ⟨-, -, -, -, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the region's 25 points the output array is the product of the feature array and the weight matrix. -/
theorem mm_region0 (c : Dev nD) :
    (dat0 (F := Ideal) V c).arrAt 2 cfg0.N = Cert.Gcn.mm (V c main_arg0) (V c main_v35) :=
  (dat0 (F := Ideal) V c).arrAt_eq_of_cover 2 (Cert.Gcn.mm (V c main_arg0) (V c main_v35))
    (fun t _ => flushed0_eq V c t) (cover0)

/-! ## The product of region 2: main_v61 times main_v63, written to main_v64 -/

/-- The block offsets of region 2, decided over its 25 grid points: the feature window and the output window
    are at block row `t`, column block 0; the weight window is the whole 256 × 256 matrix at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the feature block at point `t` is row `2000 t + p` of the feature array. -/
theorem feat2_apply (c : Dev nD) (t : Fin cfg2.N) (y : S2000x256.Idx) (i : S50000x256.Idx)
    (h0 : (i 0).val = t.val * 2000 + (y 0).val) (h1 : (i 1).val = (y 1).val) :
    (iblk2 V c 0 t : Vec Ideal S2000x256 .f32) y = (V c main_v61 : S50000x256.Idx → EReal) i := by
  obtain ⟨e0, e1, -⟩ := idx_facts2 t
  show V c main_v61 (((cfg2.win 0).blk t).view.emb y) = V c main_v61 i
  refine congrArg _ (funext fun a => Fin.ext ?_)
  match a with
  | ⟨0, _⟩ => show win2_0.index t (0 : Fin 2) * 2000 + 1 * (y 0).val = (i 0).val; omega
  | ⟨1, _⟩ => show win2_0.index t (1 : Fin 2) * 256 + 1 * (y 1).val = (i 1).val; omega

/-- The weight block at every point is the weight matrix. -/
theorem wt2_apply (c : Dev nD) (t : Fin cfg2.N) (y : S256x256.Idx) :
    (iblk2 V c 1 t : Vec Ideal S256x256 .f32) y = (V c main_v63 : S256x256.Idx → EReal) y := by
  obtain ⟨-, -, e2, e3, -⟩ := idx_facts2 t
  show V c main_v63 (((cfg2.win 1).blk t).view.emb y) = V c main_v63 y
  refine congrArg _ (funext fun a => Fin.ext ?_)
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- What point `t` writes back is block `t` of the product of the two arrays: entry `(p, q)` of the body's result sums
    over `k` the feature block's `(p, k)` times the weight's `(k, q)`, and the block's row `p` is the array's row
    `2000 t + p`. -/
theorem flushed2_eq (c : Dev nD) (t : Fin cfg2.N) :
    (dat2 (F := Ideal) V c).flushed 2 t
      = ((cfg2.win 2).blk t).view.read (Elt Ideal) (Cert.Gcn.mm (V c main_v61) (V c main_v63)) := by
  show (cfg2.win 2).cut (grid2.coords t) ((dat2 (F := Ideal) V c).after 2 t) = _
  rw [after2_2]
  unfold out2_2
  rw [View.canon_unit_zero hz]
  simp only [View.ld_unit_zero (S := S2000x256) hz, View.ld_unit_zero (S := S256x256) hz]
  obtain ⟨-, -, -, -, e4, e5⟩ := idx_facts2 t
  funext j
  show k2_pay1 (F := Ideal) (iblk2 V c 0 t) (iblk2 V c 1 t) ((cfg2.win 2).xinj (grid2.coords t) j)
    = Cert.Gcn.mm (V c main_v61) (V c main_v63) (((cfg2.win 2).blk t).view.emb j)
  refine block_entry_of_pay (k2_pay1 (F := Ideal)) pay2_apply _ _ _ _ t.val _ _ (fun y i => feat2_apply V c t y i) (fun y => wt2_apply V c t y) ?_ ?_
  · show win2_2.index t (0 : Fin 2) * 2000 + 1 * (j 0).val = t.val * 2000 + (j 0).val; omega
  · show win2_2.index t (1 : Fin 2) * 256 + 1 * (j 1).val = (j 1).val; omega

/-- An index of the output array is in point `t`'s block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v64).slice (win2_2.rect t)).set ↔ _
  rw [View.set_slice_whole, Rect.mem_set_unit]
  exact Iff.rfl

/-- Row `r` of the output is written by point `r / 2000`: the 25 row blocks fill the 50000 rows. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  have ht : t.val = (i 0).val / 2000 := rfl
  obtain ⟨-, -, -, -, e4, e5⟩ := idx_facts2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- After the region's 25 points the output array is the product of the feature array and the weight matrix. -/
theorem mm_region2 (c : Dev nD) :
    (dat2 (F := Ideal) V c).arrAt 2 cfg2.N = Cert.Gcn.mm (V c main_v61) (V c main_v63) :=
  (dat2 (F := Ideal) V c).arrAt_eq_of_cover 2 (Cert.Gcn.mm (V c main_v61) (V c main_v63))
    (fun t _ => flushed2_eq V c t) (cover2)

/-! ## The product of region 4: main_v89 times main_v91, written to main_v92 -/

/-- The block offsets of region 4, decided over its 25 grid points: the feature window and the output window
    are at block row `t`, column block 0; the weight window is the whole 256 × 256 matrix at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `p` of the feature block at point `t` is row `2000 t + p` of the feature array. -/
theorem feat4_apply (c : Dev nD) (t : Fin cfg4.N) (y : S2000x256.Idx) (i : S50000x256.Idx)
    (h0 : (i 0).val = t.val * 2000 + (y 0).val) (h1 : (i 1).val = (y 1).val) :
    (iblk4 V c 0 t : Vec Ideal S2000x256 .f32) y = (V c main_v89 : S50000x256.Idx → EReal) i := by
  obtain ⟨e0, e1, -⟩ := idx_facts4 t
  show V c main_v89 (((cfg4.win 0).blk t).view.emb y) = V c main_v89 i
  refine congrArg _ (funext fun a => Fin.ext ?_)
  match a with
  | ⟨0, _⟩ => show win4_0.index t (0 : Fin 2) * 2000 + 1 * (y 0).val = (i 0).val; omega
  | ⟨1, _⟩ => show win4_0.index t (1 : Fin 2) * 256 + 1 * (y 1).val = (i 1).val; omega

/-- The weight block at every point is the weight matrix. -/
theorem wt4_apply (c : Dev nD) (t : Fin cfg4.N) (y : S256x256.Idx) :
    (iblk4 V c 1 t : Vec Ideal S256x256 .f32) y = (V c main_v91 : S256x256.Idx → EReal) y := by
  obtain ⟨-, -, e2, e3, -⟩ := idx_facts4 t
  show V c main_v91 (((cfg4.win 1).blk t).view.emb y) = V c main_v91 y
  refine congrArg _ (funext fun a => Fin.ext ?_)
  match a with
  | ⟨0, _⟩ => show win4_1.index t (0 : Fin 2) * 256 + 1 * (y 0).val = (y 0).val; omega
  | ⟨1, _⟩ => show win4_1.index t (1 : Fin 2) * 256 + 1 * (y 1).val = (y 1).val; omega

/-- What point `t` writes back is block `t` of the product of the two arrays: entry `(p, q)` of the body's result sums
    over `k` the feature block's `(p, k)` times the weight's `(k, q)`, and the block's row `p` is the array's row
    `2000 t + p`. -/
theorem flushed4_eq (c : Dev nD) (t : Fin cfg4.N) :
    (dat4 (F := Ideal) V c).flushed 2 t
      = ((cfg4.win 2).blk t).view.read (Elt Ideal) (Cert.Gcn.mm (V c main_v89) (V c main_v91)) := by
  show (cfg4.win 2).cut (grid4.coords t) ((dat4 (F := Ideal) V c).after 2 t) = _
  rw [after4_2]
  unfold out4_2
  rw [View.canon_unit_zero hz]
  simp only [View.ld_unit_zero (S := S2000x256) hz, View.ld_unit_zero (S := S256x256) hz]
  obtain ⟨-, -, -, -, e4, e5⟩ := idx_facts4 t
  funext j
  show k4_pay1 (F := Ideal) (iblk4 V c 0 t) (iblk4 V c 1 t) ((cfg4.win 2).xinj (grid4.coords t) j)
    = Cert.Gcn.mm (V c main_v89) (V c main_v91) (((cfg4.win 2).blk t).view.emb j)
  refine block_entry_of_pay (k4_pay1 (F := Ideal)) pay4_apply _ _ _ _ t.val _ _ (fun y i => feat4_apply V c t y i) (fun y => wt4_apply V c t y) ?_ ?_
  · show win4_2.index t (0 : Fin 2) * 2000 + 1 * (j 0).val = t.val * 2000 + (j 0).val; omega
  · show win4_2.index t (1 : Fin 2) * 256 + 1 * (j 1).val = (j 1).val; omega

/-- An index of the output array is in point `t`'s block iff each coordinate is in the block's range on its axis. -/
theorem mem_blk4 (t : Fin cfg4.N) (i : S50000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v92).slice (win4_2.rect t)).set ↔ _
  rw [View.set_slice_whole, Rect.mem_set_unit]
  exact Iff.rfl

/-- Row `r` of the output is written by point `r / 2000`: the 25 row blocks fill the 50000 rows. -/
theorem cover4 (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  have hN : cfg4.N = 25 := N_4
  let t : Fin cfg4.N := ⟨(i 0).val / 2000, by rw [hN]; omega⟩
  have ht : t.val = (i 0).val / 2000 := rfl
  obtain ⟨-, -, -, -, e4, e5⟩ := idx_facts4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 256 ≤ (i 1).val ∧ (i 1).val < win4_2.index t (1 : Fin 2) * 256 + 256; omega

/-- After the region's 25 points the output array is the product of the feature array and the weight matrix. -/
theorem mm_region4 (c : Dev nD) :
    (dat4 (F := Ideal) V c).arrAt 2 cfg4.N = Cert.Gcn.mm (V c main_v89) (V c main_v91) :=
  (dat4 (F := Ideal) V c).arrAt_eq_of_cover 2 (Cert.Gcn.mm (V c main_v89) (V c main_v91))
    (fun t _ => flushed4_eq V c t) (cover4)

end Cert.Gcn.MmRegions

end
-- ==== Proof.LnBody.lean ====
/-
  ONE ROW-NORMALISATION BODY READ AT AN INDEX, on the extended reals.

  The body of each of the three normalisation regions takes a block of 2000 rows of 256 entries, a bias row, a scale row
  and a shift row, and computes, row by row: the row plus the bias; the row's mean (its sum over the 256 columns, over
  the float 256); the deviations from the mean; the mean of their squares; the reciprocal square root of that variance
  plus a small constant; the deviations times it, times the scale, plus the shift; and the maximum with zero. The two
  row statistics are carried as columns `[2000, 1]` and spread back over the 256 columns. Read at entry `(p, q)` this is
  `lnRelu` of the biased row `p` at `q` (Spec.lean).

  The layout steps are read at an index by three small lemmas: a vector cast to a column, a column spread over the
  columns, and the sum over the columns as a `Fin 256`-indexed sum.
-/
import proofs.«165873_j6476810682405_1_alg».proof.Proof.Gen.KernelIdeal.Skeleton
import proofs.«165873_j6476810682405_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.LnBody

open Idealize.ShloMosaic Idealize.ShloMosaic.ValueIdx Cert.KernelIdeal

/-! ## The keepdims layout steps at an index -/

section Layout
variable {α : Type}

/-- A vector `[a]` cast to a column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the columns of a `[2000, 256]` block, at row `r`, is the sum over `k : Fin 256` of the block at
    `(r, k)`. -/
theorem laneSum_apply (src : FVec Ideal S2000x256 .f32) (h : S2000x256.Reduces [1] S2000) (hφ : FKind.Formats .f32)
    (hacc : (0x00000000#32 : BitVec 32) = 0x00000000#32) (r : Fin 2000) :
    multiReduction (F := Ideal) .add [1] S2000 src 0x00000000#32 h hφ hacc (ix1 r) = ∑ k : Fin 256, src (ix2 r k) := by
  refine (Ideal.multiReduction_add_single src 0x00000000#32 h hφ hacc (ix1 r)).trans ?_
  show ∑ k : Fin 256, src (h.lift (ix1 r) k) = _
  refine Finset.sum_congr rfl fun k _ => congrArg src ?_
  funext c
  refine Fin.ext ?_
  match c with
  | ⟨0, _⟩ => rfl
  | ⟨1, _⟩ => rfl

/-! ## The body's stages, named -/

section Stages
variable (x : Vec Ideal S2000x256 .f32) (b : Vec Ideal S1x256 .f32)

/-- The block with the bias row added to every row. -/
def biased : FVec Ideal S2000x256 .f32 :=
  addf (shapeCast S2000x256 x Gen.shapeCasts_S2000x256_S2000x256)
    (broadcastTo S2000x256 (shapeCast S1x256 b Gen.shapeCasts_S1x256_S1x256) Gen.broadcasts_S1x256_S2000x256)

/-- The column of row means: each row's sum over the float 256. -/
def colMean : FVec Ideal S2000x1 .f32 :=
  divf (shapeCast S2000x1
      (multiReduction (F := Ideal) .add [1] S2000 (biased x b) 0x00000000#32 Gen.reduces_S2000x256_S2000 (.inl rfl) rfl)
      Gen.shapeCasts_S2000_S2000x1)
    (broadcast S2000x1 (Scalar.ofBits (F := Ideal) .f32 0x43800000#32))

/-- The deviations from the row means. -/
def centred : FVec Ideal S2000x256 .f32 :=
  subf (biased x b) (broadcastTo S2000x256 (colMean x b) Gen.broadcasts_S2000x1_S2000x256)

/-- The column of row variances: each row's sum of squared deviations over the float 256. -/
def colVar : FVec Ideal S2000x1 .f32 :=
  divf (shapeCast S2000x1
      (multiReduction (F := Ideal) .add [1] S2000 (mulf (centred x b) (centred x b)) 0x00000000#32
        Gen.reduces_S2000x256_S2000 (.inl rfl) rfl)
      Gen.shapeCasts_S2000_S2000x1)
    (broadcast S2000x1 (Scalar.ofBits (F := Ideal) .f32 0x43800000#32))

/-- The column of reciprocal square roots of the variances plus the small constant. -/
def colRstd : FVec Ideal S2000x1 .f32 :=
  rsqrt (addf (colVar x b) (broadcast S2000x1 (Scalar.ofBits (F := Ideal) .f32 0x3727C5AC#32)))

/-- The whole body from its stages: deviations times the reciprocal root, times the scale row, plus the shift row,
    clipped at zero. -/
def normalised (g be : Vec Ideal S1x256 .f32) : FVec Ideal S2000x256 .f32 :=
  maximumf
    (addf
      (mulf (mulf (centred x b) (broadcastTo S2000x256 (colRstd x b) Gen.broadcasts_S2000x1_S2000x256))
        (broadcastTo S2000x256 (shapeCast S1x256 g Gen.shapeCasts_S1x256_S1x256) Gen.broadcasts_S1x256_S2000x256))
      (broadcastTo S2000x256 (shapeCast S1x256 be Gen.shapeCasts_S1x256_S1x256) Gen.broadcasts_S1x256_S2000x256))
    (broadcast S2000x256 (Scalar.ofBits (F := Ideal) .f32 0x00000000#32))

/-- The three regions' bodies are these stages composed. -/
theorem k1_pay1_eq (g be : Vec Ideal S1x256 .f32) : Gen.k1_pay1 (F := Ideal) x b g be = normalised x b g be := rfl
theorem k3_pay1_eq (g be : Vec Ideal S1x256 .f32) : Gen.k3_pay1 (F := Ideal) x b g be = normalised x b g be := rfl
theorem k5_pay1_eq (g be : Vec Ideal S1x256 .f32) : Gen.k5_pay1 (F := Ideal) x b g be = normalised x b g be := rfl

/-! ## The stages at an index -/

/-- A row vector `[1, 256]` spread over the 2000 rows, at `(p, k)`, is the row's entry `k`. -/
theorem rowSpread_apply (v : Vec Ideal S1x256 .f32) (p : Fin 2000) (k : Fin 256) :
    broadcastTo S2000x256 (shapeCast S1x256 v Gen.shapeCasts_S1x256_S1x256) Gen.broadcasts_S1x256_S2000x256 (ix2 p k)
      = v (ix2 0 k) := by
  refine (broadcastTo_1b_ab_apply _ Gen.broadcasts_S1x256_S2000x256 p k).trans ?_
  rw [shapeCast_self]

/-- A column `[2000, 1]` spread over the 256 columns, at `(p, k)`, is the column's entry `p`. -/
theorem colSpread_apply (v : FVec Ideal S2000x1 .f32) (p : Fin 2000) (k : Fin 256) :
    broadcastTo S2000x256 v Gen.broadcasts_S2000x1_S2000x256 (ix2 p k) = v (ix2 p (0 : Fin 1)) :=
  broadcastTo_a1_ab_apply v Gen.broadcasts_S2000x1_S2000x256 p k

theorem biased_apply (p : Fin 2000) (k : Fin 256) : biased x b (ix2 p k) = x (ix2 p k) + b (ix2 0 k) := by
  show shapeCast S2000x256 x Gen.shapeCasts_S2000x256_S2000x256 (ix2 p k)
      + broadcastTo S2000x256 (shapeCast S1x256 b Gen.shapeCasts_S1x256_S1x256) Gen.broadcasts_S1x256_S2000x256 (ix2 p k) = _
  rw [rowSpread_apply, shapeCast_self]

/-- The mean column at row `p` is the mean of the biased row `p`. -/
theorem colMean_apply (p : Fin 2000) :
    colMean x b (ix2 p (0 : Fin 1)) = Cert.Gcn.rowMean (fun k => x (ix2 p k) + b (ix2 0 k)) := by
  show Ideal.div (shapeCast S2000x1
      (multiReduction (F := Ideal) .add [1] S2000 (biased x b) 0x00000000#32 Gen.reduces_S2000x256_S2000 (.inl rfl) rfl)
      Gen.shapeCasts_S2000_S2000x1 (ix2 p (0 : Fin 1))) (Ideal.ofBits .f32 0x43800000#32) = _
  rw [shapeCast_a_a1_apply, laneSum_apply]
  unfold Cert.Gcn.rowMean
  exact congrArg (fun s => Ideal.div s (Ideal.ofBits .f32 0x43800000#32))
    (Finset.sum_congr rfl fun k _ => biased_apply x b p k)

theorem centred_apply (p : Fin 2000) (k : Fin 256) :
    centred x b (ix2 p k)
      = (x (ix2 p k) + b (ix2 0 k)) - Cert.Gcn.rowMean (fun k => x (ix2 p k) + b (ix2 0 k)) := by
  show biased x b (ix2 p k) - broadcastTo S2000x256 (colMean x b) Gen.broadcasts_S2000x1_S2000x256 (ix2 p k) = _
  rw [colSpread_apply, colMean_apply, biased_apply]

/-- The variance column at row `p` is the variance of the biased row `p`. -/
theorem colVar_apply (p : Fin 2000) :
    colVar x b (ix2 p (0 : Fin 1)) = Cert.Gcn.rowVar (fun k => x (ix2 p k) + b (ix2 0 k)) := by
  show Ideal.div (shapeCast S2000x1
      (multiReduction (F := Ideal) .add [1] S2000 (mulf (centred x b) (centred x b)) 0x00000000#32
        Gen.reduces_S2000x256_S2000 (.inl rfl) rfl)
      Gen.shapeCasts_S2000_S2000x1 (ix2 p (0 : Fin 1))) (Ideal.ofBits .f32 0x43800000#32) = _
  rw [shapeCast_a_a1_apply, laneSum_apply]
  unfold Cert.Gcn.rowVar
  refine congrArg (fun s => Ideal.div s (Ideal.ofBits .f32 0x43800000#32)) (Finset.sum_congr rfl fun k _ => ?_)
  show centred x b (ix2 p k) * centred x b (ix2 p k) = _
  rw [centred_apply]

theorem colRstd_apply (p : Fin 2000) :
    colRstd x b (ix2 p (0 : Fin 1))
      = Ideal.rsqrt (Cert.Gcn.rowVar (fun k => x (ix2 p k) + b (ix2 0 k)) + Ideal.ofBits .f32 0x3727C5AC#32) := by
  show Ideal.rsqrt (colVar x b (ix2 p (0 : Fin 1)) + Ideal.ofBits .f32 0x3727C5AC#32) = _
  rw [colVar_apply]

/-- THE BODY AT ENTRY `(p, q)`: the normalised, scaled, shifted and clipped biased row `p` at `q`. -/
theorem normalised_apply (g be : Vec Ideal S1x256 .f32) (p : Fin 2000) (q : Fin 256) :
    normalised x b g be (ix2 p q)
      = Cert.Gcn.lnRelu (fun k => x (ix2 p k) + b (ix2 0 k)) q (g (ix2 0 q)) (be (ix2 0 q)) := by
  show max (centred x b (ix2 p q) * broadcastTo S2000x256 (colRstd x b) Gen.broadcasts_S2000x1_S2000x256 (ix2 p q)
        * broadcastTo S2000x256 (shapeCast S1x256 g Gen.shapeCasts_S1x256_S1x256) Gen.broadcasts_S1x256_S2000x256 (ix2 p q)
        + broadcastTo S2000x256 (shapeCast S1x256 be Gen.shapeCasts_S1x256_S1x256) Gen.broadcasts_S1x256_S2000x256 (ix2 p q))
      (Ideal.ofBits .f32 0x00000000#32) = _
  rw [colSpread_apply, colRstd_apply, rowSpread_apply, rowSpread_apply, centred_apply]
  rfl

end Stages

/-! ## The three regions' bodies at an index -/

theorem k1_pay1_apply (x : Vec Ideal S2000x256 .f32) (b g be : Vec Ideal S1x256 .f32) (p : Fin 2000) (q : Fin 256) :
    Gen.k1_pay1 (F := Ideal) x b g be (ix2 p q)
      = Cert.Gcn.lnRelu (fun k => x (ix2 p k) + b (ix2 0 k)) q (g (ix2 0 q)) (be (ix2 0 q)) :=
  (congrFun (k1_pay1_eq x b g be) (ix2 p q)).trans (normalised_apply x b g be p q)

theorem k3_pay1_apply (x : Vec Ideal S2000x256 .f32) (b g be : Vec Ideal S1x256 .f32) (p : Fin 2000) (q : Fin 256) :
    Gen.k3_pay1 (F := Ideal) x b g be (ix2 p q)
      = Cert.Gcn.lnRelu (fun k => x (ix2 p k) + b (ix2 0 k)) q (g (ix2 0 q)) (be (ix2 0 q)) :=
  (congrFun (k3_pay1_eq x b g be) (ix2 p q)).trans (normalised_apply x b g be p q)

theorem k5_pay1_apply (x : Vec Ideal S2000x256 .f32) (b g be : Vec Ideal S1x256 .f32) (p : Fin 2000) (q : Fin 256) :
    Gen.k5_pay1 (F := Ideal) x b g be (ix2 p q)
      = Cert.Gcn.lnRelu (fun k => x (ix2 p k) + b (ix2 0 k)) q (g (ix2 0 q)) (be (ix2 0 q)) :=
  (congrFun (k5_pay1_eq x b g be) (ix2 p q)).trans (normalised_apply x b g be p q)

end Cert.Gcn.LnBody

end
-- ==== Proof.LnRegions.lean ====
/-
  THE THREE ROW-NORMALISATION REGIONS, FROM BLOCKS TO THE ARRAY, on the extended reals.

  Each region walks 25 grid points; point `t` reads rows `2000 t … 2000 t + 1999` of the aggregated features, the
  whole bias, scale and shift rows, and writes the same rows of the output. At entry `(r, k)` of its block the body
  leaves `lnRelu` of the biased row (LnBody.lean), which is entry `(2000 t + r, k)` of `ln agg bias scale shift`
  (Spec.lean); the 25 blocks tile the 50000 rows (row `p` lies in the block of point `p / 2000`), so the output array
  ends holding `ln agg bias scale shift`.
-/
import proofs.«165873_j6476810682405_1_alg».proof.Proof.Gen.KernelIdeal.Frame
import proofs.«165873_j6476810682405_1_alg».proof.Proof.LnBody
import Idealize.ShloMosaic.Lib.Pipeline.Value

noncomputable section

namespace Cert.Gcn.LnRegions

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, however spelt. -/
theorem hz : (![0, 0] : Fin 2 → Nat) = fun _ => 0 := funext fun a => by fin_cases a <;> rfl

/-- ONE ENTRY OF ONE BLOCK. If the block `x0` holds rows `2000 tv …` of `agg` and the three row blocks hold the bias,
    scale and shift rows, the normalised block at `(r, k)` is `ln agg b g be` at `(2000 tv + r, k)`. -/
theorem normalised_point (agg : S50000x256.Idx → EReal) (b g be : S1x256.Idx → EReal)
    (x0 : Vec Ideal S2000x256 .f32) (x1 x2 x3 : Vec Ideal S1x256 .f32) (tv : ℕ)
    (h0 : ∀ (r : Fin 2000) (k : Fin 256) (p : Fin 50000), p.val = tv * 2000 + r.val → x0 (ix2 r k) = agg (ix2 p k))
    (h1 : ∀ k : Fin 256, x1 (ix2 0 k) = b (ix2 0 k)) (h2 : ∀ k : Fin 256, x2 (ix2 0 k) = g (ix2 0 k))
    (h3 : ∀ k : Fin 256, x3 (ix2 0 k) = be (ix2 0 k))
    (r : Fin 2000) (k : Fin 256) (p : Fin 50000) (hp : p.val = tv * 2000 + r.val) :
    LnBody.normalised x0 x1 x2 x3 (ix2 r k) = Cert.Gcn.ln agg b g be (ix2 p k) := by
  refine (LnBody.normalised_apply x0 x1 x2 x3 r k).trans ?_
  refine Eq.trans ?_ (Cert.Gcn.ln_apply agg b g be p k).symm
  rw [h2, h3]
  refine congrArg (fun y => Cert.Gcn.lnRelu y k (g (ix2 0 k)) (be (ix2 0 k))) (funext fun k' => ?_)
  rw [h0 r k' p hp, h1]

/-! ## Region 1 -/

section Region1
variable (V : (c : Dev nD) → (b : Ref sig .tc) → Buf (Elt Ideal) ((c : Thread nD τ).loc b))

/-- The windows' block indices over the 25 points: the feature and output windows sit at block `(t, 0)`, the three row
    windows at block `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `ln` of the four arrays as the region finds them. -/
theorem flushed1_eq (c : Dev nD) (t : Fin cfg1.N) :
    (dat1 (F := Ideal) V c).flushed 4 t = ((cfg1.win 4).blk t).view.read (Elt Ideal)
      (Cert.Gcn.ln (V c main_v51) (V c main_v58) (V c main_v59) (V c main_v60)) := by
  show (cfg1.win 4).cut (grid1.coords t) ((dat1 V c).after 4 t) = _
  rw [after1_4]
  unfold out1_4
  rw [View.canon_unit_zero hz]
  simp only [View.ld_unit_zero (S := S2000x256) hz, View.ld_unit_zero (S := S1x256) hz]
  obtain ⟨e00, e01, e10, e11, e20, e21, e30, e31, e40, e41⟩ := idx_facts1 t
  funext j
  show Gen.k1_pay1 (F := Ideal) (iblk1 V c 0 t) (iblk1 V c 1 t) (iblk1 V c 2 t) (iblk1 V c 3 t) j
    = Cert.Gcn.ln (V c main_v51) (V c main_v58) (V c main_v59) (V c main_v60) (((cfg1.win 4).blk t).view.emb j)
  have hN : cfg1.N = 25 := N_1
  have ht : t.val < 25 := Nat.lt_of_lt_of_eq t.isLt hN
  have hj0 : (j 0).val < 2000 := (j 0).isLt
  have hj1 : (j 1).val < 256 := (j 1).isLt
  have hemb : ((cfg1.win 4).blk t).view.emb j
      = ix2 (⟨t.val * 2000 + (j 0).val, by omega⟩ : Fin 50000) (⟨(j 1).val, hj1⟩ : Fin 256) := by
    funext a
    apply Fin.ext
    match a with
    | ⟨0, _⟩ => show win1_4.index t (0 : Fin 2) * 2000 + 1 * (j 0).val = t.val * 2000 + (j 0).val; rw [e40]; omega
    | ⟨1, _⟩ => show win1_4.index t (1 : Fin 2) * 256 + 1 * (j 1).val = (j 1).val; rw [e41]; omega
  have hj : (j : S2000x256.Idx) = ix2 (⟨(j 0).val, hj0⟩ : Fin 2000) (⟨(j 1).val, hj1⟩ : Fin 256) := by
    funext a
    match a with
    | ⟨0, _⟩ => rfl
    | ⟨1, _⟩ => rfl
  refine (congrArg (Gen.k1_pay1 (F := Ideal) (iblk1 V c 0 t) (iblk1 V c 1 t) (iblk1 V c 2 t) (iblk1 V c 3 t)) hj).trans ?_
  refine Eq.trans ?_ (congrArg (Cert.Gcn.ln (V c main_v51) (V c main_v58) (V c main_v59) (V c main_v60)) hemb).symm
  refine (congrFun (LnBody.k1_pay1_eq (iblk1 V c 0 t) (iblk1 V c 1 t) (iblk1 V c 2 t) (iblk1 V c 3 t)) _).trans ?_
  refine normalised_point (V c main_v51) (V c main_v58) (V c main_v59) (V c main_v60)
    (iblk1 V c 0 t) (iblk1 V c 1 t) (iblk1 V c 2 t) (iblk1 V c 3 t) t.val ?_ ?_ ?_ ?_ _ _ _ rfl
  · intro r k p hp
    show V c main_v51 (((cfg1.win 0).blk t).view.emb (ix2 r k)) = V c main_v51 (ix2 p k)
    refine congrArg _ (funext fun a => Fin.ext ?_)
    match a with
    | ⟨0, _⟩ => show win1_0.index t (0 : Fin 2) * 2000 + 1 * r.val = p.val; rw [e00, hp]; omega
    | ⟨1, _⟩ => show win1_0.index t (1 : Fin 2) * 256 + 1 * k.val = k.val; rw [e01]; omega
  · intro k
    show V c main_v58 (((cfg1.win 1).blk t).view.emb (ix2 0 k)) = V c main_v58 (ix2 0 k)
    refine congrArg _ (funext fun a => Fin.ext ?_)
    match a with
    | ⟨0, _⟩ => show win1_1.index t (0 : Fin 2) * 1 + 1 * 0 = 0; rw [e10]
    | ⟨1, _⟩ => show win1_1.index t (1 : Fin 2) * 256 + 1 * k.val = k.val; rw [e11]; omega
  · intro k
    show V c main_v59 (((cfg1.win 2).blk t).view.emb (ix2 0 k)) = V c main_v59 (ix2 0 k)
    refine congrArg _ (funext fun a => Fin.ext ?_)
    match a with
    | ⟨0, _⟩ => show win1_2.index t (0 : Fin 2) * 1 + 1 * 0 = 0; rw [e20]
    | ⟨1, _⟩ => show win1_2.index t (1 : Fin 2) * 256 + 1 * k.val = k.val; rw [e21]; omega
  · intro k
    show V c main_v60 (((cfg1.win 3).blk t).view.emb (ix2 0 k)) = V c main_v60 (ix2 0 k)
    refine congrArg _ (funext fun a => Fin.ext ?_)
    match a with
    | ⟨0, _⟩ => show win1_3.index t (0 : Fin 2) * 1 + 1 * 0 = 0; rw [e30]
    | ⟨1, _⟩ => show win1_3.index t (1 : Fin 2) * 256 + 1 * k.val = k.val; rw [e31]; omega

/-- An index of the output array is in point `t`'s block iff each coordinate is in the block's range on its axis. -/
theorem mem_blk1 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v61).slice (win1_4.rect t)).set ↔ _
  rw [View.set_slice_whole, Rect.mem_set_unit]
  exact Iff.rfl

/-- THE BLOCKS TILE THE ROWS: row `p` is in the block of point `p / 2000`. -/
theorem cover1 (i : S50000x256.Idx) :
    ∃ t : Fin cfg1.N, (cfg1.win 4).flush t = true ∧ i ∈ ((cfg1.win 4).blk t).view.set := by
  have hN : cfg1.N = 25 := N_1
  have hi0 : (i 0).val < 50000 := (i 0).isLt
  have hi1 : (i 1).val < 256 := (i 1).isLt
  refine ⟨⟨(i 0).val / 2000, by rw [hN]; omega⟩, flush1_4 _, ?_⟩
  obtain ⟨-, -, -, -, -, -, -, -, e40, e41⟩ := idx_facts1 ⟨(i 0).val / 2000, by rw [hN]; omega⟩
  rw [mem_blk1]
  intro a
  match a with
  | ⟨0, _⟩ =>
    show win1_4.index _ (0 : Fin 2) * 2000 ≤ (i 0).val ∧ (i 0).val < win1_4.index _ (0 : Fin 2) * 2000 + 2000
    rw [e40]; show (i 0).val / 2000 * 2000 ≤ (i 0).val ∧ (i 0).val < (i 0).val / 2000 * 2000 + 2000; omega
  | ⟨1, _⟩ =>
    show win1_4.index _ (1 : Fin 2) * 256 ≤ (i 1).val ∧ (i 1).val < win1_4.index _ (1 : Fin 2) * 256 + 256
    rw [e41]; omega

/-- THE OUTPUT ARRAY after region 1: `ln` of the aggregated features and the bias, scale and shift rows. -/
theorem ln_region1 (c : Dev nD) : (dat1 (F := Ideal) V c).arrAt 4 cfg1.N
    = Cert.Gcn.ln (V c main_v51) (V c main_v58) (V c main_v59) (V c main_v60) :=
  (dat1 (F := Ideal) V c).arrAt_eq_of_cover 4
    (Cert.Gcn.ln (V c main_v51) (V c main_v58) (V c main_v59) (V c main_v60))
    (fun t _ => flushed1_eq V c t) (cover1)

end Region1

/-! ## Region 3 -/

section Region3
variable (V : (c : Dev nD) → (b : Ref sig .tc) → Buf (Elt Ideal) ((c : Thread nD τ).loc b))

/-- The windows' block indices over the 25 points: the feature and output windows sit at block `(t, 0)`, the three row
    windows at block `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT `t` WRITES BACK is block `t` of `ln` of the four arrays as the region finds them. -/
theorem flushed3_eq (c : Dev nD) (t : Fin cfg3.N) :
    (dat3 (F := Ideal) V c).flushed 4 t = ((cfg3.win 4).blk t).view.read (Elt Ideal)
      (Cert.Gcn.ln (V c main_v79) (V c main_v86) (V c main_v87) (V c main_v88)) := by
  show (cfg3.win 4).cut (grid3.coords t) ((dat3 V c).after 4 t) = _
  rw [after3_4]
  unfold out3_4
  rw [View.canon_unit_zero hz]
  simp only [View.ld_unit_zero (S := S2000x256) hz, View.ld_unit_zero (S := S1x256) hz]
  obtain ⟨e00, e01, e10, e11, e20, e21, e30, e31, e40, e41⟩ := idx_facts3 t
  funext j
  show Gen.k3_pay1 (F := Ideal) (iblk3 V c 0 t) (iblk3 V c 1 t) (iblk3 V c 2 t) (iblk3 V c 3 t) j
    = Cert.Gcn.ln (V c main_v79) (V c main_v86) (V c main_v87) (V c main_v88) (((cfg3.win 4).blk t).view.emb j)
  have hN : cfg3.N = 25 := N_3
  have ht : t.val < 25 := Nat.lt_of_lt_of_eq t.isLt hN
  have hj0 : (j 0).val < 2000 := (j 0).isLt
  have hj1 : (j 1).val < 256 := (j 1).isLt
  have hemb : ((cfg3.win 4).blk t).view.emb j
      = ix2 (⟨t.val * 2000 + (j 0).val, by omega⟩ : Fin 50000) (⟨(j 1).val, hj1⟩ : Fin 256) := by
    funext a
    apply Fin.ext
    match a with
    | ⟨0, _⟩ => show win3_4.index t (0 : Fin 2) * 2000 + 1 * (j 0).val = t.val * 2000 + (j 0).val; rw [e40]; omega
    | ⟨1, _⟩ => show win3_4.index t (1 : Fin 2) * 256 + 1 * (j 1).val = (j 1).val; rw [e41]; omega
  have hj : (j : S2000x256.Idx) = ix2 (⟨(j 0).val, hj0⟩ : Fin 2000) (⟨(j 1).val, hj1⟩ : Fin 256) := by
    funext a
    match a with
    | ⟨0, _⟩ => rfl
    | ⟨1, _⟩ => rfl
  refine (congrArg (Gen.k3_pay1 (F := Ideal) (iblk3 V c 0 t) (iblk3 V c 1 t) (iblk3 V c 2 t) (iblk3 V c 3 t)) hj).trans ?_
  refine Eq.trans ?_ (congrArg (Cert.Gcn.ln (V c main_v79) (V c main_v86) (V c main_v87) (V c main_v88)) hemb).symm
  refine (congrFun (LnBody.k3_pay1_eq (iblk3 V c 0 t) (iblk3 V c 1 t) (iblk3 V c 2 t) (iblk3 V c 3 t)) _).trans ?_
  refine normalised_point (V c main_v79) (V c main_v86) (V c main_v87) (V c main_v88)
    (iblk3 V c 0 t) (iblk3 V c 1 t) (iblk3 V c 2 t) (iblk3 V c 3 t) t.val ?_ ?_ ?_ ?_ _ _ _ rfl
  · intro r k p hp
    show V c main_v79 (((cfg3.win 0).blk t).view.emb (ix2 r k)) = V c main_v79 (ix2 p k)
    refine congrArg _ (funext fun a => Fin.ext ?_)
    match a with
    | ⟨0, _⟩ => show win3_0.index t (0 : Fin 2) * 2000 + 1 * r.val = p.val; rw [e00, hp]; omega
    | ⟨1, _⟩ => show win3_0.index t (1 : Fin 2) * 256 + 1 * k.val = k.val; rw [e01]; omega
  · intro k
    show V c main_v86 (((cfg3.win 1).blk t).view.emb (ix2 0 k)) = V c main_v86 (ix2 0 k)
    refine congrArg _ (funext fun a => Fin.ext ?_)
    match a with
    | ⟨0, _⟩ => show win3_1.index t (0 : Fin 2) * 1 + 1 * 0 = 0; rw [e10]
    | ⟨1, _⟩ => show win3_1.index t (1 : Fin 2) * 256 + 1 * k.val = k.val; rw [e11]; omega
  · intro k
    show V c main_v87 (((cfg3.win 2).blk t).view.emb (ix2 0 k)) = V c main_v87 (ix2 0 k)
    refine congrArg _ (funext fun a => Fin.ext ?_)
    match a with
    | ⟨0, _⟩ => show win3_2.index t (0 : Fin 2) * 1 + 1 * 0 = 0; rw [e20]
    | ⟨1, _⟩ => show win3_2.index t (1 : Fin 2) * 256 + 1 * k.val = k.val; rw [e21]; omega
  · intro k
    show V c main_v88 (((cfg3.win 3).blk t).view.emb (ix2 0 k)) = V c main_v88 (ix2 0 k)
    refine congrArg _ (funext fun a => Fin.ext ?_)
    match a with
    | ⟨0, _⟩ => show win3_3.index t (0 : Fin 2) * 1 + 1 * 0 = 0; rw [e30]
    | ⟨1, _⟩ => show win3_3.index t (1 : Fin 2) * 256 + 1 * k.val = k.val; rw [e31]; omega

/-- An index of the output array is in point `t`'s block iff each coordinate is in the block's range on its axis. -/
theorem mem_blk3 (t : Fin cfg3.N) (i : S50000x256.Idx) :
    i ∈ ((cfg3.win 4).blk t).view.set ↔ ∀ a : Fin 2, win3_4.index t a * S2000x256.size a ≤ (i a).val
      ∧ (i a).val < win3_4.index t a * S2000x256.size a + S2000x256.size a := by
  show i ∈ ((View.whole main_v89).slice (win3_4.rect t)).set ↔ _
  rw [View.set_slice_whole, Rect.mem_set_unit]
  exact Iff.rfl

/-- THE BLOCKS TILE THE ROWS: row `p` is in the block of point `p / 2000`. -/
theorem cover3 (i : S50000x256.Idx) :
    ∃ t : Fin cfg3.N, (cfg3.win 4).flush t = true ∧ i ∈ ((cfg3.win 4).blk t).view.set := by
  have hN : cfg3.N = 25 := N_3
  have hi0 : (i 0).val < 50000 := (i 0).isLt
  have hi1 : (i 1).val < 256 := (i 1).isLt
  refine ⟨⟨(i 0).val / 2000, by rw [hN]; omega⟩, flush3_4 _, ?_⟩
  obtain ⟨-, -, -, -, -, -, -, -, e40, e41⟩ := idx_facts3 ⟨(i 0).val / 2000, by rw [hN]; omega⟩
  rw [mem_blk3]
  intro a
  match a with
  | ⟨0, _⟩ =>
    show win3_4.index _ (0 : Fin 2) * 2000 ≤ (i 0).val ∧ (i 0).val < win3_4.index _ (0 : Fin 2) * 2000 + 2000
    rw [e40]; show (i 0).val / 2000 * 2000 ≤ (i 0).val ∧ (i 0).val < (i 0).val / 2000 * 2000 + 2000; omega
  | ⟨1, _⟩ =>
    show win3_4.index _ (1 : Fin 2) * 256 ≤ (i 1).val ∧ (i 1).val < win3_4.index _ (1 : Fin 2) * 256 + 256
    rw [e41]; omega

/-- THE OUTPUT ARRAY after region 3: `ln` of the aggregated features and the bias, scale and shift rows. -/
theorem ln_region3 (c : Dev nD) : (dat3 (F := Ideal) V c).arrAt 4 cfg3.N
    = Cert.Gcn.ln (V c main_v79) (V c main_v86) (V c main_v87) (V c main_v88) :=
  (dat3 (F := Ideal) V c).arrAt_eq_of_cover 4
    (Cert.Gcn.ln (V c main_v79) (V c main_v86) (V c main_v87) (V c main_v88))
    (fun t _ => flushed3_eq V c t) (cover3)

end Region3

/-! ## Region 5 -/

section Region5
variable (V : (c : Dev nD) → (b : Ref sig .tc) → Buf (Elt Ideal) ((c : Thread nD τ).loc b))

/-- The windows' block indices over the 25 points: the feature and output windows sit at block `(t, 0)`, the three row
    windows at block `(0, 0)`. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- WHAT POINT `t` WRITES BACK is block `t` of `ln` of the four arrays as the region finds them. -/
theorem flushed5_eq (c : Dev nD) (t : Fin cfg5.N) :
    (dat5 (F := Ideal) V c).flushed 4 t = ((cfg5.win 4).blk t).view.read (Elt Ideal)
      (Cert.Gcn.ln (V c main_v107) (V c main_v114) (V c main_v115) (V c main_v116)) := by
  show (cfg5.win 4).cut (grid5.coords t) ((dat5 V c).after 4 t) = _
  rw [after5_4]
  unfold out5_4
  rw [View.canon_unit_zero hz]
  simp only [View.ld_unit_zero (S := S2000x256) hz, View.ld_unit_zero (S := S1x256) hz]
  obtain ⟨e00, e01, e10, e11, e20, e21, e30, e31, e40, e41⟩ := idx_facts5 t
  funext j
  show Gen.k5_pay1 (F := Ideal) (iblk5 V c 0 t) (iblk5 V c 1 t) (iblk5 V c 2 t) (iblk5 V c 3 t) j
    = Cert.Gcn.ln (V c main_v107) (V c main_v114) (V c main_v115) (V c main_v116) (((cfg5.win 4).blk t).view.emb j)
  have hN : cfg5.N = 25 := N_5
  have ht : t.val < 25 := Nat.lt_of_lt_of_eq t.isLt hN
  have hj0 : (j 0).val < 2000 := (j 0).isLt
  have hj1 : (j 1).val < 256 := (j 1).isLt
  have hemb : ((cfg5.win 4).blk t).view.emb j
      = ix2 (⟨t.val * 2000 + (j 0).val, by omega⟩ : Fin 50000) (⟨(j 1).val, hj1⟩ : Fin 256) := by
    funext a
    apply Fin.ext
    match a with
    | ⟨0, _⟩ => show win5_4.index t (0 : Fin 2) * 2000 + 1 * (j 0).val = t.val * 2000 + (j 0).val; rw [e40]; omega
    | ⟨1, _⟩ => show win5_4.index t (1 : Fin 2) * 256 + 1 * (j 1).val = (j 1).val; rw [e41]; omega
  have hj : (j : S2000x256.Idx) = ix2 (⟨(j 0).val, hj0⟩ : Fin 2000) (⟨(j 1).val, hj1⟩ : Fin 256) := by
    funext a
    match a with
    | ⟨0, _⟩ => rfl
    | ⟨1, _⟩ => rfl
  refine (congrArg (Gen.k5_pay1 (F := Ideal) (iblk5 V c 0 t) (iblk5 V c 1 t) (iblk5 V c 2 t) (iblk5 V c 3 t)) hj).trans ?_
  refine Eq.trans ?_ (congrArg (Cert.Gcn.ln (V c main_v107) (V c main_v114) (V c main_v115) (V c main_v116)) hemb).symm
  refine (congrFun (LnBody.k5_pay1_eq (iblk5 V c 0 t) (iblk5 V c 1 t) (iblk5 V c 2 t) (iblk5 V c 3 t)) _).trans ?_
  refine normalised_point (V c main_v107) (V c main_v114) (V c main_v115) (V c main_v116)
    (iblk5 V c 0 t) (iblk5 V c 1 t) (iblk5 V c 2 t) (iblk5 V c 3 t) t.val ?_ ?_ ?_ ?_ _ _ _ rfl
  · intro r k p hp
    show V c main_v107 (((cfg5.win 0).blk t).view.emb (ix2 r k)) = V c main_v107 (ix2 p k)
    refine congrArg _ (funext fun a => Fin.ext ?_)
    match a with
    | ⟨0, _⟩ => show win5_0.index t (0 : Fin 2) * 2000 + 1 * r.val = p.val; rw [e00, hp]; omega
    | ⟨1, _⟩ => show win5_0.index t (1 : Fin 2) * 256 + 1 * k.val = k.val; rw [e01]; omega
  · intro k
    show V c main_v114 (((cfg5.win 1).blk t).view.emb (ix2 0 k)) = V c main_v114 (ix2 0 k)
    refine congrArg _ (funext fun a => Fin.ext ?_)
    match a with
    | ⟨0, _⟩ => show win5_1.index t (0 : Fin 2) * 1 + 1 * 0 = 0; rw [e10]
    | ⟨1, _⟩ => show win5_1.index t (1 : Fin 2) * 256 + 1 * k.val = k.val; rw [e11]; omega
  · intro k
    show V c main_v115 (((cfg5.win 2).blk t).view.emb (ix2 0 k)) = V c main_v115 (ix2 0 k)
    refine congrArg _ (funext fun a => Fin.ext ?_)
    match a with
    | ⟨0, _⟩ => show win5_2.index t (0 : Fin 2) * 1 + 1 * 0 = 0; rw [e20]
    | ⟨1, _⟩ => show win5_2.index t (1 : Fin 2) * 256 + 1 * k.val = k.val; rw [e21]; omega
  · intro k
    show V c main_v116 (((cfg5.win 3).blk t).view.emb (ix2 0 k)) = V c main_v116 (ix2 0 k)
    refine congrArg _ (funext fun a => Fin.ext ?_)
    match a with
    | ⟨0, _⟩ => show win5_3.index t (0 : Fin 2) * 1 + 1 * 0 = 0; rw [e30]
    | ⟨1, _⟩ => show win5_3.index t (1 : Fin 2) * 256 + 1 * k.val = k.val; rw [e31]; omega

/-- An index of the output array is in point `t`'s block iff each coordinate is in the block's range on its axis. -/
theorem mem_blk5 (t : Fin cfg5.N) (i : S50000x256.Idx) :
    i ∈ ((cfg5.win 4).blk t).view.set ↔ ∀ a : Fin 2, win5_4.index t a * S2000x256.size a ≤ (i a).val
      ∧ (i a).val < win5_4.index t a * S2000x256.size a + S2000x256.size a := by
  show i ∈ ((View.whole main_v117).slice (win5_4.rect t)).set ↔ _
  rw [View.set_slice_whole, Rect.mem_set_unit]
  exact Iff.rfl

/-- THE BLOCKS TILE THE ROWS: row `p` is in the block of point `p / 2000`. -/
theorem cover5 (i : S50000x256.Idx) :
    ∃ t : Fin cfg5.N, (cfg5.win 4).flush t = true ∧ i ∈ ((cfg5.win 4).blk t).view.set := by
  have hN : cfg5.N = 25 := N_5
  have hi0 : (i 0).val < 50000 := (i 0).isLt
  have hi1 : (i 1).val < 256 := (i 1).isLt
  refine ⟨⟨(i 0).val / 2000, by rw [hN]; omega⟩, flush5_4 _, ?_⟩
  obtain ⟨-, -, -, -, -, -, -, -, e40, e41⟩ := idx_facts5 ⟨(i 0).val / 2000, by rw [hN]; omega⟩
  rw [mem_blk5]
  intro a
  match a with
  | ⟨0, _⟩ =>
    show win5_4.index _ (0 : Fin 2) * 2000 ≤ (i 0).val ∧ (i 0).val < win5_4.index _ (0 : Fin 2) * 2000 + 2000
    rw [e40]; show (i 0).val / 2000 * 2000 ≤ (i 0).val ∧ (i 0).val < (i 0).val / 2000 * 2000 + 2000; omega
  | ⟨1, _⟩ =>
    show win5_4.index _ (1 : Fin 2) * 256 ≤ (i 1).val ∧ (i 1).val < win5_4.index _ (1 : Fin 2) * 256 + 256
    rw [e41]; omega

/-- THE OUTPUT ARRAY after region 5: `ln` of the aggregated features and the bias, scale and shift rows. -/
theorem ln_region5 (c : Dev nD) : (dat5 (F := Ideal) V c).arrAt 4 cfg5.N
    = Cert.Gcn.ln (V c main_v107) (V c main_v114) (V c main_v115) (V c main_v116) :=
  (dat5 (F := Ideal) V c).arrAt_eq_of_cover 4
    (Cert.Gcn.ln (V c main_v107) (V c main_v114) (V c main_v115) (V c main_v116))
    (fun t _ => flushed5_eq V c t) (cover5)

end Region5

end Cert.Gcn.LnRegions

end
-- ==== Proof.RefLayers.lean ====
/-
  THE REFERENCE'S THREE LAYERS, READ AS THE SPECIFICATION'S TWO DENSE PARTS.

  Each layer of the reference is a matrix product with the layer's 256 × 256 weight, a mixing of rows along the
  graph's edges (kept here as one opaque array, never opened), and then: add the bias to every row, subtract the
  row's mean, divide by the square root of the row's variance plus a small constant, scale and shift per column,
  and clip at zero. Read at an index `(p, q)`, the product stage is the sum over `k` of the left operand at
  `(p, k)` times the weight at `(k, q)`, which is `Cert.Gcn.mm`; and the clipped stage is, entry by entry,
  `Cert.Gcn.lnRelu` of the biased row `p`, which is `Cert.Gcn.ln`. The row sums start from the constant zero,
  which is the additive zero of the extended reals. The three layers differ only in which slice of the weights,
  biases, scales and shifts they read.
-/
import proofs.«165873_j6476810682405_1_alg».proof.Proof.RefRead
import proofs.«165873_j6476810682405_1_alg».proof.Proof.Spec

noncomputable section

namespace Cert.Gcn.Ref

open Cert.ReferenceIdeal Cert.ReferenceIdeal.ReadP Idealize.ShloMosaic Idealize.ShloMosaic.ValueIdx

/-- The specification's normalised layer at an index, written out: with `y k = agg (p, k) + b k`, entry `(p, q)` is
    `max ((y q - mean y) * rsqrt (var y + eps) * g q + be q) 0`. -/
theorem ln_at (agg : (⟨S50000x256, .f32⟩ : BufTy).Contents (Elt Ideal))
    (b g be : (⟨S256, .f32⟩ : BufTy).Contents (Elt Ideal)) (p : Fin 50000) (q : Fin 256) :
    Cert.Gcn.ln agg (Cert.Gcn.asRow b) (Cert.Gcn.asRow g) (Cert.Gcn.asRow be) (ix2 p q)
      = max ((agg (ix2 p q) + b (ix1 q) - Cert.Gcn.rowMean (fun k => agg (ix2 p k) + b (ix1 k)))
              * Ideal.rsqrt (Cert.Gcn.rowVar (fun k => agg (ix2 p k) + b (ix1 k)) + Ideal.ofBits .f32 0x3727C5AC#32)
              * g (ix1 q) + be (ix1 q))
          (Ideal.ofBits .f32 0x00000000#32) := rfl

/-! ## Layer 1 -/

/-- The first layer's matrix product: the product stage is `mm` of its left operand and the layer's weight. -/
theorem mm1 (x0 : (⟨S50000x256, .f32⟩ : BufTy).Contents (Elt Ideal)) (x3 : (⟨S3x256x256, .f32⟩ : BufTy).Contents (Elt Ideal)) :
    val_main_v8 (F := Ideal) x0 x3 = Cert.Gcn.mm x0 (val_main_v5 (F := Ideal) x3) := by
  funext i
  obtain ⟨p, q, rfl⟩ : ∃ (p : Fin 50000) (q : Fin 256), i = ix2 p q := ⟨i 0, i 1, eq_ix2 i⟩
  have el : ∀ k : Fin 256, lidx_main_v8 (ix2 p q) k = ix2 p k := fun k => funext fun a => Fin.ext (by match a with | ⟨0, _⟩ => rfl | ⟨1, _⟩ => rfl)
  have er : ∀ k : Fin 256, ridx_main_v8 (ix2 p q) k = ix2 k q := fun k => funext fun a => Fin.ext (by match a with | ⟨0, _⟩ => rfl | ⟨1, _⟩ => rfl)
  rw [val_main_v8_apply, Cert.Gcn.mm_apply]
  refine Finset.sum_congr rfl fun k _ => ?_
  rw [el, er]

section
variable (x0 : (⟨S50000x256, .f32⟩ : BufTy).Contents (Elt Ideal))
    (x1 : (⟨S2x800000, .i32⟩ : BufTy).Contents (Elt Ideal))
    (x3 : (⟨S3x256x256, .f32⟩ : BufTy).Contents (Elt Ideal))
    (x4 : (⟨S3x256, .f32⟩ : BufTy).Contents (Elt Ideal))
    (x5 : (⟨S3x256, .f32⟩ : BufTy).Contents (Elt Ideal))
    (x6 : (⟨S3x256, .f32⟩ : BufTy).Contents (Elt Ideal))

/-- The biased features at `(p, k)`: the aggregated entry plus entry `k` of the bias. -/
theorem biased1 (p : Fin 50000) (k : Fin 256) :
    val_main_v56 (F := Ideal) x0 x1 x3 x4 (ix2 p k) = val_main_v53 (F := Ideal) x0 x1 x3 (ix2 p k) + val_main_v7 (F := Ideal) x4 (ix1 k) := by
  have e : idx_main_v54 (idx_main_v55 (ix2 p k)) = ix1 k := funext fun a => Fin.ext (by match a with | ⟨0, _⟩ => rfl)
  rw [val_main_v56_apply, val_main_v55_apply, val_main_v54_apply, e, Ideal.addf_def]

/-- The mean column at `(p, 0)` is the mean of the biased row `p`. -/
theorem mean1 (p : Fin 50000) :
    val_main_v64 (F := Ideal) x0 x1 x3 x4 (ix2 p (0 : Fin 1)) = Cert.Gcn.rowMean (fun k => val_main_v53 (F := Ideal) x0 x1 x3 (ix2 p k) + val_main_v7 (F := Ideal) x4 (ix1 k)) := by
  have hs : (∑ k : Fin 256, val_main_v56 (F := Ideal) x0 x1 x3 x4 (idx_main_v61 (idx_main_v62 (ix2 p (0 : Fin 1))) k))
      = ∑ k : Fin 256, (val_main_v53 (F := Ideal) x0 x1 x3 (ix2 p k) + val_main_v7 (F := Ideal) x4 (ix1 k)) :=
    Finset.sum_congr rfl fun k _ => by
      have e : idx_main_v61 (idx_main_v62 (ix2 p (0 : Fin 1))) k = ix2 p k := funext fun a => Fin.ext (by match a with | ⟨0, _⟩ => rfl | ⟨1, _⟩ => rfl)
      rw [e, biased1]
  rw [val_main_v64_apply, val_main_v62_apply, val_main_v61_apply, val_main_v63_apply, val_main_cst_11_apply, val_main_cst_10_apply, hs, Ideal.hostDivf_def,
    Ideal.ofBits_def, Ideal.ofBits_def, Ideal.ofBits_zero_f32, zero_add]
  rfl

/-- The variance column at `(p, 0)` is the variance of the biased row `p`. -/
theorem var1 (p : Fin 50000) :
    val_main_v71 (F := Ideal) x0 x1 x3 x4 (ix2 p (0 : Fin 1)) = Cert.Gcn.rowVar (fun k => val_main_v53 (F := Ideal) x0 x1 x3 (ix2 p k) + val_main_v7 (F := Ideal) x4 (ix1 k)) := by
  have hs : (∑ k : Fin 256, val_main_v67 (F := Ideal) x0 x1 x3 x4 (idx_main_v68 (idx_main_v69 (ix2 p (0 : Fin 1))) k))
      = ∑ k : Fin 256, ((val_main_v53 (F := Ideal) x0 x1 x3 (ix2 p k) + val_main_v7 (F := Ideal) x4 (ix1 k) - Cert.Gcn.rowMean (fun k => val_main_v53 (F := Ideal) x0 x1 x3 (ix2 p k) + val_main_v7 (F := Ideal) x4 (ix1 k)))
          * (val_main_v53 (F := Ideal) x0 x1 x3 (ix2 p k) + val_main_v7 (F := Ideal) x4 (ix1 k) - Cert.Gcn.rowMean (fun k => val_main_v53 (F := Ideal) x0 x1 x3 (ix2 p k) + val_main_v7 (F := Ideal) x4 (ix1 k)))) :=
    Finset.sum_congr rfl fun k _ => by
      have e : idx_main_v68 (idx_main_v69 (ix2 p (0 : Fin 1))) k = ix2 p k := funext fun a => Fin.ext (by match a with | ⟨0, _⟩ => rfl | ⟨1, _⟩ => rfl)
      have e' : idx_main_v65 (ix2 p k) = ix2 p (0 : Fin 1) := funext fun a => Fin.ext (by match a with | ⟨0, _⟩ => rfl | ⟨1, _⟩ => rfl)
      rw [e, val_main_v67_apply, val_main_v66_apply, val_main_v65_apply, e', biased1, mean1, Ideal.mulf_def, Ideal.subf_def]
  rw [val_main_v71_apply, val_main_v69_apply, val_main_v68_apply, val_main_v70_apply, val_main_cst_13_apply, val_main_cst_12_apply, hs, Ideal.hostDivf_def,
    Ideal.ofBits_def, Ideal.ofBits_def, Ideal.ofBits_zero_f32, zero_add]
  rfl

/-- The first layer's normalisation: the clipped stage is the specification's `ln` of the aggregated features with
    the layer's bias, scale and shift as rows. -/
theorem ln1 :
    val_main_v85 (F := Ideal) x0 x1 x3 x4 x5 x6 = Cert.Gcn.ln (val_main_v53 (F := Ideal) x0 x1 x3) (Cert.Gcn.asRow (val_main_v7 (F := Ideal) x4))
      (Cert.Gcn.asRow (val_main_v58 (F := Ideal) x5)) (Cert.Gcn.asRow (val_main_v60 (F := Ideal) x6)) := by
  funext i
  obtain ⟨p, q, rfl⟩ : ∃ (p : Fin 50000) (q : Fin 256), i = ix2 p q := ⟨i 0, i 1, eq_ix2 i⟩
  have e72 : idx_main_v72 (ix2 p q) = ix2 p (0 : Fin 1) := funext fun a => Fin.ext (by match a with | ⟨0, _⟩ => rfl | ⟨1, _⟩ => rfl)
  have e77 : idx_main_v77 (ix2 p q) = ix2 p (0 : Fin 1) := funext fun a => Fin.ext (by match a with | ⟨0, _⟩ => rfl | ⟨1, _⟩ => rfl)
  have e79 : idx_main_v79 (idx_main_v80 (ix2 p q)) = ix1 q := funext fun a => Fin.ext (by match a with | ⟨0, _⟩ => rfl)
  have e82 : idx_main_v82 (idx_main_v83 (ix2 p q)) = ix1 q := funext fun a => Fin.ext (by match a with | ⟨0, _⟩ => rfl)
  rw [ln_at, val_main_v85_apply, val_main_v84_apply, val_main_v81_apply, val_main_v78_apply, val_main_v73_apply, val_main_v72_apply, e72, val_main_v77_apply, e77, val_main_v76_apply, val_main_v75_apply,
    val_main_v74_apply, val_main_cst_14_apply, val_main_v80_apply, val_main_v79_apply, e79, val_main_v83_apply, val_main_v82_apply, e82,
    val_main_call0_v0_apply, val_main_call0_cst_apply, biased1, mean1, var1,
    Ideal.maximumf_def, Ideal.addf_def, Ideal.addf_def, Ideal.mulf_def, Ideal.mulf_def, Ideal.subf_def,
    Ideal.hostUnary_rsqrt_def, Ideal.ofBits_def, Ideal.ofBits_def]

end

/-! ## Layer 2 -/

/-- The second layer's matrix product: the product stage is `mm` of its left operand and the layer's weight. -/
theorem mm2 (x0 : (⟨S50000x256, .f32⟩ : BufTy).Contents (Elt Ideal)) (x1 : (⟨S2x800000, .i32⟩ : BufTy).Contents (Elt Ideal)) (x3 : (⟨S3x256x256, .f32⟩ : BufTy).Contents (Elt Ideal)) (x4 : (⟨S3x256, .f32⟩ : BufTy).Contents (Elt Ideal)) (x5 : (⟨S3x256, .f32⟩ : BufTy).Contents (Elt Ideal)) (x6 : (⟨S3x256, .f32⟩ : BufTy).Contents (Elt Ideal)) :
    val_main_v90 (F := Ideal) x0 x1 x3 x4 x5 x6 = Cert.Gcn.mm (val_main_v85 (F := Ideal) x0 x1 x3 x4 x5 x6) (val_main_v87 (F := Ideal) x3) := by
  funext i
  obtain ⟨p, q, rfl⟩ : ∃ (p : Fin 50000) (q : Fin 256), i = ix2 p q := ⟨i 0, i 1, eq_ix2 i⟩
  have el : ∀ k : Fin 256, lidx_main_v90 (ix2 p q) k = ix2 p k := fun k => funext fun a => Fin.ext (by match a with | ⟨0, _⟩ => rfl | ⟨1, _⟩ => rfl)
  have er : ∀ k : Fin 256, ridx_main_v90 (ix2 p q) k = ix2 k q := fun k => funext fun a => Fin.ext (by match a with | ⟨0, _⟩ => rfl | ⟨1, _⟩ => rfl)
  rw [val_main_v90_apply, Cert.Gcn.mm_apply]
  refine Finset.sum_congr rfl fun k _ => ?_
  rw [el, er]

section
variable (x0 : (⟨S50000x256, .f32⟩ : BufTy).Contents (Elt Ideal))
    (x1 : (⟨S2x800000, .i32⟩ : BufTy).Contents (Elt Ideal))
    (x3 : (⟨S3x256x256, .f32⟩ : BufTy).Contents (Elt Ideal))
    (x4 : (⟨S3x256, .f32⟩ : BufTy).Contents (Elt Ideal))
    (x5 : (⟨S3x256, .f32⟩ : BufTy).Contents (Elt Ideal))
    (x6 : (⟨S3x256, .f32⟩ : BufTy).Contents (Elt Ideal))

/-- The biased features at `(p, k)`: the aggregated entry plus entry `k` of the bias. -/
theorem biased2 (p : Fin 50000) (k : Fin 256) :
    val_main_v138 (F := Ideal) x0 x1 x3 x4 x5 x6 (ix2 p k) = val_main_v135 (F := Ideal) x0 x1 x3 x4 x5 x6 (ix2 p k) + val_main_v89 (F := Ideal) x4 (ix1 k) := by
  have e : idx_main_v136 (idx_main_v137 (ix2 p k)) = ix1 k := funext fun a => Fin.ext (by match a with | ⟨0, _⟩ => rfl)
  rw [val_main_v138_apply, val_main_v137_apply, val_main_v136_apply, e, Ideal.addf_def]

/-- The mean column at `(p, 0)` is the mean of the biased row `p`. -/
theorem mean2 (p : Fin 50000) :
    val_main_v146 (F := Ideal) x0 x1 x3 x4 x5 x6 (ix2 p (0 : Fin 1)) = Cert.Gcn.rowMean (fun k => val_main_v135 (F := Ideal) x0 x1 x3 x4 x5 x6 (ix2 p k) + val_main_v89 (F := Ideal) x4 (ix1 k)) := by
  have hs : (∑ k : Fin 256, val_main_v138 (F := Ideal) x0 x1 x3 x4 x5 x6 (idx_main_v143 (idx_main_v144 (ix2 p (0 : Fin 1))) k))
      = ∑ k : Fin 256, (val_main_v135 (F := Ideal) x0 x1 x3 x4 x5 x6 (ix2 p k) + val_main_v89 (F := Ideal) x4 (ix1 k)) :=
    Finset.sum_congr rfl fun k _ => by
      have e : idx_main_v143 (idx_main_v144 (ix2 p (0 : Fin 1))) k = ix2 p k := funext fun a => Fin.ext (by match a with | ⟨0, _⟩ => rfl | ⟨1, _⟩ => rfl)
      rw [e, biased2]
  rw [val_main_v146_apply, val_main_v144_apply, val_main_v143_apply, val_main_v145_apply, val_main_cst_28_apply, val_main_cst_27_apply, hs, Ideal.hostDivf_def,
    Ideal.ofBits_def, Ideal.ofBits_def, Ideal.ofBits_zero_f32, zero_add]
  rfl

/-- The variance column at `(p, 0)` is the variance of the biased row `p`. -/
theorem var2 (p : Fin 50000) :
    val_main_v153 (F := Ideal) x0 x1 x3 x4 x5 x6 (ix2 p (0 : Fin 1)) = Cert.Gcn.rowVar (fun k => val_main_v135 (F := Ideal) x0 x1 x3 x4 x5 x6 (ix2 p k) + val_main_v89 (F := Ideal) x4 (ix1 k)) := by
  have hs : (∑ k : Fin 256, val_main_v149 (F := Ideal) x0 x1 x3 x4 x5 x6 (idx_main_v150 (idx_main_v151 (ix2 p (0 : Fin 1))) k))
      = ∑ k : Fin 256, ((val_main_v135 (F := Ideal) x0 x1 x3 x4 x5 x6 (ix2 p k) + val_main_v89 (F := Ideal) x4 (ix1 k) - Cert.Gcn.rowMean (fun k => val_main_v135 (F := Ideal) x0 x1 x3 x4 x5 x6 (ix2 p k) + val_main_v89 (F := Ideal) x4 (ix1 k)))
          * (val_main_v135 (F := Ideal) x0 x1 x3 x4 x5 x6 (ix2 p k) + val_main_v89 (F := Ideal) x4 (ix1 k) - Cert.Gcn.rowMean (fun k => val_main_v135 (F := Ideal) x0 x1 x3 x4 x5 x6 (ix2 p k) + val_main_v89 (F := Ideal) x4 (ix1 k)))) :=
    Finset.sum_congr rfl fun k _ => by
      have e : idx_main_v150 (idx_main_v151 (ix2 p (0 : Fin 1))) k = ix2 p k := funext fun a => Fin.ext (by match a with | ⟨0, _⟩ => rfl | ⟨1, _⟩ => rfl)
      have e' : idx_main_v147 (ix2 p k) = ix2 p (0 : Fin 1) := funext fun a => Fin.ext (by match a with | ⟨0, _⟩ => rfl | ⟨1, _⟩ => rfl)
      rw [e, val_main_v149_apply, val_main_v148_apply, val_main_v147_apply, e', biased2, mean2, Ideal.mulf_def, Ideal.subf_def]
  rw [val_main_v153_apply, val_main_v151_apply, val_main_v150_apply, val_main_v152_apply, val_main_cst_30_apply, val_main_cst_29_apply, hs, Ideal.hostDivf_def,
    Ideal.ofBits_def, Ideal.ofBits_def, Ideal.ofBits_zero_f32, zero_add]
  rfl

/-- The second layer's normalisation: the clipped stage is the specification's `ln` of the aggregated features with
    the layer's bias, scale and shift as rows. -/
theorem ln2 :
    val_main_v167 (F := Ideal) x0 x1 x3 x4 x5 x6 = Cert.Gcn.ln (val_main_v135 (F := Ideal) x0 x1 x3 x4 x5 x6) (Cert.Gcn.asRow (val_main_v89 (F := Ideal) x4))
      (Cert.Gcn.asRow (val_main_v140 (F := Ideal) x5)) (Cert.Gcn.asRow (val_main_v142 (F := Ideal) x6)) := by
  funext i
  obtain ⟨p, q, rfl⟩ : ∃ (p : Fin 50000) (q : Fin 256), i = ix2 p q := ⟨i 0, i 1, eq_ix2 i⟩
  have e72 : idx_main_v154 (ix2 p q) = ix2 p (0 : Fin 1) := funext fun a => Fin.ext (by match a with | ⟨0, _⟩ => rfl | ⟨1, _⟩ => rfl)
  have e77 : idx_main_v159 (ix2 p q) = ix2 p (0 : Fin 1) := funext fun a => Fin.ext (by match a with | ⟨0, _⟩ => rfl | ⟨1, _⟩ => rfl)
  have e79 : idx_main_v161 (idx_main_v162 (ix2 p q)) = ix1 q := funext fun a => Fin.ext (by match a with | ⟨0, _⟩ => rfl)
  have e82 : idx_main_v164 (idx_main_v165 (ix2 p q)) = ix1 q := funext fun a => Fin.ext (by match a with | ⟨0, _⟩ => rfl)
  rw [ln_at, val_main_v167_apply, val_main_v166_apply, val_main_v163_apply, val_main_v160_apply, val_main_v155_apply, val_main_v154_apply, e72, val_main_v159_apply, e77, val_main_v158_apply, val_main_v157_apply,
    val_main_v156_apply, val_main_cst_31_apply, val_main_v162_apply, val_main_v161_apply, e79, val_main_v165_apply, val_main_v164_apply, e82,
    val_main_call1_v0_apply, val_main_call1_cst_apply, biased2, mean2, var2,
    Ideal.maximumf_def, Ideal.addf_def, Ideal.addf_def, Ideal.mulf_def, Ideal.mulf_def, Ideal.subf_def,
    Ideal.hostUnary_rsqrt_def, Ideal.ofBits_def, Ideal.ofBits_def]

end

/-! ## Layer 3 -/

/-- The third layer's matrix product: the product stage is `mm` of its left operand and the layer's weight. -/
theorem mm3 (x0 : (⟨S50000x256, .f32⟩ : BufTy).Contents (Elt Ideal)) (x1 : (⟨S2x800000, .i32⟩ : BufTy).Contents (Elt Ideal)) (x3 : (⟨S3x256x256, .f32⟩ : BufTy).Contents (Elt Ideal)) (x4 : (⟨S3x256, .f32⟩ : BufTy).Contents (Elt Ideal)) (x5 : (⟨S3x256, .f32⟩ : BufTy).Contents (Elt Ideal)) (x6 : (⟨S3x256, .f32⟩ : BufTy).Contents (Elt Ideal)) :
    val_main_v172 (F := Ideal) x0 x1 x3 x4 x5 x6 = Cert.Gcn.mm (val_main_v167 (F := Ideal) x0 x1 x3 x4 x5 x6) (val_main_v169 (F := Ideal) x3) := by
  funext i
  obtain ⟨p, q, rfl⟩ : ∃ (p : Fin 50000) (q : Fin 256), i = ix2 p q := ⟨i 0, i 1, eq_ix2 i⟩
  have el : ∀ k : Fin 256, lidx_main_v172 (ix2 p q) k = ix2 p k := fun k => funext fun a => Fin.ext (by match a with | ⟨0, _⟩ => rfl | ⟨1, _⟩ => rfl)
  have er : ∀ k : Fin 256, ridx_main_v172 (ix2 p q) k = ix2 k q := fun k => funext fun a => Fin.ext (by match a with | ⟨0, _⟩ => rfl | ⟨1, _⟩ => rfl)
  rw [val_main_v172_apply, Cert.Gcn.mm_apply]
  refine Finset.sum_congr rfl fun k _ => ?_
  rw [el, er]

section
variable (x0 : (⟨S50000x256, .f32⟩ : BufTy).Contents (Elt Ideal))
    (x1 : (⟨S2x800000, .i32⟩ : BufTy).Contents (Elt Ideal))
    (x3 : (⟨S3x256x256, .f32⟩ : BufTy).Contents (Elt Ideal))
    (x4 : (⟨S3x256, .f32⟩ : BufTy).Contents (Elt Ideal))
    (x5 : (⟨S3x256, .f32⟩ : BufTy).Contents (Elt Ideal))
    (x6 : (⟨S3x256, .f32⟩ : BufTy).Contents (Elt Ideal))

/-- The biased features at `(p, k)`: the aggregated entry plus entry `k` of the bias. -/
theorem biased3 (p : Fin 50000) (k : Fin 256) :
    val_main_v220 (F := Ideal) x0 x1 x3 x4 x5 x6 (ix2 p k) = val_main_v217 (F := Ideal) x0 x1 x3 x4 x5 x6 (ix2 p k) + val_main_v171 (F := Ideal) x4 (ix1 k) := by
  have e : idx_main_v218 (idx_main_v219 (ix2 p k)) = ix1 k := funext fun a => Fin.ext (by match a with | ⟨0, _⟩ => rfl)
  rw [val_main_v220_apply, val_main_v219_apply, val_main_v218_apply, e, Ideal.addf_def]

/-- The mean column at `(p, 0)` is the mean of the biased row `p`. -/
theorem mean3 (p : Fin 50000) :
    val_main_v228 (F := Ideal) x0 x1 x3 x4 x5 x6 (ix2 p (0 : Fin 1)) = Cert.Gcn.rowMean (fun k => val_main_v217 (F := Ideal) x0 x1 x3 x4 x5 x6 (ix2 p k) + val_main_v171 (F := Ideal) x4 (ix1 k)) := by
  have hs : (∑ k : Fin 256, val_main_v220 (F := Ideal) x0 x1 x3 x4 x5 x6 (idx_main_v225 (idx_main_v226 (ix2 p (0 : Fin 1))) k))
      = ∑ k : Fin 256, (val_main_v217 (F := Ideal) x0 x1 x3 x4 x5 x6 (ix2 p k) + val_main_v171 (F := Ideal) x4 (ix1 k)) :=
    Finset.sum_congr rfl fun k _ => by
      have e : idx_main_v225 (idx_main_v226 (ix2 p (0 : Fin 1))) k = ix2 p k := funext fun a => Fin.ext (by match a with | ⟨0, _⟩ => rfl | ⟨1, _⟩ => rfl)
      rw [e, biased3]
  rw [val_main_v228_apply, val_main_v226_apply, val_main_v225_apply, val_main_v227_apply, val_main_cst_45_apply, val_main_cst_44_apply, hs, Ideal.hostDivf_def,
    Ideal.ofBits_def, Ideal.ofBits_def, Ideal.ofBits_zero_f32, zero_add]
  rfl

/-- The variance column at `(p, 0)` is the variance of the biased row `p`. -/
theorem var3 (p : Fin 50000) :
    val_main_v235 (F := Ideal) x0 x1 x3 x4 x5 x6 (ix2 p (0 : Fin 1)) = Cert.Gcn.rowVar (fun k => val_main_v217 (F := Ideal) x0 x1 x3 x4 x5 x6 (ix2 p k) + val_main_v171 (F := Ideal) x4 (ix1 k)) := by
  have hs : (∑ k : Fin 256, val_main_v231 (F := Ideal) x0 x1 x3 x4 x5 x6 (idx_main_v232 (idx_main_v233 (ix2 p (0 : Fin 1))) k))
      = ∑ k : Fin 256, ((val_main_v217 (F := Ideal) x0 x1 x3 x4 x5 x6 (ix2 p k) + val_main_v171 (F := Ideal) x4 (ix1 k) - Cert.Gcn.rowMean (fun k => val_main_v217 (F := Ideal) x0 x1 x3 x4 x5 x6 (ix2 p k) + val_main_v171 (F := Ideal) x4 (ix1 k)))
          * (val_main_v217 (F := Ideal) x0 x1 x3 x4 x5 x6 (ix2 p k) + val_main_v171 (F := Ideal) x4 (ix1 k) - Cert.Gcn.rowMean (fun k => val_main_v217 (F := Ideal) x0 x1 x3 x4 x5 x6 (ix2 p k) + val_main_v171 (F := Ideal) x4 (ix1 k)))) :=
    Finset.sum_congr rfl fun k _ => by
      have e : idx_main_v232 (idx_main_v233 (ix2 p (0 : Fin 1))) k = ix2 p k := funext fun a => Fin.ext (by match a with | ⟨0, _⟩ => rfl | ⟨1, _⟩ => rfl)
      have e' : idx_main_v229 (ix2 p k) = ix2 p (0 : Fin 1) := funext fun a => Fin.ext (by match a with | ⟨0, _⟩ => rfl | ⟨1, _⟩ => rfl)
      rw [e, val_main_v231_apply, val_main_v230_apply, val_main_v229_apply, e', biased3, mean3, Ideal.mulf_def, Ideal.subf_def]
  rw [val_main_v235_apply, val_main_v233_apply, val_main_v232_apply, val_main_v234_apply, val_main_cst_47_apply, val_main_cst_46_apply, hs, Ideal.hostDivf_def,
    Ideal.ofBits_def, Ideal.ofBits_def, Ideal.ofBits_zero_f32, zero_add]
  rfl

/-- The third layer's normalisation: the clipped stage is the specification's `ln` of the aggregated features with
    the layer's bias, scale and shift as rows. -/
theorem ln3 :
    val_main_v249 (F := Ideal) x0 x1 x3 x4 x5 x6 = Cert.Gcn.ln (val_main_v217 (F := Ideal) x0 x1 x3 x4 x5 x6) (Cert.Gcn.asRow (val_main_v171 (F := Ideal) x4))
      (Cert.Gcn.asRow (val_main_v222 (F := Ideal) x5)) (Cert.Gcn.asRow (val_main_v224 (F := Ideal) x6)) := by
  funext i
  obtain ⟨p, q, rfl⟩ : ∃ (p : Fin 50000) (q : Fin 256), i = ix2 p q := ⟨i 0, i 1, eq_ix2 i⟩
  have e72 : idx_main_v236 (ix2 p q) = ix2 p (0 : Fin 1) := funext fun a => Fin.ext (by match a with | ⟨0, _⟩ => rfl | ⟨1, _⟩ => rfl)
  have e77 : idx_main_v241 (ix2 p q) = ix2 p (0 : Fin 1) := funext fun a => Fin.ext (by match a with | ⟨0, _⟩ => rfl | ⟨1, _⟩ => rfl)
  have e79 : idx_main_v243 (idx_main_v244 (ix2 p q)) = ix1 q := funext fun a => Fin.ext (by match a with | ⟨0, _⟩ => rfl)
  have e82 : idx_main_v246 (idx_main_v247 (ix2 p q)) = ix1 q := funext fun a => Fin.ext (by match a with | ⟨0, _⟩ => rfl)
  rw [ln_at, val_main_v249_apply, val_main_v248_apply, val_main_v245_apply, val_main_v242_apply, val_main_v237_apply, val_main_v236_apply, e72, val_main_v241_apply, e77, val_main_v240_apply, val_main_v239_apply,
    val_main_v238_apply, val_main_cst_48_apply, val_main_v244_apply, val_main_v243_apply, e79, val_main_v247_apply, val_main_v246_apply, e82,
    val_main_call2_v0_apply, val_main_call2_cst_apply, biased3, mean3, var3,
    Ideal.maximumf_def, Ideal.addf_def, Ideal.addf_def, Ideal.mulf_def, Ideal.mulf_def, Ideal.subf_def,
    Ideal.hostUnary_rsqrt_def, Ideal.ofBits_def, Ideal.ofBits_def]

end

end Cert.Gcn.Ref

end
-- ==== Proof.Chain.lean ====
/-
  THE IDEALIZED KERNEL PROGRAM'S RESULT IS THE REFERENCE'S LAST STAGE.

  The kernel program is seven stretches of host operations around six kernel regions: per layer a matrix-product region,
  then host operations that mix the rows along the graph's edges, then a region that adds the bias and normalises,
  scales, shifts and clips every row. The buffers' contents at the thirteen segment boundaries are a fold from the launch
  memory. This module walks that fold and shows, boundary by boundary, that each buffer a later segment reads holds the
  value of the matching stage of the reference (the reference's operations read one at a time, as functions of the
  arguments):

  * a stretch of host operations is the reference's own operations applied to equal operands — the two terms are the same
    tree, so once the operands are rewritten the equation closes by reflexivity; nothing of a gather or a scatter is opened;
  * a product region leaves `mm features weight`, which is the reference's `dot_general` stage;
  * a normalising region leaves `ln aggregated bias scale shift`, which is the reference's chain of stages from the bias
    addition to the clip (the only difference, a bias kept as a `[256]` vector by the reference and reshaped to a `[1, 256]`
    row for the kernel, is `row_cast`);
  * the argument arrays and the graph's structural quantities (edge endpoints, edge and self-loop coefficients), computed
    once by the first stretch, are written by nothing later, so they reach every layer unchanged — where the reference
    recomputes them per layer, to the same terms.

  The last stretch is the pooling, again the reference's own operations.
-/
import proofs.«165873_j6476810682405_1_alg».proof.Proof.Gen.KernelIdeal.Frame
import proofs.«165873_j6476810682405_1_alg».proof.Proof.RefRead
import proofs.«165873_j6476810682405_1_alg».proof.Proof.Spec
import proofs.«165873_j6476810682405_1_alg».proof.Proof.MmRegions
import proofs.«165873_j6476810682405_1_alg».proof.Proof.LnRegions
import proofs.«165873_j6476810682405_1_alg».proof.Proof.RefLayers
import Idealize.ShloMosaic.Lib.ValueLayout

set_option maxRecDepth 16384

noncomputable section

namespace Cert.Gcn.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a stretch writes keeps its contents over the stretch. -/
macro "unwritten" ops:ident : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The first stretch of host operations: the graph's structural quantities and the first layer's weight -/

/-- The edges' source nodes. -/
theorem w1_v1 : W1 m ρ c (Proc.devRef .tc main_v1) = Cert.ReferenceIdeal.ReadP.val_main_v1 (F := Ideal) (m ((c : Thread nD τ).loc main_arg1)) := by
  show StableHlo.after hostOps0 (W0 m ρ c) (Proc.devRef .tc main_v1) = _
  after_results
  rfl

/-- The edges' target nodes. -/
theorem w1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl

/-- The edge coefficients, as a column. -/
theorem w1_v31 : W1 m ρ c (Proc.devRef .tc main_v31) = Cert.ReferenceIdeal.ReadP.val_main_v36 (F := Ideal) (m ((c : Thread nD τ).loc main_arg1)) := by
  show StableHlo.after hostOps0 (W0 m ρ c) (Proc.devRef .tc main_v31) = _
  after_results_simp
  rfl

/-- The self-loop coefficients, as a column. -/
theorem w1_v33 : W1 m ρ c (Proc.devRef .tc main_v33) = Cert.ReferenceIdeal.ReadP.val_main_v50 (F := Ideal) (m ((c : Thread nD τ).loc main_arg1)) := by
  show StableHlo.after hostOps0 (W0 m ρ c) (Proc.devRef .tc main_v33) = _
  after_results_simp
  rfl

/-- The first layer's weight matrix. -/
theorem w1_v35 : W1 m ρ c (Proc.devRef .tc main_v35) = Cert.ReferenceIdeal.ReadP.val_main_v5 (F := Ideal) (m ((c : Thread nD τ).loc main_arg3)) := by
  show StableHlo.after hostOps0 (W0 m ρ c) (Proc.devRef .tc main_v35) = _
  after_results
  rfl

/-! ## What the later segments leave alone

The argument arrays and the graph's structural quantities are written by no later stretch of host operations and are no
kernel region's output: each keeps its contents from segment boundary to segment boundary. -/

theorem w0_arg2 : W0 m ρ c (Proc.devRef .tc main_arg2) = m ((c : Thread nD τ).loc main_arg2) := rfl
theorem w1_arg2 : W1 m ρ c (Proc.devRef .tc main_arg2) = m ((c : Thread nD τ).loc main_arg2) :=
  (show StableHlo.after hostOps0 (W0 m ρ c) (Proc.devRef .tc main_arg2) = W0 m ρ c (Proc.devRef .tc main_arg2) by unwritten hostOps0).trans (w0_arg2 m ρ c)
theorem w2_arg2 : W2 m ρ c (Proc.devRef .tc main_arg2) = m ((c : Thread nD τ).loc main_arg2) :=
  (W2_of_ne m ρ c main_arg2 (by decide)).trans (w1_arg2 m ρ c)
theorem w3_arg2 : W3 m ρ c (Proc.devRef .tc main_arg2) = m ((c : Thread nD τ).loc main_arg2) :=
  (show StableHlo.after hostOps1 (W2 m ρ c) (Proc.devRef .tc main_arg2) = W2 m ρ c (Proc.devRef .tc main_arg2) by unwritten hostOps1).trans (w2_arg2 m ρ c)
theorem w4_arg2 : W4 m ρ c (Proc.devRef .tc main_arg2) = m ((c : Thread nD τ).loc main_arg2) :=
  (W4_of_ne m ρ c main_arg2 (by decide)).trans (w3_arg2 m ρ c)
theorem w5_arg2 : W5 m ρ c (Proc.devRef .tc main_arg2) = m ((c : Thread nD τ).loc main_arg2) :=
  (show StableHlo.after hostOps2 (W4 m ρ c) (Proc.devRef .tc main_arg2) = W4 m ρ c (Proc.devRef .tc main_arg2) by unwritten hostOps2).trans (w4_arg2 m ρ c)
theorem w6_arg2 : W6 m ρ c (Proc.devRef .tc main_arg2) = m ((c : Thread nD τ).loc main_arg2) :=
  (W6_of_ne m ρ c main_arg2 (by decide)).trans (w5_arg2 m ρ c)
theorem w7_arg2 : W7 m ρ c (Proc.devRef .tc main_arg2) = m ((c : Thread nD τ).loc main_arg2) :=
  (show StableHlo.after hostOps3 (W6 m ρ c) (Proc.devRef .tc main_arg2) = W6 m ρ c (Proc.devRef .tc main_arg2) by unwritten hostOps3).trans (w6_arg2 m ρ c)
theorem w8_arg2 : W8 m ρ c (Proc.devRef .tc main_arg2) = m ((c : Thread nD τ).loc main_arg2) :=
  (W8_of_ne m ρ c main_arg2 (by decide)).trans (w7_arg2 m ρ c)
theorem w9_arg2 : W9 m ρ c (Proc.devRef .tc main_arg2) = m ((c : Thread nD τ).loc main_arg2) :=
  (show StableHlo.after hostOps4 (W8 m ρ c) (Proc.devRef .tc main_arg2) = W8 m ρ c (Proc.devRef .tc main_arg2) by unwritten hostOps4).trans (w8_arg2 m ρ c)
theorem w10_arg2 : W10 m ρ c (Proc.devRef .tc main_arg2) = m ((c : Thread nD τ).loc main_arg2) :=
  (W10_of_ne m ρ c main_arg2 (by decide)).trans (w9_arg2 m ρ c)
theorem w11_arg2 : W11 m ρ c (Proc.devRef .tc main_arg2) = m ((c : Thread nD τ).loc main_arg2) :=
  (show StableHlo.after hostOps5 (W10 m ρ c) (Proc.devRef .tc main_arg2) = W10 m ρ c (Proc.devRef .tc main_arg2) by unwritten hostOps5).trans (w10_arg2 m ρ c)
theorem w12_arg2 : W12 m ρ c (Proc.devRef .tc main_arg2) = m ((c : Thread nD τ).loc main_arg2) :=
  (W12_of_ne m ρ c main_arg2 (by decide)).trans (w11_arg2 m ρ c)
theorem w0_arg3 : W0 m ρ c (Proc.devRef .tc main_arg3) = m ((c : Thread nD τ).loc main_arg3) := rfl
theorem w1_arg3 : W1 m ρ c (Proc.devRef .tc main_arg3) = m ((c : Thread nD τ).loc main_arg3) :=
  (show StableHlo.after hostOps0 (W0 m ρ c) (Proc.devRef .tc main_arg3) = W0 m ρ c (Proc.devRef .tc main_arg3) by unwritten hostOps0).trans (w0_arg3 m ρ c)
theorem w2_arg3 : W2 m ρ c (Proc.devRef .tc main_arg3) = m ((c : Thread nD τ).loc main_arg3) :=
  (W2_of_ne m ρ c main_arg3 (by decide)).trans (w1_arg3 m ρ c)
theorem w3_arg3 : W3 m ρ c (Proc.devRef .tc main_arg3) = m ((c : Thread nD τ).loc main_arg3) :=
  (show StableHlo.after hostOps1 (W2 m ρ c) (Proc.devRef .tc main_arg3) = W2 m ρ c (Proc.devRef .tc main_arg3) by unwritten hostOps1).trans (w2_arg3 m ρ c)
theorem w4_arg3 : W4 m ρ c (Proc.devRef .tc main_arg3) = m ((c : Thread nD τ).loc main_arg3) :=
  (W4_of_ne m ρ c main_arg3 (by decide)).trans (w3_arg3 m ρ c)
theorem w5_arg3 : W5 m ρ c (Proc.devRef .tc main_arg3) = m ((c : Thread nD τ).loc main_arg3) :=
  (show StableHlo.after hostOps2 (W4 m ρ c) (Proc.devRef .tc main_arg3) = W4 m ρ c (Proc.devRef .tc main_arg3) by unwritten hostOps2).trans (w4_arg3 m ρ c)
theorem w6_arg3 : W6 m ρ c (Proc.devRef .tc main_arg3) = m ((c : Thread nD τ).loc main_arg3) :=
  (W6_of_ne m ρ c main_arg3 (by decide)).trans (w5_arg3 m ρ c)
theorem w7_arg3 : W7 m ρ c (Proc.devRef .tc main_arg3) = m ((c : Thread nD τ).loc main_arg3) :=
  (show StableHlo.after hostOps3 (W6 m ρ c) (Proc.devRef .tc main_arg3) = W6 m ρ c (Proc.devRef .tc main_arg3) by unwritten hostOps3).trans (w6_arg3 m ρ c)
theorem w8_arg3 : W8 m ρ c (Proc.devRef .tc main_arg3) = m ((c : Thread nD τ).loc main_arg3) :=
  (W8_of_ne m ρ c main_arg3 (by decide)).trans (w7_arg3 m ρ c)
theorem w0_arg4 : W0 m ρ c (Proc.devRef .tc main_arg4) = m ((c : Thread nD τ).loc main_arg4) := rfl
theorem w1_arg4 : W1 m ρ c (Proc.devRef .tc main_arg4) = m ((c : Thread nD τ).loc main_arg4) :=
  (show StableHlo.after hostOps0 (W0 m ρ c) (Proc.devRef .tc main_arg4) = W0 m ρ c (Proc.devRef .tc main_arg4) by unwritten hostOps0).trans (w0_arg4 m ρ c)
theorem w2_arg4 : W2 m ρ c (Proc.devRef .tc main_arg4) = m ((c : Thread nD τ).loc main_arg4) :=
  (W2_of_ne m ρ c main_arg4 (by decide)).trans (w1_arg4 m ρ c)
theorem w3_arg4 : W3 m ρ c (Proc.devRef .tc main_arg4) = m ((c : Thread nD τ).loc main_arg4) :=
  (show StableHlo.after hostOps1 (W2 m ρ c) (Proc.devRef .tc main_arg4) = W2 m ρ c (Proc.devRef .tc main_arg4) by unwritten hostOps1).trans (w2_arg4 m ρ c)
theorem w4_arg4 : W4 m ρ c (Proc.devRef .tc main_arg4) = m ((c : Thread nD τ).loc main_arg4) :=
  (W4_of_ne m ρ c main_arg4 (by decide)).trans (w3_arg4 m ρ c)
theorem w5_arg4 : W5 m ρ c (Proc.devRef .tc main_arg4) = m ((c : Thread nD τ).loc main_arg4) :=
  (show StableHlo.after hostOps2 (W4 m ρ c) (Proc.devRef .tc main_arg4) = W4 m ρ c (Proc.devRef .tc main_arg4) by unwritten hostOps2).trans (w4_arg4 m ρ c)
theorem w6_arg4 : W6 m ρ c (Proc.devRef .tc main_arg4) = m ((c : Thread nD τ).loc main_arg4) :=
  (W6_of_ne m ρ c main_arg4 (by decide)).trans (w5_arg4 m ρ c)
theorem w7_arg4 : W7 m ρ c (Proc.devRef .tc main_arg4) = m ((c : Thread nD τ).loc main_arg4) :=
  (show StableHlo.after hostOps3 (W6 m ρ c) (Proc.devRef .tc main_arg4) = W6 m ρ c (Proc.devRef .tc main_arg4) by unwritten hostOps3).trans (w6_arg4 m ρ c)
theorem w8_arg4 : W8 m ρ c (Proc.devRef .tc main_arg4) = m ((c : Thread nD τ).loc main_arg4) :=
  (W8_of_ne m ρ c main_arg4 (by decide)).trans (w7_arg4 m ρ c)
theorem w9_arg4 : W9 m ρ c (Proc.devRef .tc main_arg4) = m ((c : Thread nD τ).loc main_arg4) :=
  (show StableHlo.after hostOps4 (W8 m ρ c) (Proc.devRef .tc main_arg4) = W8 m ρ c (Proc.devRef .tc main_arg4) by unwritten hostOps4).trans (w8_arg4 m ρ c)
theorem w10_arg4 : W10 m ρ c (Proc.devRef .tc main_arg4) = m ((c : Thread nD τ).loc main_arg4) :=
  (W10_of_ne m ρ c main_arg4 (by decide)).trans (w9_arg4 m ρ c)
theorem w0_arg5 : W0 m ρ c (Proc.devRef .tc main_arg5) = m ((c : Thread nD τ).loc main_arg5) := rfl
theorem w1_arg5 : W1 m ρ c (Proc.devRef .tc main_arg5) = m ((c : Thread nD τ).loc main_arg5) :=
  (show StableHlo.after hostOps0 (W0 m ρ c) (Proc.devRef .tc main_arg5) = W0 m ρ c (Proc.devRef .tc main_arg5) by unwritten hostOps0).trans (w0_arg5 m ρ c)
theorem w2_arg5 : W2 m ρ c (Proc.devRef .tc main_arg5) = m ((c : Thread nD τ).loc main_arg5) :=
  (W2_of_ne m ρ c main_arg5 (by decide)).trans (w1_arg5 m ρ c)
theorem w3_arg5 : W3 m ρ c (Proc.devRef .tc main_arg5) = m ((c : Thread nD τ).loc main_arg5) :=
  (show StableHlo.after hostOps1 (W2 m ρ c) (Proc.devRef .tc main_arg5) = W2 m ρ c (Proc.devRef .tc main_arg5) by unwritten hostOps1).trans (w2_arg5 m ρ c)
theorem w4_arg5 : W4 m ρ c (Proc.devRef .tc main_arg5) = m ((c : Thread nD τ).loc main_arg5) :=
  (W4_of_ne m ρ c main_arg5 (by decide)).trans (w3_arg5 m ρ c)
theorem w5_arg5 : W5 m ρ c (Proc.devRef .tc main_arg5) = m ((c : Thread nD τ).loc main_arg5) :=
  (show StableHlo.after hostOps2 (W4 m ρ c) (Proc.devRef .tc main_arg5) = W4 m ρ c (Proc.devRef .tc main_arg5) by unwritten hostOps2).trans (w4_arg5 m ρ c)
theorem w6_arg5 : W6 m ρ c (Proc.devRef .tc main_arg5) = m ((c : Thread nD τ).loc main_arg5) :=
  (W6_of_ne m ρ c main_arg5 (by decide)).trans (w5_arg5 m ρ c)
theorem w7_arg5 : W7 m ρ c (Proc.devRef .tc main_arg5) = m ((c : Thread nD τ).loc main_arg5) :=
  (show StableHlo.after hostOps3 (W6 m ρ c) (Proc.devRef .tc main_arg5) = W6 m ρ c (Proc.devRef .tc main_arg5) by unwritten hostOps3).trans (w6_arg5 m ρ c)
theorem w8_arg5 : W8 m ρ c (Proc.devRef .tc main_arg5) = m ((c : Thread nD τ).loc main_arg5) :=
  (W8_of_ne m ρ c main_arg5 (by decide)).trans (w7_arg5 m ρ c)
theorem w9_arg5 : W9 m ρ c (Proc.devRef .tc main_arg5) = m ((c : Thread nD τ).loc main_arg5) :=
  (show StableHlo.after hostOps4 (W8 m ρ c) (Proc.devRef .tc main_arg5) = W8 m ρ c (Proc.devRef .tc main_arg5) by unwritten hostOps4).trans (w8_arg5 m ρ c)
theorem w10_arg5 : W10 m ρ c (Proc.devRef .tc main_arg5) = m ((c : Thread nD τ).loc main_arg5) :=
  (W10_of_ne m ρ c main_arg5 (by decide)).trans (w9_arg5 m ρ c)
theorem w0_arg6 : W0 m ρ c (Proc.devRef .tc main_arg6) = m ((c : Thread nD τ).loc main_arg6) := rfl
theorem w1_arg6 : W1 m ρ c (Proc.devRef .tc main_arg6) = m ((c : Thread nD τ).loc main_arg6) :=
  (show StableHlo.after hostOps0 (W0 m ρ c) (Proc.devRef .tc main_arg6) = W0 m ρ c (Proc.devRef .tc main_arg6) by unwritten hostOps0).trans (w0_arg6 m ρ c)
theorem w2_arg6 : W2 m ρ c (Proc.devRef .tc main_arg6) = m ((c : Thread nD τ).loc main_arg6) :=
  (W2_of_ne m ρ c main_arg6 (by decide)).trans (w1_arg6 m ρ c)
theorem w3_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) by unwritten hostOps1).trans (w2_arg6 m ρ c)
theorem w4_arg6 : W4 m ρ c (Proc.devRef .tc main_arg6) = m ((c : Thread nD τ).loc main_arg6) :=
  (W4_of_ne m ρ c main_arg6 (by decide)).trans (w3_arg6 m ρ c)
theorem w5_arg6 : W5 m ρ c (Proc.devRef .tc main_arg6) = m ((c : Thread nD τ).loc main_arg6) :=
  (show StableHlo.after hostOps2 (W4 m ρ c) (Proc.devRef .tc main_arg6) = W4 m ρ c (Proc.devRef .tc main_arg6) by unwritten hostOps2).trans (w4_arg6 m ρ c)
theorem w6_arg6 : W6 m ρ c (Proc.devRef .tc main_arg6) = m ((c : Thread nD τ).loc main_arg6) :=
  (W6_of_ne m ρ c main_arg6 (by decide)).trans (w5_arg6 m ρ c)
theorem w7_arg6 : W7 m ρ c (Proc.devRef .tc main_arg6) = m ((c : Thread nD τ).loc main_arg6) :=
  (show StableHlo.after hostOps3 (W6 m ρ c) (Proc.devRef .tc main_arg6) = W6 m ρ c (Proc.devRef .tc main_arg6) by unwritten hostOps3).trans (w6_arg6 m ρ c)
theorem w8_arg6 : W8 m ρ c (Proc.devRef .tc main_arg6) = m ((c : Thread nD τ).loc main_arg6) :=
  (W8_of_ne m ρ c main_arg6 (by decide)).trans (w7_arg6 m ρ c)
theorem w9_arg6 : W9 m ρ c (Proc.devRef .tc main_arg6) = m ((c : Thread nD τ).loc main_arg6) :=
  (show StableHlo.after hostOps4 (W8 m ρ c) (Proc.devRef .tc main_arg6) = W8 m ρ c (Proc.devRef .tc main_arg6) by unwritten hostOps4).trans (w8_arg6 m ρ c)
theorem w10_arg6 : W10 m ρ c (Proc.devRef .tc main_arg6) = m ((c : Thread nD τ).loc main_arg6) :=
  (W10_of_ne m ρ c main_arg6 (by decide)).trans (w9_arg6 m ρ c)
theorem w2_v1 : W2 m ρ c (Proc.devRef .tc main_v1) = Cert.ReferenceIdeal.ReadP.val_main_v1 (F := Ideal) (m ((c : Thread nD τ).loc main_arg1)) :=
  (W2_of_ne m ρ c main_v1 (by decide)).trans (w1_v1 m ρ c)
theorem w3_v1 : W3 m ρ c (Proc.devRef .tc main_v1) = Cert.ReferenceIdeal.ReadP.val_main_v1 (F := Ideal) (m ((c : Thread nD τ).loc main_arg1)) :=
  (show StableHlo.after hostOps1 (W2 m ρ c) (Proc.devRef .tc main_v1) = W2 m ρ c (Proc.devRef .tc main_v1) by unwritten hostOps1).trans (w2_v1 m ρ c)
theorem w4_v1 : W4 m ρ c (Proc.devRef .tc main_v1) = Cert.ReferenceIdeal.ReadP.val_main_v1 (F := Ideal) (m ((c : Thread nD τ).loc main_arg1)) :=
  (W4_of_ne m ρ c main_v1 (by decide)).trans (w3_v1 m ρ c)
theorem w5_v1 : W5 m ρ c (Proc.devRef .tc main_v1) = Cert.ReferenceIdeal.ReadP.val_main_v1 (F := Ideal) (m ((c : Thread nD τ).loc main_arg1)) :=
  (show StableHlo.after hostOps2 (W4 m ρ c) (Proc.devRef .tc main_v1) = W4 m ρ c (Proc.devRef .tc main_v1) by unwritten hostOps2).trans (w4_v1 m ρ c)
theorem w6_v1 : W6 m ρ c (Proc.devRef .tc main_v1) = Cert.ReferenceIdeal.ReadP.val_main_v1 (F := Ideal) (m ((c : Thread nD τ).loc main_arg1)) :=
  (W6_of_ne m ρ c main_v1 (by decide)).trans (w5_v1 m ρ c)
theorem w7_v1 : W7 m ρ c (Proc.devRef .tc main_v1) = Cert.ReferenceIdeal.ReadP.val_main_v1 (F := Ideal) (m ((c : Thread nD τ).loc main_arg1)) :=
  (show StableHlo.after hostOps3 (W6 m ρ c) (Proc.devRef .tc main_v1) = W6 m ρ c (Proc.devRef .tc main_v1) by unwritten hostOps3).trans (w6_v1 m ρ c)
theorem w8_v1 : W8 m ρ c (Proc.devRef .tc main_v1) = Cert.ReferenceIdeal.ReadP.val_main_v1 (F := Ideal) (m ((c : Thread nD τ).loc main_arg1)) :=
  (W8_of_ne m ρ c main_v1 (by decide)).trans (w7_v1 m ρ c)
theorem w9_v1 : W9 m ρ c (Proc.devRef .tc main_v1) = Cert.ReferenceIdeal.ReadP.val_main_v1 (F := Ideal) (m ((c : Thread nD τ).loc main_arg1)) :=
  (show StableHlo.after hostOps4 (W8 m ρ c) (Proc.devRef .tc main_v1) = W8 m ρ c (Proc.devRef .tc main_v1) by unwritten hostOps4).trans (w8_v1 m ρ c)
theorem w10_v1 : W10 m ρ c (Proc.devRef .tc main_v1) = Cert.ReferenceIdeal.ReadP.val_main_v1 (F := Ideal) (m ((c : Thread nD τ).loc main_arg1)) :=
  (W10_of_ne m ρ c main_v1 (by decide)).trans (w9_v1 m ρ c)
theorem w2_v3 : W2 m ρ c (Proc.devRef .tc main_v3) = Cert.ReferenceIdeal.ReadP.val_main_v3 (F := Ideal) (m ((c : Thread nD τ).loc main_arg1)) :=
  (W2_of_ne m ρ c main_v3 (by decide)).trans (w1_v3 m ρ c)
theorem w3_v3 : W3 m ρ c (Proc.devRef .tc main_v3) = Cert.ReferenceIdeal.ReadP.val_main_v3 (F := Ideal) (m ((c : Thread nD τ).loc main_arg1)) :=
  (show StableHlo.after hostOps1 (W2 m ρ c) (Proc.devRef .tc main_v3) = W2 m ρ c (Proc.devRef .tc main_v3) by unwritten hostOps1).trans (w2_v3 m ρ c)
theorem w4_v3 : W4 m ρ c (Proc.devRef .tc main_v3) = Cert.ReferenceIdeal.ReadP.val_main_v3 (F := Ideal) (m ((c : Thread nD τ).loc main_arg1)) :=
  (W4_of_ne m ρ c main_v3 (by decide)).trans (w3_v3 m ρ c)
theorem w5_v3 : W5 m ρ c (Proc.devRef .tc main_v3) = Cert.ReferenceIdeal.ReadP.val_main_v3 (F := Ideal) (m ((c : Thread nD τ).loc main_arg1)) :=
  (show StableHlo.after hostOps2 (W4 m ρ c) (Proc.devRef .tc main_v3) = W4 m ρ c (Proc.devRef .tc main_v3) by unwritten hostOps2).trans (w4_v3 m ρ c)
theorem w6_v3 : W6 m ρ c (Proc.devRef .tc main_v3) = Cert.ReferenceIdeal.ReadP.val_main_v3 (F := Ideal) (m ((c : Thread nD τ).loc main_arg1)) :=
  (W6_of_ne m ρ c main_v3 (by decide)).trans (w5_v3 m ρ c)
theorem w7_v3 : W7 m ρ c (Proc.devRef .tc main_v3) = Cert.ReferenceIdeal.ReadP.val_main_v3 (F := Ideal) (m ((c : Thread nD τ).loc main_arg1)) :=
  (show StableHlo.after hostOps3 (W6 m ρ c) (Proc.devRef .tc main_v3) = W6 m ρ c (Proc.devRef .tc main_v3) by unwritten hostOps3).trans (w6_v3 m ρ c)
theorem w8_v3 : W8 m ρ c (Proc.devRef .tc main_v3) = Cert.ReferenceIdeal.ReadP.val_main_v3 (F := Ideal) (m ((c : Thread nD τ).loc main_arg1)) :=
  (W8_of_ne m ρ c main_v3 (by decide)).trans (w7_v3 m ρ c)
theorem w9_v3 : W9 m ρ c (Proc.devRef .tc main_v3) = Cert.ReferenceIdeal.ReadP.val_main_v3 (F := Ideal) (m ((c : Thread nD τ).loc main_arg1)) :=
  (show StableHlo.after hostOps4 (W8 m ρ c) (Proc.devRef .tc main_v3) = W8 m ρ c (Proc.devRef .tc main_v3) by unwritten hostOps4).trans (w8_v3 m ρ c)
theorem w10_v3 : W10 m ρ c (Proc.devRef .tc main_v3) = Cert.ReferenceIdeal.ReadP.val_main_v3 (F := Ideal) (m ((c : Thread nD τ).loc main_arg1)) :=
  (W10_of_ne m ρ c main_v3 (by decide)).trans (w9_v3 m ρ c)
theorem w2_v31 : W2 m ρ c (Proc.devRef .tc main_v31) = Cert.ReferenceIdeal.ReadP.val_main_v36 (F := Ideal) (m ((c : Thread nD τ).loc main_arg1)) :=
  (W2_of_ne m ρ c main_v31 (by decide)).trans (w1_v31 m ρ c)
theorem w3_v31 : W3 m ρ c (Proc.devRef .tc main_v31) = Cert.ReferenceIdeal.ReadP.val_main_v36 (F := Ideal) (m ((c : Thread nD τ).loc main_arg1)) :=
  (show StableHlo.after hostOps1 (W2 m ρ c) (Proc.devRef .tc main_v31) = W2 m ρ c (Proc.devRef .tc main_v31) by unwritten hostOps1).trans (w2_v31 m ρ c)
theorem w4_v31 : W4 m ρ c (Proc.devRef .tc main_v31) = Cert.ReferenceIdeal.ReadP.val_main_v36 (F := Ideal) (m ((c : Thread nD τ).loc main_arg1)) :=
  (W4_of_ne m ρ c main_v31 (by decide)).trans (w3_v31 m ρ c)
theorem w5_v31 : W5 m ρ c (Proc.devRef .tc main_v31) = Cert.ReferenceIdeal.ReadP.val_main_v36 (F := Ideal) (m ((c : Thread nD τ).loc main_arg1)) :=
  (show StableHlo.after hostOps2 (W4 m ρ c) (Proc.devRef .tc main_v31) = W4 m ρ c (Proc.devRef .tc main_v31) by unwritten hostOps2).trans (w4_v31 m ρ c)
theorem w6_v31 : W6 m ρ c (Proc.devRef .tc main_v31) = Cert.ReferenceIdeal.ReadP.val_main_v36 (F := Ideal) (m ((c : Thread nD τ).loc main_arg1)) :=
  (W6_of_ne m ρ c main_v31 (by decide)).trans (w5_v31 m ρ c)
theorem w7_v31 : W7 m ρ c (Proc.devRef .tc main_v31) = Cert.ReferenceIdeal.ReadP.val_main_v36 (F := Ideal) (m ((c : Thread nD τ).loc main_arg1)) :=
  (show StableHlo.after hostOps3 (W6 m ρ c) (Proc.devRef .tc main_v31) = W6 m ρ c (Proc.devRef .tc main_v31) by unwritten hostOps3).trans (w6_v31 m ρ c)
theorem w8_v31 : W8 m ρ c (Proc.devRef .tc main_v31) = Cert.ReferenceIdeal.ReadP.val_main_v36 (F := Ideal) (m ((c : Thread nD τ).loc main_arg1)) :=
  (W8_of_ne m ρ c main_v31 (by decide)).trans (w7_v31 m ρ c)
theorem w9_v31 : W9 m ρ c (Proc.devRef .tc main_v31) = Cert.ReferenceIdeal.ReadP.val_main_v36 (F := Ideal) (m ((c : Thread nD τ).loc main_arg1)) :=
  (show StableHlo.after hostOps4 (W8 m ρ c) (Proc.devRef .tc main_v31) = W8 m ρ c (Proc.devRef .tc main_v31) by unwritten hostOps4).trans (w8_v31 m ρ c)
theorem w10_v31 : W10 m ρ c (Proc.devRef .tc main_v31) = Cert.ReferenceIdeal.ReadP.val_main_v36 (F := Ideal) (m ((c : Thread nD τ).loc main_arg1)) :=
  (W10_of_ne m ρ c main_v31 (by decide)).trans (w9_v31 m ρ c)
theorem w2_v33 : W2 m ρ c (Proc.devRef .tc main_v33) = Cert.ReferenceIdeal.ReadP.val_main_v50 (F := Ideal) (m ((c : Thread nD τ).loc main_arg1)) :=
  (W2_of_ne m ρ c main_v33 (by decide)).trans (w1_v33 m ρ c)
theorem w3_v33 : W3 m ρ c (Proc.devRef .tc main_v33) = Cert.ReferenceIdeal.ReadP.val_main_v50 (F := Ideal) (m ((c : Thread nD τ).loc main_arg1)) :=
  (show StableHlo.after hostOps1 (W2 m ρ c) (Proc.devRef .tc main_v33) = W2 m ρ c (Proc.devRef .tc main_v33) by unwritten hostOps1).trans (w2_v33 m ρ c)
theorem w4_v33 : W4 m ρ c (Proc.devRef .tc main_v33) = Cert.ReferenceIdeal.ReadP.val_main_v50 (F := Ideal) (m ((c : Thread nD τ).loc main_arg1)) :=
  (W4_of_ne m ρ c main_v33 (by decide)).trans (w3_v33 m ρ c)
theorem w5_v33 : W5 m ρ c (Proc.devRef .tc main_v33) = Cert.ReferenceIdeal.ReadP.val_main_v50 (F := Ideal) (m ((c : Thread nD τ).loc main_arg1)) :=
  (show StableHlo.after hostOps2 (W4 m ρ c) (Proc.devRef .tc main_v33) = W4 m ρ c (Proc.devRef .tc main_v33) by unwritten hostOps2).trans (w4_v33 m ρ c)
theorem w6_v33 : W6 m ρ c (Proc.devRef .tc main_v33) = Cert.ReferenceIdeal.ReadP.val_main_v50 (F := Ideal) (m ((c : Thread nD τ).loc main_arg1)) :=
  (W6_of_ne m ρ c main_v33 (by decide)).trans (w5_v33 m ρ c)
theorem w7_v33 : W7 m ρ c (Proc.devRef .tc main_v33) = Cert.ReferenceIdeal.ReadP.val_main_v50 (F := Ideal) (m ((c : Thread nD τ).loc main_arg1)) :=
  (show StableHlo.after hostOps3 (W6 m ρ c) (Proc.devRef .tc main_v33) = W6 m ρ c (Proc.devRef .tc main_v33) by unwritten hostOps3).trans (w6_v33 m ρ c)
theorem w8_v33 : W8 m ρ c (Proc.devRef .tc main_v33) = Cert.ReferenceIdeal.ReadP.val_main_v50 (F := Ideal) (m ((c : Thread nD τ).loc main_arg1)) :=
  (W8_of_ne m ρ c main_v33 (by decide)).trans (w7_v33 m ρ c)
theorem w9_v33 : W9 m ρ c (Proc.devRef .tc main_v33) = Cert.ReferenceIdeal.ReadP.val_main_v50 (F := Ideal) (m ((c : Thread nD τ).loc main_arg1)) :=
  (show StableHlo.after hostOps4 (W8 m ρ c) (Proc.devRef .tc main_v33) = W8 m ρ c (Proc.devRef .tc main_v33) by unwritten hostOps4).trans (w8_v33 m ρ c)
theorem w10_v33 : W10 m ρ c (Proc.devRef .tc main_v33) = Cert.ReferenceIdeal.ReadP.val_main_v50 (F := Ideal) (m ((c : Thread nD τ).loc main_arg1)) :=
  (W10_of_ne m ρ c main_v33 (by decide)).trans (w9_v33 m ρ c)
theorem w0_arg0 : W0 m ρ c (Proc.devRef .tc main_arg0) = m ((c : Thread nD τ).loc main_arg0) := rfl
theorem w1_arg0 : W1 m ρ c (Proc.devRef .tc main_arg0) = m ((c : Thread nD τ).loc main_arg0) :=
  (show StableHlo.after hostOps0 (W0 m ρ c) (Proc.devRef .tc main_arg0) = W0 m ρ c (Proc.devRef .tc main_arg0) by unwritten hostOps0).trans (w0_arg0 m ρ c)

/-- A vector of 256 entries cast to a row `[1, 256]` is the vector laid out as a row. -/
theorem row_cast (v : (⟨S256, .f32⟩ : BufTy).Contents (Elt Ideal)) :
    shapeCast S1x256 v shapeCasts_S256_S1x256 = Cert.Gcn.asRow v := by
  funext j
  rw [ValueIdx.eq_ix2 j]
  exact ValueIdx.shapeCast_a_1a_apply v shapeCasts_S256_S1x256 (j 0) (j 1)

/-! ## Layer 1 -/

/-- The layer's product. -/
theorem w2_v36 : W2 m ρ c (Proc.devRef .tc main_v36) = Cert.ReferenceIdeal.ReadP.val_main_v8 (F := Ideal) (m ((c : Thread nD τ).loc main_arg0)) (m ((c : Thread nD τ).loc main_arg3)) := by
  refine (W2_arr m ρ c 2).trans ((Cert.Gcn.MmRegions.mm_region0 (V1 m ρ) c).trans ?_)
  rw [Cert.Gcn.Ref.mm1]
  exact congrArg₂ Cert.Gcn.mm (w1_arg0 m ρ c) (w1_v35 m ρ c)

/-- The layer's aggregated features: the rows mixed along the edges with the edge coefficients, plus the self-loop term. The
    host operations are the reference's own, applied to equal operands. -/
theorem w3_v51 : W3 m ρ c (Proc.devRef .tc main_v51) = Cert.ReferenceIdeal.ReadP.val_main_v53 (F := Ideal) (m ((c : Thread nD τ).loc main_arg0)) (m ((c : Thread nD τ).loc main_arg1)) (m ((c : Thread nD τ).loc main_arg3)) := by
  show StableHlo.after hostOps1 (W2 m ρ c) (Proc.devRef .tc main_v51) = _
  after_results_simp
  rw [w2_v36, w2_v1, w2_v3, w2_v31, w2_v33]
  rfl

/-- The layer's bias row. -/
theorem w3_v58 : W3 m ρ c (Proc.devRef .tc main_v58) = Cert.Gcn.asRow (Cert.ReferenceIdeal.ReadP.val_main_v7 (F := Ideal) (m ((c : Thread nD τ).loc main_arg4))) := by
  show StableHlo.after hostOps1 (W2 m ρ c) (Proc.devRef .tc main_v58) = _
  after_results
  rw [w2_arg4]
  exact row_cast (Cert.ReferenceIdeal.ReadP.val_main_v7 (F := Ideal) (m ((c : Thread nD τ).loc main_arg4)))

/-- The layer's scale row. -/
theorem w3_v59 : W3 m ρ c (Proc.devRef .tc main_v59) = Cert.Gcn.asRow (Cert.ReferenceIdeal.ReadP.val_main_v58 (F := Ideal) (m ((c : Thread nD τ).loc main_arg5))) := by
  show StableHlo.after hostOps1 (W2 m ρ c) (Proc.devRef .tc main_v59) = _
  after_results
  rw [w2_arg5]
  exact row_cast (Cert.ReferenceIdeal.ReadP.val_main_v58 (F := Ideal) (m ((c : Thread nD τ).loc main_arg5)))

/-- The layer's shift row. -/
theorem w3_v60 : W3 m ρ c (Proc.devRef .tc main_v60) = Cert.Gcn.asRow (Cert.ReferenceIdeal.ReadP.val_main_v60 (F := Ideal) (m ((c : Thread nD τ).loc main_arg6))) := by
  show StableHlo.after hostOps1 (W2 m ρ c) (Proc.devRef .tc main_v60) = _
  after_results
  rw [w2_arg6]
  exact row_cast (Cert.ReferenceIdeal.ReadP.val_main_v60 (F := Ideal) (m ((c : Thread nD τ).loc main_arg6)))

/-- The layer's output: normalised, scaled, shifted and clipped rows. -/
theorem w4_v61 : W4 m ρ c (Proc.devRef .tc main_v61) = Cert.ReferenceIdeal.ReadP.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W4_arr m ρ c 4).trans ((Cert.Gcn.LnRegions.ln_region1 (V3 m ρ) c).trans ?_)
  rw [Cert.Gcn.Ref.ln1]
  exact congr (congr (congr (congrArg Cert.Gcn.ln (w3_v51 m ρ c)) (w3_v58 m ρ c)) (w3_v59 m ρ c)) (w3_v60 m ρ c)

/-! ## Layer 2 -/

/-- The layer's weight matrix. -/
theorem w5_v63 : W5 m ρ c (Proc.devRef .tc main_v63) = Cert.ReferenceIdeal.ReadP.val_main_v87 (F := Ideal) (m ((c : Thread nD τ).loc main_arg3)) := by
  show StableHlo.after hostOps2 (W4 m ρ c) (Proc.devRef .tc main_v63) = _
  after_results
  rw [w4_arg3]
  rfl

/-- The previous layer's output is still there. -/
theorem w5_v61 : W5 m ρ c (Proc.devRef .tc main_v61) = Cert.ReferenceIdeal.ReadP.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (show StableHlo.after hostOps2 (W4 m ρ c) (Proc.devRef .tc main_v61) = W4 m ρ c (Proc.devRef .tc main_v61) by unwritten hostOps2).trans (w4_v61 m ρ c)

/-- The layer's product. -/
theorem w6_v64 : W6 m ρ c (Proc.devRef .tc main_v64) = Cert.ReferenceIdeal.ReadP.val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 2).trans ((Cert.Gcn.MmRegions.mm_region2 (V5 m ρ) c).trans ?_)
  rw [Cert.Gcn.Ref.mm2]
  exact congrArg₂ Cert.Gcn.mm (w5_v61 m ρ c) (w5_v63 m ρ c)

/-- The layer's aggregated features: the rows mixed along the edges with the edge coefficients, plus the self-loop term. The
    host operations are the reference's own, applied to equal operands. -/
theorem w7_v79 : W7 m ρ c (Proc.devRef .tc main_v79) = Cert.ReferenceIdeal.ReadP.val_main_v135 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v79) = _
  after_results_simp
  rw [w6_v64, w6_v1, w6_v3, w6_v31, w6_v33]
  rfl

/-- The layer's bias row. -/
theorem w7_v86 : W7 m ρ c (Proc.devRef .tc main_v86) = Cert.Gcn.asRow (Cert.ReferenceIdeal.ReadP.val_main_v89 (F := Ideal) (m ((c : Thread nD τ).loc main_arg4))) := by
  show StableHlo.after hostOps3 (W6 m ρ c) (Proc.devRef .tc main_v86) = _
  after_results
  rw [w6_arg4]
  exact row_cast (Cert.ReferenceIdeal.ReadP.val_main_v89 (F := Ideal) (m ((c : Thread nD τ).loc main_arg4)))

/-- The layer's scale row. -/
theorem w7_v87 : W7 m ρ c (Proc.devRef .tc main_v87) = Cert.Gcn.asRow (Cert.ReferenceIdeal.ReadP.val_main_v140 (F := Ideal) (m ((c : Thread nD τ).loc main_arg5))) := by
  show StableHlo.after hostOps3 (W6 m ρ c) (Proc.devRef .tc main_v87) = _
  after_results
  rw [w6_arg5]
  exact row_cast (Cert.ReferenceIdeal.ReadP.val_main_v140 (F := Ideal) (m ((c : Thread nD τ).loc main_arg5)))

/-- The layer's shift row. -/
theorem w7_v88 : W7 m ρ c (Proc.devRef .tc main_v88) = Cert.Gcn.asRow (Cert.ReferenceIdeal.ReadP.val_main_v142 (F := Ideal) (m ((c : Thread nD τ).loc main_arg6))) := by
  show StableHlo.after hostOps3 (W6 m ρ c) (Proc.devRef .tc main_v88) = _
  after_results
  rw [w6_arg6]
  exact row_cast (Cert.ReferenceIdeal.ReadP.val_main_v142 (F := Ideal) (m ((c : Thread nD τ).loc main_arg6)))

/-- The layer's output: normalised, scaled, shifted and clipped rows. -/
theorem w8_v89 : W8 m ρ c (Proc.devRef .tc main_v89) = Cert.ReferenceIdeal.ReadP.val_main_v167 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 4).trans ((Cert.Gcn.LnRegions.ln_region3 (V7 m ρ) c).trans ?_)
  rw [Cert.Gcn.Ref.ln2]
  exact congr (congr (congr (congrArg Cert.Gcn.ln (w7_v79 m ρ c)) (w7_v86 m ρ c)) (w7_v87 m ρ c)) (w7_v88 m ρ c)

/-! ## Layer 3 -/

/-- The layer's weight matrix. -/
theorem w9_v91 : W9 m ρ c (Proc.devRef .tc main_v91) = Cert.ReferenceIdeal.ReadP.val_main_v169 (F := Ideal) (m ((c : Thread nD τ).loc main_arg3)) := by
  show StableHlo.after hostOps4 (W8 m ρ c) (Proc.devRef .tc main_v91) = _
  after_results
  rw [w8_arg3]
  rfl

/-- The previous layer's output is still there. -/
theorem w9_v89 : W9 m ρ c (Proc.devRef .tc main_v89) = Cert.ReferenceIdeal.ReadP.val_main_v167 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (show StableHlo.after hostOps4 (W8 m ρ c) (Proc.devRef .tc main_v89) = W8 m ρ c (Proc.devRef .tc main_v89) by unwritten hostOps4).trans (w8_v89 m ρ c)

/-- The layer's product. -/
theorem w10_v92 : W10 m ρ c (Proc.devRef .tc main_v92) = Cert.ReferenceIdeal.ReadP.val_main_v172 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W10_arr m ρ c 2).trans ((Cert.Gcn.MmRegions.mm_region4 (V9 m ρ) c).trans ?_)
  rw [Cert.Gcn.Ref.mm3]
  exact congrArg₂ Cert.Gcn.mm (w9_v89 m ρ c) (w9_v91 m ρ c)

/-- The layer's aggregated features: the rows mixed along the edges with the edge coefficients, plus the self-loop term. The
    host operations are the reference's own, applied to equal operands. -/
theorem w11_v107 : W11 m ρ c (Proc.devRef .tc main_v107) = Cert.ReferenceIdeal.ReadP.val_main_v217 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v107) = _
  after_results_simp
  rw [w10_v92, w10_v1, w10_v3, w10_v31, w10_v33]
  rfl

/-- The layer's bias row. -/
theorem w11_v114 : W11 m ρ c (Proc.devRef .tc main_v114) = Cert.Gcn.asRow (Cert.ReferenceIdeal.ReadP.val_main_v171 (F := Ideal) (m ((c : Thread nD τ).loc main_arg4))) := by
  show StableHlo.after hostOps5 (W10 m ρ c) (Proc.devRef .tc main_v114) = _
  after_results
  rw [w10_arg4]
  exact row_cast (Cert.ReferenceIdeal.ReadP.val_main_v171 (F := Ideal) (m ((c : Thread nD τ).loc main_arg4)))

/-- The layer's scale row. -/
theorem w11_v115 : W11 m ρ c (Proc.devRef .tc main_v115) = Cert.Gcn.asRow (Cert.ReferenceIdeal.ReadP.val_main_v222 (F := Ideal) (m ((c : Thread nD τ).loc main_arg5))) := by
  show StableHlo.after hostOps5 (W10 m ρ c) (Proc.devRef .tc main_v115) = _
  after_results
  rw [w10_arg5]
  exact row_cast (Cert.ReferenceIdeal.ReadP.val_main_v222 (F := Ideal) (m ((c : Thread nD τ).loc main_arg5)))

/-- The layer's shift row. -/
theorem w11_v116 : W11 m ρ c (Proc.devRef .tc main_v116) = Cert.Gcn.asRow (Cert.ReferenceIdeal.ReadP.val_main_v224 (F := Ideal) (m ((c : Thread nD τ).loc main_arg6))) := by
  show StableHlo.after hostOps5 (W10 m ρ c) (Proc.devRef .tc main_v116) = _
  after_results
  rw [w10_arg6]
  exact row_cast (Cert.ReferenceIdeal.ReadP.val_main_v224 (F := Ideal) (m ((c : Thread nD τ).loc main_arg6)))

/-- The layer's output: normalised, scaled, shifted and clipped rows. -/
theorem w12_v117 : W12 m ρ c (Proc.devRef .tc main_v117) = Cert.ReferenceIdeal.ReadP.val_main_v249 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W12_arr m ρ c 4).trans ((Cert.Gcn.LnRegions.ln_region5 (V11 m ρ) c).trans ?_)
  rw [Cert.Gcn.Ref.ln3]
  exact congr (congr (congr (congrArg Cert.Gcn.ln (w11_v107 m ρ c)) (w11_v114 m ρ c)) (w11_v115 m ρ c)) (w11_v116 m ρ c)

/-! ## The pooling: the last stretch of host operations -/

/-- The result: the per-graph sums of the last layer's rows over the per-graph node counts, by the reference's own host
    operations applied to equal operands. -/
theorem w13_v129 : W13 m ρ c (Proc.devRef .tc main_v129) = Cert.ReferenceIdeal.ReadP.val_main_v261 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps6 (W12 m ρ c) (Proc.devRef .tc main_v129) = _
  after_results_simp
  rw [w12_v117, w12_arg2]
  rfl

end Cert.Gcn.Chain

end
-- ==== Proof.RefSegs.lean ====
/-
  THE REFERENCE'S 323 HOST OPERATIONS, FOLDED PIECE BY PIECE.

  The reference computes three identical layers and a pooling. Its operation list is cut in ten where a layer's product,
  its row mixing and its normalisation end, so that each piece's results are short terms of the previous piece's. Running
  the whole list is running the pieces one after the other (`after_append`), and the buffers' contents at the cut points
  are named `U0` (the launch) … `U10` (the end).
-/
import proofs.«165873_j6476810682405_1_alg».proof.Proof.RefOps
import Idealize.ShloMosaic.PureOps.Ideal

set_option maxRecDepth 16384

noncomputable section

namespace Cert.Gcn.RefSegs

open Cert.ReferenceIdeal Cert.ReferenceIdeal.Gen Cert.ReferenceIdeal.ValueP
open Idealize.ShloMosaic Idealize.ShloMosaic.TcCoe Idealize.SL.Sem Idealize.ShloMosaic.StableHlo

/-- Running a list of operations that is two lists joined is running the first and then the second. -/
theorem after_append {Val : EltTy → Type} (l1 l2 : List (HloOp τ sig Val)) (V : Valuation τ sig Val) :
    after (l1 ++ l2) V = after l2 (after l1 V) := by
  induction l1 generalizing V with
  | nil => rfl
  | cons op l ih => exact ih _

variable (m : (ℓ : Loc nD τ sig) → Buf (Elt Ideal) ℓ) (c : Dev nD)

/-- The buffers' contents at launch. -/
abbrev U0 : Valuation τ sig (Elt Ideal) := launchContents m c
/-- … after the first 1 piece. -/
abbrev U1 : Valuation τ sig (Elt Ideal) := after (opsA0 (F := Ideal)) (U0 m c)
/-- … after the first 2 pieces. -/
abbrev U2 : Valuation τ sig (Elt Ideal) := after (opsA1 (F := Ideal)) (U1 m c)
/-- … after the first 3 pieces. -/
abbrev U3 : Valuation τ sig (Elt Ideal) := after (opsA2 (F := Ideal)) (U2 m c)
/-- … after the first 4 pieces. -/
abbrev U4 : Valuation τ sig (Elt Ideal) := after (opsA3 (F := Ideal)) (U3 m c)
/-- … after the first 5 pieces. -/
abbrev U5 : Valuation τ sig (Elt Ideal) := after (opsA4 (F := Ideal)) (U4 m c)
/-- … after the first 6 pieces. -/
abbrev U6 : Valuation τ sig (Elt Ideal) := after (opsA5 (F := Ideal)) (U5 m c)
/-- … after the first 7 pieces. -/
abbrev U7 : Valuation τ sig (Elt Ideal) := after (opsA6 (F := Ideal)) (U6 m c)
/-- … after the first 8 pieces. -/
abbrev U8 : Valuation τ sig (Elt Ideal) := after (opsA7 (F := Ideal)) (U7 m c)
/-- … after the first 9 pieces. -/
abbrev U9 : Valuation τ sig (Elt Ideal) := after (opsA8 (F := Ideal)) (U8 m c)
/-- … after the first 10 pieces. -/
abbrev U10 : Valuation τ sig (Elt Ideal) := after (opsA9 (F := Ideal)) (U9 m c)

/-- The whole list is the ten pieces in order. -/
theorem after_ops : after (ops (F := Ideal)) (U0 m c) = U10 m c := by
  rw [ops_cut]
  simp only [after_append]

/-- An operation of piece 0 is an operation of the list. -/
theorem mem0 {op : HloOp τ sig (Elt Ideal)} (h : op ∈ (opsA0 (F := Ideal))) : op ∈ (ops (F := Ideal)) := by
  rw [ops_cut]; simp only [List.mem_append]; exact Or.inl h
/-- An operation of piece 1 is an operation of the list. -/
theorem mem1 {op : HloOp τ sig (Elt Ideal)} (h : op ∈ (opsA1 (F := Ideal))) : op ∈ (ops (F := Ideal)) := by
  rw [ops_cut]; simp only [List.mem_append]; exact Or.inr (Or.inl h)
/-- An operation of piece 2 is an operation of the list. -/
theorem mem2 {op : HloOp τ sig (Elt Ideal)} (h : op ∈ (opsA2 (F := Ideal))) : op ∈ (ops (F := Ideal)) := by
  rw [ops_cut]; simp only [List.mem_append]; exact Or.inr (Or.inr (Or.inl h))
/-- An operation of piece 3 is an operation of the list. -/
theorem mem3 {op : HloOp τ sig (Elt Ideal)} (h : op ∈ (opsA3 (F := Ideal))) : op ∈ (ops (F := Ideal)) := by
  rw [ops_cut]; simp only [List.mem_append]; exact Or.inr (Or.inr (Or.inr (Or.inl h)))
/-- An operation of piece 4 is an operation of the list. -/
theorem mem4 {op : HloOp τ sig (Elt Ideal)} (h : op ∈ (opsA4 (F := Ideal))) : op ∈ (ops (F := Ideal)) := by
  rw [ops_cut]; simp only [List.mem_append]; exact Or.inr (Or.inr (Or.inr (Or.inr (Or.inl h))))
/-- An operation of piece 5 is an operation of the list. -/
theorem mem5 {op : HloOp τ sig (Elt Ideal)} (h : op ∈ (opsA5 (F := Ideal))) : op ∈ (ops (F := Ideal)) := by
  rw [ops_cut]; simp only [List.mem_append]; exact Or.inr (Or.inr (Or.inr (Or.inr (Or.inr (Or.inl h)))))
/-- An operation of piece 6 is an operation of the list. -/
theorem mem6 {op : HloOp τ sig (Elt Ideal)} (h : op ∈ (opsA6 (F := Ideal))) : op ∈ (ops (F := Ideal)) := by
  rw [ops_cut]; simp only [List.mem_append]; exact Or.inr (Or.inr (Or.inr (Or.inr (Or.inr (Or.inr (Or.inl h))))))
/-- An operation of piece 7 is an operation of the list. -/
theorem mem7 {op : HloOp τ sig (Elt Ideal)} (h : op ∈ (opsA7 (F := Ideal))) : op ∈ (ops (F := Ideal)) := by
  rw [ops_cut]; simp only [List.mem_append]; exact Or.inr (Or.inr (Or.inr (Or.inr (Or.inr (Or.inr (Or.inr (Or.inl h)))))))
/-- An operation of piece 8 is an operation of the list. -/
theorem mem8 {op : HloOp τ sig (Elt Ideal)} (h : op ∈ (opsA8 (F := Ideal))) : op ∈ (ops (F := Ideal)) := by
  rw [ops_cut]; simp only [List.mem_append]; exact Or.inr (Or.inr (Or.inr (Or.inr (Or.inr (Or.inr (Or.inr (Or.inr (Or.inl h))))))))
/-- An operation of piece 9 is an operation of the list. -/
theorem mem9 {op : HloOp τ sig (Elt Ideal)} (h : op ∈ (opsA9 (F := Ideal))) : op ∈ (ops (F := Ideal)) := by
  rw [ops_cut]; simp only [List.mem_append]; exact Or.inr (Or.inr (Or.inr (Or.inr (Or.inr (Or.inr (Or.inr (Or.inr (Or.inr (h)))))))))

end Cert.Gcn.RefSegs

end
-- ==== Proof.RefNoWrite.lean ====
/-
  WHAT THE REFERENCE'S OPERATIONS LEAVE ALONE.

  No operation of the reference writes an argument array; after the first piece nothing writes the edges' endpoints; and a
  layer's bias vector, sliced out before the layer's product, is untouched by the row mixing that follows. Each fact is a
  walk over a literal list of operations comparing buffer names.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

/-! ## The arguments -/

/-- No operation writes argument 0. -/
theorem nowrite_arg0 : ∀ op ∈ (ops (F := Ideal)), (Proc.devRef .tc main_arg0 : DevRef τ sig) ∉ op.writes := by
  refine List.forall_iff_forall_mem.mp ?_
  simp only [ops, List.Forall, nullary_writes, unary_writes, binary_writes, ternary_writes, reshape_writes, Finset.mem_singleton]
  repeat' apply And.intro
  all_goals exact devRef_ne_of_ne (by decide)
/-- No operation writes argument 1. -/
theorem nowrite_arg1 : ∀ op ∈ (ops (F := Ideal)), (Proc.devRef .tc main_arg1 : DevRef τ sig) ∉ op.writes := by
  refine List.forall_iff_forall_mem.mp ?_
  simp only [ops, List.Forall, nullary_writes, unary_writes, binary_writes, ternary_writes, reshape_writes, Finset.mem_singleton]
  repeat' apply And.intro
  all_goals exact devRef_ne_of_ne (by decide)
/-- No operation writes argument 2. -/
theorem nowrite_arg2 : ∀ op ∈ (ops (F := Ideal)), (Proc.devRef .tc main_arg2 : DevRef τ sig) ∉ op.writes := by
  refine List.forall_iff_forall_mem.mp ?_
  simp only [ops, List.Forall, nullary_writes, unary_writes, binary_writes, ternary_writes, reshape_writes, Finset.mem_singleton]
  repeat' apply And.intro
  all_goals exact devRef_ne_of_ne (by decide)
/-- No operation writes argument 3. -/
theorem nowrite_arg3 : ∀ op ∈ (ops (F := Ideal)), (Proc.devRef .tc main_arg3 : DevRef τ sig) ∉ op.writes := by
  refine List.forall_iff_forall_mem.mp ?_
  simp only [ops, List.Forall, nullary_writes, unary_writes, binary_writes, ternary_writes, reshape_writes, Finset.mem_singleton]
  repeat' apply And.intro
  all_goals exact devRef_ne_of_ne (by decide)
/-- No operation writes argument 4. -/
theorem nowrite_arg4 : ∀ op ∈ (ops (F := Ideal)), (Proc.devRef .tc main_arg4 : DevRef τ sig) ∉ op.writes := by
  refine List.forall_iff_forall_mem.mp ?_
  simp only [ops, List.Forall, nullary_writes, unary_writes, binary_writes, ternary_writes, reshape_writes, Finset.mem_singleton]
  repeat' apply And.intro
  all_goals exact devRef_ne_of_ne (by decide)
/-- No operation writes argument 5. -/
theorem nowrite_arg5 : ∀ op ∈ (ops (F := Ideal)), (Proc.devRef .tc main_arg5 : DevRef τ sig) ∉ op.writes := by
  refine List.forall_iff_forall_mem.mp ?_
  simp only [ops, List.Forall, nullary_writes, unary_writes, binary_writes, ternary_writes, reshape_writes, Finset.mem_singleton]
  repeat' apply And.intro
  all_goals exact devRef_ne_of_ne (by decide)
/-- No operation writes argument 6. -/
theorem nowrite_arg6 : ∀ op ∈ (ops (F := Ideal)), (Proc.devRef .tc main_arg6 : DevRef τ sig) ∉ op.writes := by
  refine List.forall_iff_forall_mem.mp ?_
  simp only [ops, List.Forall, nullary_writes, unary_writes, binary_writes, ternary_writes, reshape_writes, Finset.mem_singleton]
  repeat' apply And.intro
  all_goals exact devRef_ne_of_ne (by decide)

/-! ## Buffers carried across a piece -/

/-- Piece 1 does not write the edges' source nodes. -/
theorem keep1_v1 (V : Valuation τ sig (Elt Ideal)) :
    after (opsA1 (F := Ideal)) V (Proc.devRef .tc main_v1) = V (Proc.devRef .tc main_v1) := by
  refine after_of_forall_not_mem _ _ (List.forall_iff_forall_mem.mp ?_)
  simp only [opsA1, List.Forall, nullary_writes, unary_writes, binary_writes, ternary_writes, reshape_writes, Finset.mem_singleton]
  repeat' apply And.intro
  all_goals exact devRef_ne_of_ne (by decide)
/-- Piece 1 does not write the edges' target nodes. -/
theorem keep1_v3 (V : Valuation τ sig (Elt Ideal)) :
    after (opsA1 (F := Ideal)) V (Proc.devRef .tc main_v3) = V (Proc.devRef .tc main_v3) := by
  refine after_of_forall_not_mem _ _ (List.forall_iff_forall_mem.mp ?_)
  simp only [opsA1, List.Forall, nullary_writes, unary_writes, binary_writes, ternary_writes, reshape_writes, Finset.mem_singleton]
  repeat' apply And.intro
  all_goals exact devRef_ne_of_ne (by decide)
/-- Piece 2 does not write the edges' source nodes. -/
theorem keep2_v1 (V : Valuation τ sig (Elt Ideal)) :
    after (opsA2 (F := Ideal)) V (Proc.devRef .tc main_v1) = V (Proc.devRef .tc main_v1) := by
  refine after_of_forall_not_mem _ _ (List.forall_iff_forall_mem.mp ?_)
  simp only [opsA2, List.Forall, nullary_writes, unary_writes, binary_writes, ternary_writes, reshape_writes, Finset.mem_singleton]
  repeat' apply And.intro
  all_goals exact devRef_ne_of_ne (by decide)
/-- Piece 2 does not write the edges' target nodes. -/
theorem keep2_v3 (V : Valuation τ sig (Elt Ideal)) :
    after (opsA2 (F := Ideal)) V (Proc.devRef .tc main_v3) = V (Proc.devRef .tc main_v3) := by
  refine after_of_forall_not_mem _ _ (List.forall_iff_forall_mem.mp ?_)
  simp only [opsA2, List.Forall, nullary_writes, unary_writes, binary_writes, ternary_writes, reshape_writes, Finset.mem_singleton]
  repeat' apply And.intro
  all_goals exact devRef_ne_of_ne (by decide)
/-- Piece 3 does not write the edges' source nodes. -/
theorem keep3_v1 (V : Valuation τ sig (Elt Ideal)) :
    after (opsA3 (F := Ideal)) V (Proc.devRef .tc main_v1) = V (Proc.devRef .tc main_v1) := by
  refine after_of_forall_not_mem _ _ (List.forall_iff_forall_mem.mp ?_)
  simp only [opsA3, List.Forall, nullary_writes, unary_writes, binary_writes, ternary_writes, reshape_writes, Finset.mem_singleton]
  repeat' apply And.intro
  all_goals exact devRef_ne_of_ne (by decide)
/-- Piece 3 does not write the edges' target nodes. -/
theorem keep3_v3 (V : Valuation τ sig (Elt Ideal)) :
    after (opsA3 (F := Ideal)) V (Proc.devRef .tc main_v3) = V (Proc.devRef .tc main_v3) := by
  refine after_of_forall_not_mem _ _ (List.forall_iff_forall_mem.mp ?_)
  simp only [opsA3, List.Forall, nullary_writes, unary_writes, binary_writes, ternary_writes, reshape_writes, Finset.mem_singleton]
  repeat' apply And.intro
  all_goals exact devRef_ne_of_ne (by decide)
/-- Piece 4 does not write the edges' source nodes. -/
theorem keep4_v1 (V : Valuation τ sig (Elt Ideal)) :
    after (opsA4 (F := Ideal)) V (Proc.devRef .tc main_v1) = V (Proc.devRef .tc main_v1) := by
  refine after_of_forall_not_mem _ _ (List.forall_iff_forall_mem.mp ?_)
  simp only [opsA4, List.Forall, nullary_writes, unary_writes, binary_writes, ternary_writes, reshape_writes, Finset.mem_singleton]
  repeat' apply And.intro
  all_goals exact devRef_ne_of_ne (by decide)
/-- Piece 4 does not write the edges' target nodes. -/
theorem keep4_v3 (V : Valuation τ sig (Elt Ideal)) :
    after (opsA4 (F := Ideal)) V (Proc.devRef .tc main_v3) = V (Proc.devRef .tc main_v3) := by
  refine after_of_forall_not_mem _ _ (List.forall_iff_forall_mem.mp ?_)
  simp only [opsA4, List.Forall, nullary_writes, unary_writes, binary_writes, ternary_writes, reshape_writes, Finset.mem_singleton]
  repeat' apply And.intro
  all_goals exact devRef_ne_of_ne (by decide)
/-- Piece 5 does not write the edges' source nodes. -/
theorem keep5_v1 (V : Valuation τ sig (Elt Ideal)) :
    after (opsA5 (F := Ideal)) V (Proc.devRef .tc main_v1) = V (Proc.devRef .tc main_v1) := by
  refine after_of_forall_not_mem _ _ (List.forall_iff_forall_mem.mp ?_)
  simp only [opsA5, List.Forall, nullary_writes, unary_writes, binary_writes, ternary_writes, reshape_writes, Finset.mem_singleton]
  repeat' apply And.intro
  all_goals exact devRef_ne_of_ne (by decide)
/-- Piece 5 does not write the edges' target nodes. -/
theorem keep5_v3 (V : Valuation τ sig (Elt Ideal)) :
    after (opsA5 (F := Ideal)) V (Proc.devRef .tc main_v3) = V (Proc.devRef .tc main_v3) := by
  refine after_of_forall_not_mem _ _ (List.forall_iff_forall_mem.mp ?_)
  simp only [opsA5, List.Forall, nullary_writes, unary_writes, binary_writes, ternary_writes, reshape_writes, Finset.mem_singleton]
  repeat' apply And.intro
  all_goals exact devRef_ne_of_ne (by decide)
/-- Piece 6 does not write the edges' source nodes. -/
theorem keep6_v1 (V : Valuation τ sig (Elt Ideal)) :
    after (opsA6 (F := Ideal)) V (Proc.devRef .tc main_v1) = V (Proc.devRef .tc main_v1) := by
  refine after_of_forall_not_mem _ _ (List.forall_iff_forall_mem.mp ?_)
  simp only [opsA6, List.Forall, nullary_writes, unary_writes, binary_writes, ternary_writes, reshape_writes, Finset.mem_singleton]
  repeat' apply And.intro
  all_goals exact devRef_ne_of_ne (by decide)
/-- Piece 6 does not write the edges' target nodes. -/
theorem keep6_v3 (V : Valuation τ sig (Elt Ideal)) :
    after (opsA6 (F := Ideal)) V (Proc.devRef .tc main_v3) = V (Proc.devRef .tc main_v3) := by
  refine after_of_forall_not_mem _ _ (List.forall_iff_forall_mem.mp ?_)
  simp only [opsA6, List.Forall, nullary_writes, unary_writes, binary_writes, ternary_writes, reshape_writes, Finset.mem_singleton]
  repeat' apply And.intro
  all_goals exact devRef_ne_of_ne (by decide)
/-- Piece 1 does not write the first layer's bias. -/
theorem keep1_v7 (V : Valuation τ sig (Elt Ideal)) :
    after (opsA1 (F := Ideal)) V (Proc.devRef .tc main_v7) = V (Proc.devRef .tc main_v7) := by
  refine after_of_forall_not_mem _ _ (List.forall_iff_forall_mem.mp ?_)
  simp only [opsA1, List.Forall, nullary_writes, unary_writes, binary_writes, ternary_writes, reshape_writes, Finset.mem_singleton]
  repeat' apply And.intro
  all_goals exact devRef_ne_of_ne (by decide)
/-- Piece 4 does not write the second layer's bias. -/
theorem keep4_v89 (V : Valuation τ sig (Elt Ideal)) :
    after (opsA4 (F := Ideal)) V (Proc.devRef .tc main_v89) = V (Proc.devRef .tc main_v89) := by
  refine after_of_forall_not_mem _ _ (List.forall_iff_forall_mem.mp ?_)
  simp only [opsA4, List.Forall, nullary_writes, unary_writes, binary_writes, ternary_writes, reshape_writes, Finset.mem_singleton]
  repeat' apply And.intro
  all_goals exact devRef_ne_of_ne (by decide)
/-- Piece 7 does not write the third layer's bias. -/
theorem keep7_v171 (V : Valuation τ sig (Elt Ideal)) :
    after (opsA7 (F := Ideal)) V (Proc.devRef .tc main_v171) = V (Proc.devRef .tc main_v171) := by
  refine after_of_forall_not_mem _ _ (List.forall_iff_forall_mem.mp ?_)
  simp only [opsA7, List.Forall, nullary_writes, unary_writes, binary_writes, ternary_writes, reshape_writes, Finset.mem_singleton]
  repeat' apply And.intro
  all_goals exact devRef_ne_of_ne (by decide)

end Cert.Gcn.RefRun

end
-- ==== Proof.RefStage0.lean ====
/-
  THE REFERENCE'S PIECE 0, ONE RESULT AT A TIME (the edge lists, the first layer's weight and bias and the first product).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg0_v1 (h1a : V (Proc.devRef .tc main_arg1) = x1) :
    after (opsA0 (F := Ideal)) V (Proc.devRef .tc main_v1) = val_main_v1 (F := Ideal) x1 := by
  unfold opsA0
  after_results_simp
  rw [h1a]
  rfl

theorem seg0_v3 (h1a : V (Proc.devRef .tc main_arg1) = x1) :
    after (opsA0 (F := Ideal)) V (Proc.devRef .tc main_v3) = val_main_v3 (F := Ideal) x1 := by
  unfold opsA0
  after_results_simp
  rw [h1a]
  rfl

theorem seg0_v7 (h4a : V (Proc.devRef .tc main_arg4) = x4) :
    after (opsA0 (F := Ideal)) V (Proc.devRef .tc main_v7) = val_main_v7 (F := Ideal) x4 := by
  unfold opsA0
  after_results_simp
  rw [h4a]
  rfl

theorem seg0_v8 (h0a : V (Proc.devRef .tc main_arg0) = x0)
    (h3a : V (Proc.devRef .tc main_arg3) = x3) :
    after (opsA0 (F := Ideal)) V (Proc.devRef .tc main_v8) = val_main_v8 (F := Ideal) x0 x3 := by
  unfold opsA0
  after_results_simp
  rw [h0a, h3a]
  rfl

end Cert.Gcn.RefRun

end
-- ==== Proof.RefStage1.lean ====
/-
  THE REFERENCE'S PIECE 1, ONE RESULT AT A TIME (layer 1's mixing of rows along the edges).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg1_v53 (hv8 : V (Proc.devRef .tc main_v8) = val_main_v8 (F := Ideal) x0 x3)
    (hv1 : V (Proc.devRef .tc main_v1) = val_main_v1 (F := Ideal) x1)
    (hv3 : V (Proc.devRef .tc main_v3) = val_main_v3 (F := Ideal) x1) :
    after (opsA1 (F := Ideal)) V (Proc.devRef .tc main_v53) = val_main_v53 (F := Ideal) x0 x1 x3 := by
  unfold opsA1
  after_results_simp
  rw [hv8, hv1, hv3]
  rfl

end Cert.Gcn.RefRun

end
-- ==== Proof.RefStage2.lean ====
/-
  THE REFERENCE'S PIECE 2, ONE RESULT AT A TIME (layer 1's bias, normalisation, scale, shift and clip).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

/-- A value stored through a typed reference whose buffer has the value's type is stored as it is. -/
theorem toBuf_v85 (p1 p2 p3) (v : (⟨S50000x256, .f32⟩ : BufTy).Contents (Elt Ideal)) :
    (TRef.of (T := ⟨S50000x256, .f32⟩) main_v85 p1 p2 p3).toBuf v = v := rfl
/-- … and read back as it is. -/
theorem ofBuf_v84 (p1 p2 p3) (v : (⟨S50000x256, .f32⟩ : BufTy).Contents (Elt Ideal)) :
    (TRef.of (T := ⟨S50000x256, .f32⟩) main_v84 p1 p2 p3).ofBuf v = v := rfl

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg2_v85 (hv53 : V (Proc.devRef .tc main_v53) = val_main_v53 (F := Ideal) x0 x1 x3)
    (hv7 : V (Proc.devRef .tc main_v7) = val_main_v7 (F := Ideal) x4)
    (h5a : V (Proc.devRef .tc main_arg5) = x5)
    (h6a : V (Proc.devRef .tc main_arg6) = x6) :
    after (opsA2 (F := Ideal)) V (Proc.devRef .tc main_v85) = val_main_v85 (F := Ideal) x0 x1 x3 x4 x5 x6 := by
  unfold opsA2
  after_results_simp
  rw [hv53, hv7, h5a, h6a]
  -- the clip is an outlined function: its operations go through typed references, whose casts are the identity
  refine (toBuf_v85 _ _ _ _).trans ?_
  refine (congrArg₂ maximumf (ofBuf_v84 _ _ _ _) rfl).trans ?_
  rfl

end Cert.Gcn.RefRun

end
-- ==== Proof.RefStage3.lean ====
/-
  THE REFERENCE'S PIECE 3, ONE RESULT AT A TIME (layer 2's weight, bias and product).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg3_v89 (h4a : V (Proc.devRef .tc main_arg4) = x4) :
    after (opsA3 (F := Ideal)) V (Proc.devRef .tc main_v89) = val_main_v89 (F := Ideal) x4 := by
  unfold opsA3
  after_results_simp
  rw [h4a]
  rfl

theorem seg3_v90 (hv85 : V (Proc.devRef .tc main_v85) = val_main_v85 (F := Ideal) x0 x1 x3 x4 x5 x6)
    (h3a : V (Proc.devRef .tc main_arg3) = x3) :
    after (opsA3 (F := Ideal)) V (Proc.devRef .tc main_v90) = val_main_v90 (F := Ideal) x0 x1 x3 x4 x5 x6 := by
  unfold opsA3
  after_results_simp
  rw [hv85, h3a]
  rfl

end Cert.Gcn.RefRun

end
-- ==== Proof.RefStage4.lean ====
/-
  THE REFERENCE'S PIECE 4, ONE RESULT AT A TIME (layer 2's mixing of rows along the edges).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg4_v135 (hv90 : V (Proc.devRef .tc main_v90) = val_main_v90 (F := Ideal) x0 x1 x3 x4 x5 x6)
    (hv1 : V (Proc.devRef .tc main_v1) = val_main_v1 (F := Ideal) x1)
    (hv3 : V (Proc.devRef .tc main_v3) = val_main_v3 (F := Ideal) x1) :
    after (opsA4 (F := Ideal)) V (Proc.devRef .tc main_v135) = val_main_v135 (F := Ideal) x0 x1 x3 x4 x5 x6 := by
  unfold opsA4
  after_results_simp
  rw [hv90, hv1, hv3]
  rfl

end Cert.Gcn.RefRun

end
-- ==== Proof.RefStage5.lean ====
/-
  THE REFERENCE'S PIECE 5, ONE RESULT AT A TIME (layer 2's bias, normalisation, scale, shift and clip).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

/-- A value stored through a typed reference whose buffer has the value's type is stored as it is. -/
theorem toBuf_v167 (p1 p2 p3) (v : (⟨S50000x256, .f32⟩ : BufTy).Contents (Elt Ideal)) :
    (TRef.of (T := ⟨S50000x256, .f32⟩) main_v167 p1 p2 p3).toBuf v = v := rfl
/-- … and read back as it is. -/
theorem ofBuf_v166 (p1 p2 p3) (v : (⟨S50000x256, .f32⟩ : BufTy).Contents (Elt Ideal)) :
    (TRef.of (T := ⟨S50000x256, .f32⟩) main_v166 p1 p2 p3).ofBuf v = v := rfl

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg5_v167 (hv135 : V (Proc.devRef .tc main_v135) = val_main_v135 (F := Ideal) x0 x1 x3 x4 x5 x6)
    (hv89 : V (Proc.devRef .tc main_v89) = val_main_v89 (F := Ideal) x4)
    (h5a : V (Proc.devRef .tc main_arg5) = x5)
    (h6a : V (Proc.devRef .tc main_arg6) = x6) :
    after (opsA5 (F := Ideal)) V (Proc.devRef .tc main_v167) = val_main_v167 (F := Ideal) x0 x1 x3 x4 x5 x6 := by
  unfold opsA5
  after_results_simp
  rw [hv135, hv89, h5a, h6a]
  -- the clip is an outlined function: its operations go through typed references, whose casts are the identity
  refine (toBuf_v167 _ _ _ _).trans ?_
  refine (congrArg₂ maximumf (ofBuf_v166 _ _ _ _) rfl).trans ?_
  rfl

end Cert.Gcn.RefRun

end
-- ==== Proof.RefStage6.lean ====
/-
  THE REFERENCE'S PIECE 6, ONE RESULT AT A TIME (layer 3's weight, bias and product).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg6_v171 (h4a : V (Proc.devRef .tc main_arg4) = x4) :
    after (opsA6 (F := Ideal)) V (Proc.devRef .tc main_v171) = val_main_v171 (F := Ideal) x4 := by
  unfold opsA6
  after_results_simp
  rw [h4a]
  rfl

theorem seg6_v172 (hv167 : V (Proc.devRef .tc main_v167) = val_main_v167 (F := Ideal) x0 x1 x3 x4 x5 x6)
    (h3a : V (Proc.devRef .tc main_arg3) = x3) :
    after (opsA6 (F := Ideal)) V (Proc.devRef .tc main_v172) = val_main_v172 (F := Ideal) x0 x1 x3 x4 x5 x6 := by
  unfold opsA6
  after_results_simp
  rw [hv167, h3a]
  rfl

end Cert.Gcn.RefRun

end
-- ==== Proof.RefStage7.lean ====
/-
  THE REFERENCE'S PIECE 7, ONE RESULT AT A TIME (layer 3's mixing of rows along the edges).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg7_v217 (hv172 : V (Proc.devRef .tc main_v172) = val_main_v172 (F := Ideal) x0 x1 x3 x4 x5 x6)
    (hv1 : V (Proc.devRef .tc main_v1) = val_main_v1 (F := Ideal) x1)
    (hv3 : V (Proc.devRef .tc main_v3) = val_main_v3 (F := Ideal) x1) :
    after (opsA7 (F := Ideal)) V (Proc.devRef .tc main_v217) = val_main_v217 (F := Ideal) x0 x1 x3 x4 x5 x6 := by
  unfold opsA7
  after_results_simp
  rw [hv172, hv1, hv3]
  rfl

end Cert.Gcn.RefRun

end
-- ==== Proof.RefStage8.lean ====
/-
  THE REFERENCE'S PIECE 8, ONE RESULT AT A TIME (layer 3's bias, normalisation, scale, shift and clip).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

/-- A value stored through a typed reference whose buffer has the value's type is stored as it is. -/
theorem toBuf_v249 (p1 p2 p3) (v : (⟨S50000x256, .f32⟩ : BufTy).Contents (Elt Ideal)) :
    (TRef.of (T := ⟨S50000x256, .f32⟩) main_v249 p1 p2 p3).toBuf v = v := rfl
/-- … and read back as it is. -/
theorem ofBuf_v248 (p1 p2 p3) (v : (⟨S50000x256, .f32⟩ : BufTy).Contents (Elt Ideal)) :
    (TRef.of (T := ⟨S50000x256, .f32⟩) main_v248 p1 p2 p3).ofBuf v = v := rfl

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg8_v249 (hv217 : V (Proc.devRef .tc main_v217) = val_main_v217 (F := Ideal) x0 x1 x3 x4 x5 x6)
    (hv171 : V (Proc.devRef .tc main_v171) = val_main_v171 (F := Ideal) x4)
    (h5a : V (Proc.devRef .tc main_arg5) = x5)
    (h6a : V (Proc.devRef .tc main_arg6) = x6) :
    after (opsA8 (F := Ideal)) V (Proc.devRef .tc main_v249) = val_main_v249 (F := Ideal) x0 x1 x3 x4 x5 x6 := by
  unfold opsA8
  after_results_simp
  rw [hv217, hv171, h5a, h6a]
  -- the clip is an outlined function: its operations go through typed references, whose casts are the identity
  refine (toBuf_v249 _ _ _ _).trans ?_
  refine (congrArg₂ maximumf (ofBuf_v248 _ _ _ _) rfl).trans ?_
  rfl

end Cert.Gcn.RefRun

end
-- ==== Proof.RefStage9.lean ====
/-
  THE REFERENCE'S PIECE 9, ONE RESULT AT A TIME (the pooling over graphs).

  From any contents `V` whose buffers a piece reads hold the read module's stages of the arguments, the piece leaves in each
  buffer a later piece reads the stage of that buffer: the stage functions are defined by the same operations, so once the
  piece's inputs are rewritten the two terms are the same tree.
-/
import proofs.«165873_j6476810682405_1_alg».proof.Proof.RefSegs
import proofs.«165873_j6476810682405_1_alg».proof.Proof.RefRead

set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

variable (V : Valuation τ sig (Elt Ideal)) {x0 : (⟨S50000x256, .f32⟩ : BufTy).Contents (Elt Ideal)} {x1 : (⟨S2x800000, .i32⟩ : BufTy).Contents (Elt Ideal)} {x2 : (⟨S50000, .i32⟩ : BufTy).Contents (Elt Ideal)} {x3 : (⟨S3x256x256, .f32⟩ : BufTy).Contents (Elt Ideal)} {x4 x5 x6 : (⟨S3x256, .f32⟩ : BufTy).Contents (Elt Ideal)}

theorem seg9_v261 (hv249 : V (Proc.devRef .tc main_v249) = val_main_v249 (F := Ideal) x0 x1 x3 x4 x5 x6)
    (h2a : V (Proc.devRef .tc main_arg2) = x2) :
    after (opsA9 (F := Ideal)) V (Proc.devRef .tc main_v261) = val_main_v261 (F := Ideal) x0 x1 x2 x3 x4 x5 x6 := by
  unfold opsA9
  after_results_simp
  rw [hv249, h2a]
  rfl

end Cert.Gcn.RefRun

end
-- ==== Proof.RefRun.lean ====
/-
  THE REFERENCE'S RUN WITH ITS RESULT AT THE LAST STAGE.

  The reference is a straight line of 323 host operations. Every weakly fair execution terminates with each buffer at
  the fold of the operations' results over its launch contents. The fold is taken piece by piece (ten pieces, cut where a
  layer's product, row mixing and normalisation end): at each cut point every buffer a later piece reads holds the read
  module's stage of the launch arguments, and the arguments themselves are as launched, since no operation writes one.
-/
import proofs.«165873_j6476810682405_1_alg».proof.Proof.RefSegs
import proofs.«165873_j6476810682405_1_alg».proof.Proof.RefRead
import proofs.«165873_j6476810682405_1_alg».proof.Proof.RefNoWrite
import proofs.«165873_j6476810682405_1_alg».proof.Proof.RefStage0
import proofs.«165873_j6476810682405_1_alg».proof.Proof.RefStage1
import proofs.«165873_j6476810682405_1_alg».proof.Proof.RefStage2
import proofs.«165873_j6476810682405_1_alg».proof.Proof.RefStage3
import proofs.«165873_j6476810682405_1_alg».proof.Proof.RefStage4
import proofs.«165873_j6476810682405_1_alg».proof.Proof.RefStage5
import proofs.«165873_j6476810682405_1_alg».proof.Proof.RefStage6
import proofs.«165873_j6476810682405_1_alg».proof.Proof.RefStage7
import proofs.«165873_j6476810682405_1_alg».proof.Proof.RefStage8
import proofs.«165873_j6476810682405_1_alg».proof.Proof.RefStage9
set_option maxRecDepth 16384

noncomputable section

namespace Cert.Gcn.RefRun

open Cert.ReferenceIdeal Cert.ReferenceIdeal.Gen Cert.ReferenceIdeal.ValueP Cert.ReferenceIdeal.ReadP Cert.Gcn.RefSegs
open Idealize.ShloMosaic Idealize.ShloMosaic.TcCoe Idealize.SL.Sem Idealize.ShloMosaic.StableHlo

section Cuts

variable (m : (ℓ : Loc nD τ sig) → Buf (Elt Ideal) ℓ) (c : Dev nD)

/-! ## The arguments at the cut points -/

theorem u0_arg0 : U0 m c (Proc.devRef .tc main_arg0) = m ((c.tc : Thread nD τ).loc main_arg0) := rfl
theorem u0_arg1 : U0 m c (Proc.devRef .tc main_arg1) = m ((c.tc : Thread nD τ).loc main_arg1) := rfl
theorem u0_arg2 : U0 m c (Proc.devRef .tc main_arg2) = m ((c.tc : Thread nD τ).loc main_arg2) := rfl
theorem u1_arg2 : U1 m c (Proc.devRef .tc main_arg2) = m ((c.tc : Thread nD τ).loc main_arg2) :=
  (after_of_forall_not_mem (opsA0 (F := Ideal)) (U0 m c) (fun op h => nowrite_arg2 op (mem0 h))).trans (u0_arg2 m c)
theorem u2_arg2 : U2 m c (Proc.devRef .tc main_arg2) = m ((c.tc : Thread nD τ).loc main_arg2) :=
  (after_of_forall_not_mem (opsA1 (F := Ideal)) (U1 m c) (fun op h => nowrite_arg2 op (mem1 h))).trans (u1_arg2 m c)
theorem u3_arg2 : U3 m c (Proc.devRef .tc main_arg2) = m ((c.tc : Thread nD τ).loc main_arg2) :=
  (after_of_forall_not_mem (opsA2 (F := Ideal)) (U2 m c) (fun op h => nowrite_arg2 op (mem2 h))).trans (u2_arg2 m c)
theorem u4_arg2 : U4 m c (Proc.devRef .tc main_arg2) = m ((c.tc : Thread nD τ).loc main_arg2) :=
  (after_of_forall_not_mem (opsA3 (F := Ideal)) (U3 m c) (fun op h => nowrite_arg2 op (mem3 h))).trans (u3_arg2 m c)
theorem u5_arg2 : U5 m c (Proc.devRef .tc main_arg2) = m ((c.tc : Thread nD τ).loc main_arg2) :=
  (after_of_forall_not_mem (opsA4 (F := Ideal)) (U4 m c) (fun op h => nowrite_arg2 op (mem4 h))).trans (u4_arg2 m c)
theorem u6_arg2 : U6 m c (Proc.devRef .tc main_arg2) = m ((c.tc : Thread nD τ).loc main_arg2) :=
  (after_of_forall_not_mem (opsA5 (F := Ideal)) (U5 m c) (fun op h => nowrite_arg2 op (mem5 h))).trans (u5_arg2 m c)
theorem u7_arg2 : U7 m c (Proc.devRef .tc main_arg2) = m ((c.tc : Thread nD τ).loc main_arg2) :=
  (after_of_forall_not_mem (opsA6 (F := Ideal)) (U6 m c) (fun op h => nowrite_arg2 op (mem6 h))).trans (u6_arg2 m c)
theorem u8_arg2 : U8 m c (Proc.devRef .tc main_arg2) = m ((c.tc : Thread nD τ).loc main_arg2) :=
  (after_of_forall_not_mem (opsA7 (F := Ideal)) (U7 m c) (fun op h => nowrite_arg2 op (mem7 h))).trans (u7_arg2 m c)
theorem u9_arg2 : U9 m c (Proc.devRef .tc main_arg2) = m ((c.tc : Thread nD τ).loc main_arg2) :=
  (after_of_forall_not_mem (opsA8 (F := Ideal)) (U8 m c) (fun op h => nowrite_arg2 op (mem8 h))).trans (u8_arg2 m c)
theorem u0_arg3 : U0 m c (Proc.devRef .tc main_arg3) = m ((c.tc : Thread nD τ).loc main_arg3) := rfl
theorem u1_arg3 : U1 m c (Proc.devRef .tc main_arg3) = m ((c.tc : Thread nD τ).loc main_arg3) :=
  (after_of_forall_not_mem (opsA0 (F := Ideal)) (U0 m c) (fun op h => nowrite_arg3 op (mem0 h))).trans (u0_arg3 m c)
theorem u2_arg3 : U2 m c (Proc.devRef .tc main_arg3) = m ((c.tc : Thread nD τ).loc main_arg3) :=
  (after_of_forall_not_mem (opsA1 (F := Ideal)) (U1 m c) (fun op h => nowrite_arg3 op (mem1 h))).trans (u1_arg3 m c)
theorem u3_arg3 : U3 m c (Proc.devRef .tc main_arg3) = m ((c.tc : Thread nD τ).loc main_arg3) :=
  (after_of_forall_not_mem (opsA2 (F := Ideal)) (U2 m c) (fun op h => nowrite_arg3 op (mem2 h))).trans (u2_arg3 m c)
theorem u4_arg3 : U4 m c (Proc.devRef .tc main_arg3) = m ((c.tc : Thread nD τ).loc main_arg3) :=
  (after_of_forall_not_mem (opsA3 (F := Ideal)) (U3 m c) (fun op h => nowrite_arg3 op (mem3 h))).trans (u3_arg3 m c)
theorem u5_arg3 : U5 m c (Proc.devRef .tc main_arg3) = m ((c.tc : Thread nD τ).loc main_arg3) :=
  (after_of_forall_not_mem (opsA4 (F := Ideal)) (U4 m c) (fun op h => nowrite_arg3 op (mem4 h))).trans (u4_arg3 m c)
theorem u6_arg3 : U6 m c (Proc.devRef .tc main_arg3) = m ((c.tc : Thread nD τ).loc main_arg3) :=
  (after_of_forall_not_mem (opsA5 (F := Ideal)) (U5 m c) (fun op h => nowrite_arg3 op (mem5 h))).trans (u5_arg3 m c)
theorem u0_arg4 : U0 m c (Proc.devRef .tc main_arg4) = m ((c.tc : Thread nD τ).loc main_arg4) := rfl
theorem u1_arg4 : U1 m c (Proc.devRef .tc main_arg4) = m ((c.tc : Thread nD τ).loc main_arg4) :=
  (after_of_forall_not_mem (opsA0 (F := Ideal)) (U0 m c) (fun op h => nowrite_arg4 op (mem0 h))).trans (u0_arg4 m c)
theorem u2_arg4 : U2 m c (Proc.devRef .tc main_arg4) = m ((c.tc : Thread nD τ).loc main_arg4) :=
  (after_of_forall_not_mem (opsA1 (F := Ideal)) (U1 m c) (fun op h => nowrite_arg4 op (mem1 h))).trans (u1_arg4 m c)
theorem u3_arg4 : U3 m c (Proc.devRef .tc main_arg4) = m ((c.tc : Thread nD τ).loc main_arg4) :=
  (after_of_forall_not_mem (opsA2 (F := Ideal)) (U2 m c) (fun op h => nowrite_arg4 op (mem2 h))).trans (u2_arg4 m c)
theorem u4_arg4 : U4 m c (Proc.devRef .tc main_arg4) = m ((c.tc : Thread nD τ).loc main_arg4) :=
  (after_of_forall_not_mem (opsA3 (F := Ideal)) (U3 m c) (fun op h => nowrite_arg4 op (mem3 h))).trans (u3_arg4 m c)
theorem u5_arg4 : U5 m c (Proc.devRef .tc main_arg4) = m ((c.tc : Thread nD τ).loc main_arg4) :=
  (after_of_forall_not_mem (opsA4 (F := Ideal)) (U4 m c) (fun op h => nowrite_arg4 op (mem4 h))).trans (u4_arg4 m c)
theorem u6_arg4 : U6 m c (Proc.devRef .tc main_arg4) = m ((c.tc : Thread nD τ).loc main_arg4) :=
  (after_of_forall_not_mem (opsA5 (F := Ideal)) (U5 m c) (fun op h => nowrite_arg4 op (mem5 h))).trans (u5_arg4 m c)
theorem u0_arg5 : U0 m c (Proc.devRef .tc main_arg5) = m ((c.tc : Thread nD τ).loc main_arg5) := rfl
theorem u1_arg5 : U1 m c (Proc.devRef .tc main_arg5) = m ((c.tc : Thread nD τ).loc main_arg5) :=
  (after_of_forall_not_mem (opsA0 (F := Ideal)) (U0 m c) (fun op h => nowrite_arg5 op (mem0 h))).trans (u0_arg5 m c)
theorem u2_arg5 : U2 m c (Proc.devRef .tc main_arg5) = m ((c.tc : Thread nD τ).loc main_arg5) :=
  (after_of_forall_not_mem (opsA1 (F := Ideal)) (U1 m c) (fun op h => nowrite_arg5 op (mem1 h))).trans (u1_arg5 m c)
theorem u3_arg5 : U3 m c (Proc.devRef .tc main_arg5) = m ((c.tc : Thread nD τ).loc main_arg5) :=
  (after_of_forall_not_mem (opsA2 (F := Ideal)) (U2 m c) (fun op h => nowrite_arg5 op (mem2 h))).trans (u2_arg5 m c)
theorem u4_arg5 : U4 m c (Proc.devRef .tc main_arg5) = m ((c.tc : Thread nD τ).loc main_arg5) :=
  (after_of_forall_not_mem (opsA3 (F := Ideal)) (U3 m c) (fun op h => nowrite_arg5 op (mem3 h))).trans (u3_arg5 m c)
theorem u5_arg5 : U5 m c (Proc.devRef .tc main_arg5) = m ((c.tc : Thread nD τ).loc main_arg5) :=
  (after_of_forall_not_mem (opsA4 (F := Ideal)) (U4 m c) (fun op h => nowrite_arg5 op (mem4 h))).trans (u4_arg5 m c)
theorem u6_arg5 : U6 m c (Proc.devRef .tc main_arg5) = m ((c.tc : Thread nD τ).loc main_arg5) :=
  (after_of_forall_not_mem (opsA5 (F := Ideal)) (U5 m c) (fun op h => nowrite_arg5 op (mem5 h))).trans (u5_arg5 m c)
theorem u7_arg5 : U7 m c (Proc.devRef .tc main_arg5) = m ((c.tc : Thread nD τ).loc main_arg5) :=
  (after_of_forall_not_mem (opsA6 (F := Ideal)) (U6 m c) (fun op h => nowrite_arg5 op (mem6 h))).trans (u6_arg5 m c)
theorem u8_arg5 : U8 m c (Proc.devRef .tc main_arg5) = m ((c.tc : Thread nD τ).loc main_arg5) :=
  (after_of_forall_not_mem (opsA7 (F := Ideal)) (U7 m c) (fun op h => nowrite_arg5 op (mem7 h))).trans (u7_arg5 m c)
theorem u0_arg6 : U0 m c (Proc.devRef .tc main_arg6) = m ((c.tc : Thread nD τ).loc main_arg6) := rfl
theorem u1_arg6 : U1 m c (Proc.devRef .tc main_arg6) = m ((c.tc : Thread nD τ).loc main_arg6) :=
  (after_of_forall_not_mem (opsA0 (F := Ideal)) (U0 m c) (fun op h => nowrite_arg6 op (mem0 h))).trans (u0_arg6 m c)
theorem u2_arg6 : U2 m c (Proc.devRef .tc main_arg6) = m ((c.tc : Thread nD τ).loc main_arg6) :=
  (after_of_forall_not_mem (opsA1 (F := Ideal)) (U1 m c) (fun op h => nowrite_arg6 op (mem1 h))).trans (u1_arg6 m c)
theorem u3_arg6 : U3 m c (Proc.devRef .tc main_arg6) = m ((c.tc : Thread nD τ).loc main_arg6) :=
  (after_of_forall_not_mem (opsA2 (F := Ideal)) (U2 m c) (fun op h => nowrite_arg6 op (mem2 h))).trans (u2_arg6 m c)
theorem u4_arg6 : U4 m c (Proc.devRef .tc main_arg6) = m ((c.tc : Thread nD τ).loc main_arg6) :=
  (after_of_forall_not_mem (opsA3 (F := Ideal)) (U3 m c) (fun op h => nowrite_arg6 op (mem3 h))).trans (u3_arg6 m c)
theorem u5_arg6 : U5 m c (Proc.devRef .tc main_arg6) = m ((c.tc : Thread nD τ).loc main_arg6) :=
  (after_of_forall_not_mem (opsA4 (F := Ideal)) (U4 m c) (fun op h => nowrite_arg6 op (mem4 h))).trans (u4_arg6 m c)
theorem u6_arg6 : U6 m c (Proc.devRef .tc main_arg6) = m ((c.tc : Thread nD τ).loc main_arg6) :=
  (after_of_forall_not_mem (opsA5 (F := Ideal)) (U5 m c) (fun op h => nowrite_arg6 op (mem5 h))).trans (u5_arg6 m c)
theorem u7_arg6 : U7 m c (Proc.devRef .tc main_arg6) = m ((c.tc : Thread nD τ).loc main_arg6) :=
  (after_of_forall_not_mem (opsA6 (F := Ideal)) (U6 m c) (fun op h => nowrite_arg6 op (mem6 h))).trans (u6_arg6 m c)
theorem u8_arg6 : U8 m c (Proc.devRef .tc main_arg6) = m ((c.tc : Thread nD τ).loc main_arg6) :=
  (after_of_forall_not_mem (opsA7 (F := Ideal)) (U7 m c) (fun op h => nowrite_arg6 op (mem7 h))).trans (u7_arg6 m c)

/-! ## The stages at the cut points -/

theorem u1_v1 : U1 m c (Proc.devRef .tc main_v1) = val_main_v1 (F := Ideal) (m ((c.tc : Thread nD τ).loc main_arg1)) := seg0_v1 (U0 m c) (u0_arg1 m c)
theorem u1_v3 : U1 m c (Proc.devRef .tc main_v3) = val_main_v3 (F := Ideal) (m ((c.tc : Thread nD τ).loc main_arg1)) := seg0_v3 (U0 m c) (u0_arg1 m c)
theorem u1_v7 : U1 m c (Proc.devRef .tc main_v7) = val_main_v7 (F := Ideal) (m ((c.tc : Thread nD τ).loc main_arg4)) := seg0_v7 (U0 m c) (u0_arg4 m c)
theorem u1_v8 : U1 m c (Proc.devRef .tc main_v8) = val_main_v8 (F := Ideal) (m ((c.tc : Thread nD τ).loc main_arg0)) (m ((c.tc : Thread nD τ).loc main_arg3)) := seg0_v8 (U0 m c) (u0_arg0 m c) (u0_arg3 m c)
theorem u2_v1 : U2 m c (Proc.devRef .tc main_v1) = val_main_v1 (F := Ideal) (m ((c.tc : Thread nD τ).loc main_arg1)) := (keep1_v1 (U1 m c)).trans (u1_v1 m c)
theorem u3_v1 : U3 m c (Proc.devRef .tc main_v1) = val_main_v1 (F := Ideal) (m ((c.tc : Thread nD τ).loc main_arg1)) := (keep2_v1 (U2 m c)).trans (u2_v1 m c)
theorem u4_v1 : U4 m c (Proc.devRef .tc main_v1) = val_main_v1 (F := Ideal) (m ((c.tc : Thread nD τ).loc main_arg1)) := (keep3_v1 (U3 m c)).trans (u3_v1 m c)
theorem u5_v1 : U5 m c (Proc.devRef .tc main_v1) = val_main_v1 (F := Ideal) (m ((c.tc : Thread nD τ).loc main_arg1)) := (keep4_v1 (U4 m c)).trans (u4_v1 m c)
theorem u6_v1 : U6 m c (Proc.devRef .tc main_v1) = val_main_v1 (F := Ideal) (m ((c.tc : Thread nD τ).loc main_arg1)) := (keep5_v1 (U5 m c)).trans (u5_v1 m c)
theorem u7_v1 : U7 m c (Proc.devRef .tc main_v1) = val_main_v1 (F := Ideal) (m ((c.tc : Thread nD τ).loc main_arg1)) := (keep6_v1 (U6 m c)).trans (u6_v1 m c)
theorem u2_v3 : U2 m c (Proc.devRef .tc main_v3) = val_main_v3 (F := Ideal) (m ((c.tc : Thread nD τ).loc main_arg1)) := (keep1_v3 (U1 m c)).trans (u1_v3 m c)
theorem u3_v3 : U3 m c (Proc.devRef .tc main_v3) = val_main_v3 (F := Ideal) (m ((c.tc : Thread nD τ).loc main_arg1)) := (keep2_v3 (U2 m c)).trans (u2_v3 m c)
theorem u4_v3 : U4 m c (Proc.devRef .tc main_v3) = val_main_v3 (F := Ideal) (m ((c.tc : Thread nD τ).loc main_arg1)) := (keep3_v3 (U3 m c)).trans (u3_v3 m c)
theorem u5_v3 : U5 m c (Proc.devRef .tc main_v3) = val_main_v3 (F := Ideal) (m ((c.tc : Thread nD τ).loc main_arg1)) := (keep4_v3 (U4 m c)).trans (u4_v3 m c)
theorem u6_v3 : U6 m c (Proc.devRef .tc main_v3) = val_main_v3 (F := Ideal) (m ((c.tc : Thread nD τ).loc main_arg1)) := (keep5_v3 (U5 m c)).trans (u5_v3 m c)
theorem u7_v3 : U7 m c (Proc.devRef .tc main_v3) = val_main_v3 (F := Ideal) (m ((c.tc : Thread nD τ).loc main_arg1)) := (keep6_v3 (U6 m c)).trans (u6_v3 m c)

theorem u2_v53 : U2 m c (Proc.devRef .tc main_v53) = val_main_v53 (F := Ideal) (m ((c.tc : Thread nD τ).loc main_arg0)) (m ((c.tc : Thread nD τ).loc main_arg1)) (m ((c.tc : Thread nD τ).loc main_arg3)) := seg1_v53 (U1 m c) (u1_v8 m c) (u1_v1 m c) (u1_v3 m c)
theorem u2_v7 : U2 m c (Proc.devRef .tc main_v7) = val_main_v7 (F := Ideal) (m ((c.tc : Thread nD τ).loc main_arg4)) := (keep1_v7 (U1 m c)).trans (u1_v7 m c)
theorem u3_v85 : U3 m c (Proc.devRef .tc main_v85) = val_main_v85 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := seg2_v85 (U2 m c) (u2_v53 m c) (u2_v7 m c) (u2_arg5 m c) (u2_arg6 m c)
theorem u4_v89 : U4 m c (Proc.devRef .tc main_v89) = val_main_v89 (F := Ideal) (m ((c.tc : Thread nD τ).loc main_arg4)) := seg3_v89 (U3 m c) (u3_arg4 m c)
theorem u4_v90 : U4 m c (Proc.devRef .tc main_v90) = val_main_v90 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := seg3_v90 (U3 m c) (u3_v85 m c) (u3_arg3 m c)
theorem u5_v135 : U5 m c (Proc.devRef .tc main_v135) = val_main_v135 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := seg4_v135 (U4 m c) (u4_v90 m c) (u4_v1 m c) (u4_v3 m c)
theorem u5_v89 : U5 m c (Proc.devRef .tc main_v89) = val_main_v89 (F := Ideal) (m ((c.tc : Thread nD τ).loc main_arg4)) := (keep4_v89 (U4 m c)).trans (u4_v89 m c)
theorem u6_v167 : U6 m c (Proc.devRef .tc main_v167) = val_main_v167 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := seg5_v167 (U5 m c) (u5_v135 m c) (u5_v89 m c) (u5_arg5 m c) (u5_arg6 m c)
theorem u7_v171 : U7 m c (Proc.devRef .tc main_v171) = val_main_v171 (F := Ideal) (m ((c.tc : Thread nD τ).loc main_arg4)) := seg6_v171 (U6 m c) (u6_arg4 m c)
theorem u7_v172 : U7 m c (Proc.devRef .tc main_v172) = val_main_v172 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := seg6_v172 (U6 m c) (u6_v167 m c) (u6_arg3 m c)
theorem u8_v217 : U8 m c (Proc.devRef .tc main_v217) = val_main_v217 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := seg7_v217 (U7 m c) (u7_v172 m c) (u7_v1 m c) (u7_v3 m c)
theorem u8_v171 : U8 m c (Proc.devRef .tc main_v171) = val_main_v171 (F := Ideal) (m ((c.tc : Thread nD τ).loc main_arg4)) := (keep7_v171 (U7 m c)).trans (u7_v171 m c)
theorem u9_v249 : U9 m c (Proc.devRef .tc main_v249) = val_main_v249 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := seg8_v249 (U8 m c) (u8_v217 m c) (u8_v171 m c) (u8_arg5 m c) (u8_arg6 m c)
/-- The result buffer at the end is the last stage. -/
theorem u10_v261 : U10 m c (Proc.devRef .tc main_v261) = val_main_v261 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := seg9_v261 (U9 m c) (u9_v249 m c) (u9_arg2 m c)

end Cuts

/-! ## The run -/

/-- Every weakly fair execution of the reference terminates without a fault, the result buffer at the last stage's value
    of the launch arguments, the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v261) = val_main_v261 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v261).trans ((congrFun (after_ops m c) _).trans (u10_v261 m c)),
      (h c main_arg0).trans (after_of_forall_not_mem _ _ nowrite_arg0),
      (h c main_arg1).trans (after_of_forall_not_mem _ _ nowrite_arg1),
      (h c main_arg2).trans (after_of_forall_not_mem _ _ nowrite_arg2),
      (h c main_arg3).trans (after_of_forall_not_mem _ _ nowrite_arg3),
      (h c main_arg4).trans (after_of_forall_not_mem _ _ nowrite_arg4),
      (h c main_arg5).trans (after_of_forall_not_mem _ _ nowrite_arg5),
      (h c main_arg6).trans (after_of_forall_not_mem _ _ nowrite_arg6)⟩)
    (run_seq scopedRefs_eq scopedSems_eq defs main (fun _ => ops) main_eq (fun _ => ops_sub) m ρ)

end Cert.Gcn.RefRun

end
-- ==== Proof.lean ====
/-
  THE CERTIFICATE: a three-layer graph-convolution stack with a mean pooling, as a pipeline of six kernel regions among
  host operations, against its plain array reference, on the extended reals.

  Per layer the kernel program multiplies the node features by the layer's weight in one region (2000 rows per grid
  point, the whole 256 × 256 weight at every point), mixes rows along the graph's edges on the host exactly as the
  reference does, and in a second region adds the bias and normalises, scales, shifts and clips every row. The reference
  does the same with `dot_general` and whole-array operations. At the exact instance a change of float format is the
  identity, the matrix unit's product into a zero accumulator and the host's `dot_general` are the same sum over the
  contraction axis, and a lane sum and a host row sum are the same sum; every other operation is the same operation on
  both sides, in the same order. So no algebraic law beyond these is used and the precondition is never opened.

  The pieces: `Spec` states the two dense parts as plain functions; `MmRegions` and `LnRegions` show each region's
  output array is that function of the region's input arrays (the blocks tile the rows); `RefLayers` shows the
  reference's stages are the same functions; `Chain` walks the kernel program's segments and identifies every buffer a
  later segment reads with the reference's stage; `KernelRun` and `RefRun` are the two programs' runs with the result
  buffer named. The frames of the two kernel programs are the generated ones; the reference's frame is its run with the
  result dropped. The idealization rewrote nothing, so there is nothing to preserve.
-/
import proofs.«165873_j6476810682405_1_alg».proof.Defs
import proofs.«165873_j6476810682405_1_alg».proof.Proof.Gen.Kernel
import proofs.«165873_j6476810682405_1_alg».proof.Proof.Gen.Kernel.Frame
import proofs.«165873_j6476810682405_1_alg».proof.Proof.Gen.KernelIdeal
import proofs.«165873_j6476810682405_1_alg».proof.Proof.Gen.KernelIdeal.Frame
import proofs.«165873_j6476810682405_1_alg».proof.Proof.Gen.ReferenceIdeal
import proofs.«165873_j6476810682405_1_alg».proof.Proof.Gen.Pre_finite_inputs
import proofs.«165873_j6476810682405_1_alg».proof.Proof.KernelRun
import proofs.«165873_j6476810682405_1_alg».proof.Proof.Chain
import proofs.«165873_j6476810682405_1_alg».proof.Proof.RefRun
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.Gcn.RefRun.run m ρ)

/-- From memories agreeing on the arguments both idealized programs end with the reference's last stage of the
    arguments in their result buffers. -/
theorem algebraic : Cert.algebraic_KernelIdeal_ReferenceIdeal := by
  intro m ρ m' ρ' _ hagree
  refine ⟨fun c => Cert.ReferenceIdeal.ReadP.val_main_v261 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gcn.Chain.w13_v129 m ρ c), (h c).2⟩)
      (Cert.KernelIdeal.Result.run_result (F := Ideal) m ρ)
  · refine (θ_run Cert.ReferenceIdeal.defs _ _).mono (fun _ h c => ⟨(h c).1.trans ?_, (h c).2⟩)
      (Cert.Gcn.RefRun.run m' ρ')
    rw [(hagree c).1, (hagree c).2.1, (hagree c).2.2.1, (hagree c).2.2.2.1, (hagree c).2.2.2.2.1,
      (hagree c).2.2.2.2.2.1, (hagree c).2.2.2.2.2.2]

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
